-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096 : Shape := ⟨2, ![1, 4096]⟩
abbrev S4096x2048 : Shape := ⟨2, ![4096, 2048]⟩
abbrev S1x2048 : Shape := ⟨2, ![1, 2048]⟩
abbrev S8192x4096 : Shape := ⟨2, ![8192, 4096]⟩
abbrev S8192 : Shape := ⟨1, ![8192]⟩
abbrev S8192x2048 : Shape := ⟨2, ![8192, 2048]⟩
abbrev S2048x4096 : Shape := ⟨2, ![2048, 4096]⟩
abbrev S2048 : Shape := ⟨1, ![2048]⟩
abbrev S2048x2048 : Shape := ⟨2, ![2048, 2048]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S8192 : S_.BroadcastsInDim S8192 (![] : Fin 0 → Fin S8192.rank)
  reducesTo_S8192_S_d0 : S8192.ReducesTo [0] S_
  bcast_S_S8192x2048 : S_.BroadcastsInDim S8192x2048 (![] : Fin 0 → Fin S8192x2048.rank)
  reducesTo_S8192x2048_S_d0_1 : S8192x2048.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part3 {F : FTy → Type} [FloatOps F] (main_arg11 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  main_v58

def fn_part2 {F : FTy → Type} [FloatOps F] (main_arg7 : FVec F S8192 .f32) (main_arg8 : FVec F S2048x4096 .f32) (main_arg9 : FVec F S2048 .f32) (main_arg10 : FVec F S2048x2048 .f32) (main_arg11 : FVec F S2048 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  let main_v39 : FVec F S2048x4096 .f32 := Host.absf main_arg8
  let main_cst_14 : FVec F S_ .f32 := constant S_ .f32 0x7F800000#32
  let main_v40 : FVec F S2048x4096 .f32 := broadcastInDim S2048x4096 ![] bcast_S_S2048x4096 main_cst_14
  let main_v41 : IVec S2048x4096 1 := cmpf .olt main_v39 main_v40
  let main_c_15 : IVec S_ 1 := constantI S_ 1 1#1
  let main_v42 : IVec S_ 1 := (fun x v => Host.reduce IntOp.andi x v reducesTo_S2048x4096_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_v48 main_v49 main_v50

def fn_part1 {F : FTy → Type} [FloatOps F] (main_arg4 : FVec F S8192x4096 .f32) (main_arg5 : FVec F S8192 .f32) (main_arg6 : FVec F S8192x2048 .f32) (main_arg7 : FVec F S8192 .f32) (main_arg8 : FVec F S2048x4096 .f32) (main_arg9 : FVec F S2048 .f32) (main_arg10 : FVec F S2048x2048 .f32) (main_arg11 : FVec F S2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S8192x4096 .f32 := Host.absf main_arg4
  let main_cst_6 : FVec F S_ .f32 := constant S_ .f32 0x7F800000#32
  let main_v20 : FVec F S8192x4096 .f32 := broadcastInDim S8192x4096 ![] bcast_S_S8192x4096 main_cst_6
  let main_v21 : IVec S8192x4096 1 := cmpf .olt main_v19 main_v20
  let main_c_7 : IVec S_ 1 := constantI S_ 1 1#1
  let main_v22 : IVec S_ 1 := (fun x v => Host.reduce IntOp.andi x v reducesTo_S8192x4096_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192x2048 .f32 := Host.absf main_arg6
  let main_cst_10 : FVec F S_ .f32 := constant S_ .f32 0x7F800000#32
  let main_v30 : FVec F S8192x2048 .f32 := broadcastInDim S8192x2048 ![] bcast_S_S8192x2048 main_cst_10
  let main_v31 : IVec S8192x2048 1 := cmpf .olt main_v29 main_v30
  let main_c_11 : IVec S_ 1 := constantI S_ 1 1#1
  let main_v32 : IVec S_ 1 := (fun x v => Host.reduce IntOp.andi x v reducesTo_S8192x2048_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1x4096 .f32) (main_arg1 : FVec F S4096x2048 .f32) (main_arg2 : FVec F S1x2048 .f32) (main_arg3 : FVec F S1x2048 .f32) (main_arg4 : FVec F S8192x4096 .f32) (main_arg5 : FVec F S8192 .f32) (main_arg6 : FVec F S8192x2048 .f32) (main_arg7 : FVec F S8192 .f32) (main_arg8 : FVec F S2048x4096 .f32) (main_arg9 : FVec F S2048 .f32) (main_arg10 : FVec F S2048x2048 .f32) (main_arg11 : FVec F S2048 .f32) : IVec S_ 1 :=
  let main_v0 : FVec F S1x4096 .f32 := Host.absf main_arg0
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_arg6 main_arg7 main_arg8 main_arg9 main_arg10 main_arg11 main_v13 main_v16
-- ==== Kernel.lean ====
abbrev S1x4096 : Shape := ⟨2, ![1, 4096]⟩
abbrev S4096x2048 : Shape := ⟨2, ![4096, 2048]⟩
abbrev S1x2048 : Shape := ⟨2, ![1, 2048]⟩
abbrev S8192x4096 : Shape := ⟨2, ![8192, 4096]⟩
abbrev S8192 : Shape := ⟨1, ![8192]⟩
abbrev S8192x2048 : Shape := ⟨2, ![8192, 2048]⟩
abbrev S2048x4096 : Shape := ⟨2, ![2048, 4096]⟩
abbrev S2048 : Shape := ⟨1, ![2048]⟩
abbrev S2048x2048 : Shape := ⟨2, ![2048, 2048]⟩
abbrev S1x8192 : Shape := ⟨2, ![1, 8192]⟩
abbrev S512x4096 : Shape := ⟨2, ![512, 4096]⟩
abbrev S1x512 : Shape := ⟨2, ![1, 512]⟩
abbrev S512x2048 : Shape := ⟨2, ![512, 2048]⟩
abbrev S_ : Shape := ⟨0, ![]⟩
abbrev S2x1x2048 : Shape := ⟨3, ![2, 1, 2048]⟩
abbrev S1024x2048 : Shape := ⟨2, ![1024, 2048]⟩
abbrev S1x1x2048 : Shape := ⟨3, ![1, 1, 2048]⟩

abbrev nBuf : Space → Nat
  | .hbm => 54
  | .vmem => 33
  | .smem => 0
  | _ => 0

abbrev bufTy : (tb : Table) → Fin (tcTables nBuf tb) → BufTy
  | .hbm, ⟨0, _⟩ => ⟨S1x4096, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S8192x4096, .f32⟩
  | .hbm, ⟨5, _⟩ => ⟨S8192, .f32⟩
  | .hbm, ⟨6, _⟩ => ⟨S8192x2048, .f32⟩
  | .hbm, ⟨7, _⟩ => ⟨S8192, .f32⟩
  | .hbm, ⟨8, _⟩ => ⟨S2048x4096, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S1x8192, .f32⟩
  | .hbm, ⟨13, _⟩ => ⟨S1x8192, .f32⟩
  | .hbm, ⟨14, _⟩ => ⟨S1x2048, .f32⟩
  | .hbm, ⟨15, _⟩ => ⟨S1x2048, .f32⟩
  | .hbm, ⟨16, _⟩ => ⟨S1x8192, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S_, .f32⟩
  | .hbm, ⟨30, _⟩ => ⟨S1x2048, .f32⟩
  | .hbm, ⟨31, _⟩ => ⟨S1x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S2048x2048, .bf16⟩
  | .hbm, ⟨39, _⟩ => ⟨S2x1x2048, .f32⟩
  | .hbm, ⟨40, _⟩ => ⟨S2x1x2048, .f32⟩
  | .hbm, ⟨41, _⟩ => ⟨S1x1x2048, .f32⟩
  | .hbm, ⟨42, _⟩ => ⟨S1x2048, .f32⟩
  | .hbm, ⟨43, _⟩ => ⟨S1x1x2048, .f32⟩
  | .hbm, ⟨44, _⟩ => ⟨S1x2048, .f32⟩
  | .hbm, ⟨45, _⟩ => ⟨S1x2048, .f32⟩
  | .hbm, ⟨46, _⟩ => ⟨S1x1x2048, .f32⟩
  | .hbm, ⟨47, _⟩ => ⟨S1x2048, .f32⟩
  | .hbm, ⟨48, _⟩ => ⟨S1x1x2048, .f32⟩
  | .hbm, ⟨49, _⟩ => ⟨S1x2048, .f32⟩
  | .hbm, ⟨50, _⟩ => ⟨S1x2048, .f32⟩
  | .hbm, ⟨51, _⟩ => ⟨S1x2048, .f32⟩
  | .hbm, ⟨52, _⟩ => ⟨S1x2048, .f32⟩
  | .hbm, ⟨53, _⟩ => ⟨S1x2048, .f32⟩
  | .local _ .vmem, ⟨0, _⟩ => ⟨S1x4096, .f32⟩
  | .local _ .vmem, ⟨1, _⟩ => ⟨S1x2048, .f32⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S512x2048, .f32⟩
  | .local _ .vmem, ⟨7, _⟩ => ⟨S512x2048, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x4096, .f32⟩
  | .local _ .vmem, ⟨13, _⟩ => ⟨S512x4096, .f32⟩
  | .local _ .vmem, ⟨14, _⟩ => ⟨S512x4096, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S2048x2048, .bf16⟩
  | .local _ .vmem, ⟨25, _⟩ => ⟨S1024x2048, .f32⟩
  | .local _ .vmem, ⟨26, _⟩ => ⟨S1024x2048, .f32⟩
  | .local _ .vmem, ⟨27, _⟩ => ⟨S1x1x2048, .f32⟩
  | .local _ .vmem, ⟨28, _⟩ => ⟨S1x1x2048, .f32⟩
  | .local _ .vmem, ⟨29, _⟩ => ⟨S1x1x2048, .f32⟩
  | .local _ .vmem, ⟨30, _⟩ => ⟨S1x1x2048, .f32⟩
  | .local _ .vmem, ⟨31, _⟩ => ⟨S1x2048, .f32⟩
  | .local _ .vmem, ⟨32, _⟩ => ⟨S1x2048, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc2_scratch0 : Ref sig .tc := ⟨.vmem, 31, rfl⟩
abbrev cc2_scratch1 : Ref sig .tc := ⟨.vmem, 32, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc2_sem0_0 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem5_1 : DmaSem sig := 28
abbrev cc2_sem6_0 : DmaSem sig := 29
abbrev cc2_sem6_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 2], ![false, false]⟩

def k2_cond3 (i : grid2.Coords) : BitVec 1 :=
  let arg1 : BitVec 32 := BitVec.ofNat 32 (i 1).val
  let c1_i32 : BitVec 32 := 1#32
  let v34 : BitVec 1 := Scalar.cmpi .eq arg1 c1_i32
  let v35 : BitVec 32 := Scalar.extui v34
  let c0_i32_19 : BitVec 32 := 0#32
  let v36 : BitVec 1 := Scalar.cmpi .ne v35 c0_i32_19
  v36

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S2048x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x1x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  shapeCasts_S8192_S1x8192 : S8192.ShapeCasts S1x8192
  shapeCasts_S2048_S1x2048 : S2048.ShapeCasts S1x2048
  inb_S1x4096_S1x4096_0_0 : ∀ a, (![0, 0] : Fin 2 → Nat) a + S1x4096.size a ≤ S1x4096.size a
  h_S1x4096 : 0 < S1x4096.numel
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  inb_S512x4096_S512x4096_0_0 : ∀ a, (![0, 0] : Fin 2 → Nat) a + S512x4096.size a ≤ S512x4096.size a
  h_S512x4096 : 0 < S512x4096.numel
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  slices_S1x8192_S1x2048_0_0 : S1x8192.Slices ![0, 0] S1x2048
  bcast_S_S1x2048 : S_.BroadcastsInDim S1x2048 (![] : Fin 0 → Fin S1x2048.rank)
  slices_S1x8192_S1x2048_0_4096 : S1x8192.Slices ![0, 4096] S1x2048
  slices_S1x8192_S1x2048_0_6144 : S1x8192.Slices ![0, 6144] S1x2048
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S1x2048_S1024x2048 : S1x2048.Broadcasts S1024x2048
  reduces_S1024x2048_S2048 : S1024x2048.Reduces [0] S2048
  shapeCasts_S1x2048_S1x1x2048 : S1x2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  slices_S2x1x2048_S1x1x2048_0_0_0 : S2x1x2048.Slices ![0, 0, 0] S1x1x2048
  shapeCasts_S1x1x2048_S1x2048 : S1x1x2048.ShapeCasts S1x2048
  slices_S2x1x2048_S1x1x2048_1_0_0 : S2x1x2048.Slices ![1, 0, 0] S1x1x2048
  dot_S1x4096_S512x4096_S1x512_1_1_0_0_n_n_wf : DotDims.WF S1x4096 S512x4096 S1x512 [1] [1] [0] [0] [] []
  dot_S1x2048_S512x2048_S1x512_1_1_0_0_n_n_wf : DotDims.WF S1x2048 S512x2048 S1x512 [1] [1] [0] [0] [] []
  dot_S1024x2048_S2048x2048_S1024x2048_1_1_0_0_n_n_wf : DotDims.WF S1024x2048 S2048x2048 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .f32 = 32 ∨ (Rect.block (s := S1x8192) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x8192.size a
  hwx0_6 : ∀ i : grid0.Coords, EltTy.bits .f32 = 32 ∨ (Rect.block (s := S1x8192) S1x512.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S2048x4096.size a
  hwx1_1 : ∀ i : grid1.Coords, EltTy.bits .f32 = 32 ∨ (Rect.block (s := S2048x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x2048.size a
  hwx1_3 : ∀ i : grid1.Coords, EltTy.bits .f32 = 32 ∨ (Rect.block (s := S1x2048) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x2048.size a
  hwx1_4 : ∀ i : grid1.Coords, EltTy.bits .f32 = 32 ∨ (Rect.block (s := S1x2048) S1x512.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x2048.size a
  hwx2_0 : ∀ i : grid2.Coords, EltTy.bits .f32 = 32 ∨ (Rect.block (s := S1x2048) S1x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x2048.size a
  hwx2_1 : ∀ i : grid2.Coords, EltTy.bits .f32 = 32 ∨ (Rect.block (s := S1x2048) S1x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x2048.size a ≤ S2048x2048.size a
  hwx2_3 : ∀ i : grid2.Coords, EltTy.bits .bf16 = 32 ∨ (Rect.block (s := S2048x2048) S2048x2048.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x2048.size a ≤ S4096x2048.size a
  hwx2_4 : ∀ i : grid2.Coords, EltTy.bits .f32 = 32 ∨ (Rect.block (s := S4096x2048) S1024x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x2048.size a ≤ S2x1x2048.size a
  hwx2_5 : ∀ i : grid2.Coords, EltTy.bits .f32 = 32 ∨ (Rect.block (s := S2x1x2048) S1x1x2048.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x2048.size a ≤ S2x1x2048.size a
  hwx2_6 : ∀ i : grid2.Coords, EltTy.bits .f32 = 32 ∨ (Rect.block (s := S2x1x2048) S1x1x2048.size (cc2_transform_6 i) (hinb2_6 i)).WholeWords (EltTy.packing .f32)

variable [Facts₀]

def dot_S1x4096_S512x4096_S1x512_1_1_0_0_n_n : DotDims S1x4096 S512x4096 S1x512 where
  lhsContracting := [1]
  rhsContracting := [1]
  lhsNonContracting := [0]
  rhsNonContracting := [0]
  lhsBatch := []
  rhsBatch := []
  wf := dot_S1x4096_S512x4096_S1x512_1_1_0_0_n_n_wf
def dot_S1x2048_S512x2048_S1x512_1_1_0_0_n_n : DotDims S1x2048 S512x2048 S1x512 where
  lhsContracting := [1]
  rhsContracting := [1]
  lhsNonContracting := [0]
  rhsNonContracting := [0]
  lhsBatch := []
  rhsBatch := []
  wf := dot_S1x2048_S512x2048_S1x512_1_1_0_0_n_n_wf
def dot_S1024x2048_S2048x2048_S1024x2048_1_1_0_0_n_n : DotDims S1024x2048 S2048x2048 S1024x2048 where
  lhsContracting := [1]
  rhsContracting := [1]
  lhsNonContracting := [0]
  rhsNonContracting := [0]
  lhsBatch := []
  rhsBatch := []
  wf := dot_S1024x2048_S2048x2048_S1024x2048_1_1_0_0_n_n_wf

abbrev win0_0 : Pipeline.Window sig grid0 :=
  Pipeline.Window.ofSpec (Memref.whole main_arg0) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v21) S1x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S2048x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg1) S1024x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v23_0) S1x1x2048.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v23_1) S1x1x2048.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond3 i == 1#1) | 6 => fun i => !(k2_cond3 i == 1#1) | ⟨_ + 7, h⟩ => absurd h (Nat.not_lt.2 (Nat.le_add_left _ _))

class Facts : Prop extends Facts₀ where

variable [Facts]
-- ==== ReferenceIdeal.lean ====
abbrev S1x4096 : Shape := ⟨2, ![1, 4096]⟩
abbrev S4096x2048 : Shape := ⟨2, ![4096, 2048]⟩
abbrev S1x2048 : Shape := ⟨2, ![1, 2048]⟩
abbrev S8192x4096 : Shape := ⟨2, ![8192, 4096]⟩
abbrev S8192 : Shape := ⟨1, ![8192]⟩
abbrev S8192x2048 : Shape := ⟨2, ![8192, 2048]⟩
abbrev S2048x4096 : Shape := ⟨2, ![2048, 4096]⟩
abbrev S2048 : Shape := ⟨1, ![2048]⟩
abbrev S2048x2048 : Shape := ⟨2, ![2048, 2048]⟩
abbrev S4096x8192 : Shape := ⟨2, ![4096, 8192]⟩
abbrev S1x8192 : Shape := ⟨2, ![1, 8192]⟩
abbrev S2048x8192 : Shape := ⟨2, ![2048, 8192]⟩
abbrev S_ : Shape := ⟨0, ![]⟩
abbrev S4097x2048 : Shape := ⟨2, ![4097, 2048]⟩

abbrev nBuf : Space → Nat
  | .hbm => 86
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S8192x4096, .f32⟩
  | .hbm, ⟨5, _⟩ => ⟨S8192, .f32⟩
  | .hbm, ⟨6, _⟩ => ⟨S8192x2048, .f32⟩
  | .hbm, ⟨7, _⟩ => ⟨S8192, .f32⟩
  | .hbm, ⟨8, _⟩ => ⟨S2048x4096, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S4096x8192, .f32⟩
  | .hbm, ⟨13, _⟩ => ⟨S1x8192, .f32⟩
  | .hbm, ⟨14, _⟩ => ⟨S1x8192, .f32⟩
  | .hbm, ⟨15, _⟩ => ⟨S1x8192, .f32⟩
  | .hbm, ⟨16, _⟩ => ⟨S2048x8192, .f32⟩
  | .hbm, ⟨17, _⟩ => ⟨S1x8192, .f32⟩
  | .hbm, ⟨18, _⟩ => ⟨S1x8192, .f32⟩
  | .hbm, ⟨19, _⟩ => ⟨S1x8192, .f32⟩
  | .hbm, ⟨20, _⟩ => ⟨S1x8192, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S_, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S_, .f32⟩
  | .hbm, ⟨39, _⟩ => ⟨S1x2048, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S1x2048, .f32⟩
  | .hbm, ⟨45, _⟩ => ⟨S1x2048, .f32⟩
  | .hbm, ⟨46, _⟩ => ⟨S1x2048, .f32⟩
  | .hbm, ⟨47, _⟩ => ⟨S_, .f32⟩
  | .hbm, ⟨48, _⟩ => ⟨S1x2048, .f32⟩
  | .hbm, ⟨49, _⟩ => ⟨S1x2048, .f32⟩
  | .hbm, ⟨50, _⟩ => ⟨S_, .f32⟩
  | .hbm, ⟨51, _⟩ => ⟨S1x2048, .f32⟩
  | .hbm, ⟨52, _⟩ => ⟨S1x2048, .f32⟩
  | .hbm, ⟨53, _⟩ => ⟨S4096x2048, .f32⟩
  | .hbm, ⟨54, _⟩ => ⟨S1x2048, .f32⟩
  | .hbm, ⟨55, _⟩ => ⟨S1x2048, .f32⟩
  | .hbm, ⟨56, _⟩ => ⟨S1x2048, .f32⟩
  | .hbm, ⟨57, _⟩ => ⟨S2048x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S1x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S4096x2048, .f32⟩
  | .hbm, ⟨71, _⟩ => ⟨S4096x2048, .f32⟩
  | .hbm, ⟨72, _⟩ => ⟨S4097x2048, .f32⟩
  | .hbm, ⟨73, _⟩ => ⟨S4097x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S4097x2048, .f32⟩
  | .hbm, ⟨78, _⟩ => ⟨S4097x2048, .f32⟩
  | .hbm, ⟨79, _⟩ => ⟨S4097x2048, .f32⟩
  | .hbm, ⟨80, _⟩ => ⟨S4097x2048, .f32⟩
  | .hbm, ⟨81, _⟩ => ⟨S_, .f32⟩
  | .hbm, ⟨82, _⟩ => ⟨S2048, .f32⟩
  | .hbm, ⟨83, _⟩ => ⟨S1x2048, .f32⟩
  | .hbm, ⟨84, _⟩ => ⟨S1x2048, .f32⟩
  | .hbm, ⟨85, _⟩ => ⟨S1x2048, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]

class Facts₀ : Prop where
  transposes_S8192x4096_S4096x8192_1_0 : S8192x4096.Transposes [1, 0] S4096x8192
  bcast_S8192_S1x8192_1 : S8192.BroadcastsInDim S1x8192 (![1] : Fin 1 → Fin S1x8192.rank)
  transposes_S8192x2048_S2048x8192_1_0 : S8192x2048.Transposes [1, 0] S2048x8192
  slices_S1x8192_S1x2048_0_0 : S1x8192.Slices ![0, 0] S1x2048
  slices_S1x8192_S1x2048_0_2048 : S1x8192.Slices ![0, 2048] S1x2048
  slices_S1x8192_S1x2048_0_4096 : S1x8192.Slices ![0, 4096] S1x2048
  slices_S1x8192_S1x2048_0_6144 : S1x8192.Slices ![0, 6144] S1x2048
  bcast_S_S1x2048 : S_.BroadcastsInDim S1x2048 (![] : Fin 0 → Fin S1x2048.rank)
  transposes_S2048x4096_S4096x2048_1_0 : S2048x4096.Transposes [1, 0] S4096x2048
  bcast_S2048_S1x2048_1 : S2048.BroadcastsInDim S1x2048 (![1] : Fin 1 → Fin S1x2048.rank)
  transposes_S2048x2048_S2048x2048_1_0 : S2048x2048.Transposes [1, 0] S2048x2048
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  concatenates_S1x2048_S4096x2048_S4097x2048_d0 : Shape.Concatenates [S1x2048, S4096x2048] S4097x2048 0
  reducesTo_S4097x2048_S2048_d0 : S4097x2048.ReducesTo [0] S2048
  h_S_ : 0 < S_.numel
  bcast_S1x2048_S4097x2048_0_1 : S1x2048.BroadcastsInDim S4097x2048 (![0, 1] : Fin 2 → Fin S4097x2048.rank)
  dot_S1x4096_S4096x8192_S1x8192_1_0_0_1_n_n_wf : DotDims.WF S1x4096 S4096x8192 S1x8192 [1] [0] [0] [1] [] []
  dot_S1x2048_S2048x8192_S1x8192_1_0_0_1_n_n_wf : DotDims.WF S1x2048 S2048x8192 S1x8192 [1] [0] [0] [1] [] []
  dot_S1x4096_S4096x2048_S1x2048_1_0_0_1_n_n_wf : DotDims.WF S1x4096 S4096x2048 S1x2048 [1] [0] [0] [1] [] []
  dot_S4096x2048_S2048x2048_S4096x2048_1_0_0_1_n_n_wf : DotDims.WF S4096x2048 S2048x2048 S4096x2048 [1] [0] [0] [1] [] []

variable [Facts₀]

def dot_S1x4096_S4096x8192_S1x8192_1_0_0_1_n_n : DotDims S1x4096 S4096x8192 S1x8192 where
  lhsContracting := [1]
  rhsContracting := [0]
  lhsNonContracting := [0]
  rhsNonContracting := [1]
  lhsBatch := []
  rhsBatch := []
  wf := dot_S1x4096_S4096x8192_S1x8192_1_0_0_1_n_n_wf
def dot_S1x2048_S2048x8192_S1x8192_1_0_0_1_n_n : DotDims S1x2048 S2048x8192 S1x8192 where
  lhsContracting := [1]
  rhsContracting := [0]
  lhsNonContracting := [0]
  rhsNonContracting := [1]
  lhsBatch := []
  rhsBatch := []
  wf := dot_S1x2048_S2048x8192_S1x8192_1_0_0_1_n_n_wf
def dot_S1x4096_S4096x2048_S1x2048_1_0_0_1_n_n : DotDims S1x4096 S4096x2048 S1x2048 where
  lhsContracting := [1]
  rhsContracting := [0]
  lhsNonContracting := [0]
  rhsNonContracting := [1]
  lhsBatch := []
  rhsBatch := []
  wf := dot_S1x4096_S4096x2048_S1x2048_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.K.Region0.lean ====
/- The class-A half of REGION 0 (`cc0__gate_kernel`, pipeline 0) at a parameter `V`, the core's buffer
   contents when the region is entered: every window's block at a point, what the body leaves in the output
   window's buffer, the body's triple, the proof data and the body obligation. -/
import proofs.«115356_j45689862095431_2_alg».proof.Proof.Gen.Kernel.Launch
import proofs.«115356_j45689862095431_2_alg».proof.Proof.Gen.Kernel.Skeleton
import proofs.«115356_j45689862095431_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where it is not fetched
    its block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where it is not fetched
    its block index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where it is not fetched
    its block index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): where it is not fetched
    its block index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): where it is not fetched
    its block index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): where it is not fetched
    its block index has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev r0_S1x4096 : Rect S1x4096 := Rect.unit (s := S1x4096) ![0, 0] S1x4096.size inb_S1x4096_S1x4096_0_0
abbrev r0_S1x2048 : Rect S1x2048 := Rect.unit (s := S1x2048) ![0, 0] S1x2048.size inb_S1x2048_S1x2048_0_0
abbrev r0_S512x4096 : Rect S512x4096 := Rect.unit (s := S512x4096) ![0, 0] S512x4096.size inb_S512x4096_S512x4096_0_0
abbrev r0_S1x512 : Rect S1x512 := Rect.unit (s := S1x512) ![0, 0] S1x512.size inb_S1x512_S1x512_0_0
abbrev r0_S512x2048 : Rect S512x2048 := Rect.unit (s := S512x2048) ![0, 0] S512x2048.size inb_S512x2048_S512x2048_0_0

/-! ## What the body leaves in the output window's buffer -/

/-- Window 6's staging buffer after the body, from the input windows' blocks: its one store, of the payload over
    the loaded blocks, as a single piece over the whole buffer. -/
def out0_6 (x0 : Vec F S1x4096 .f32) (x1 : Vec F S1x2048 .f32) (x2 : Vec F S512x4096 .f32) (x3 : Vec F S1x512 .f32) (x4 : Vec F S512x2048 .f32) (x5 : Vec F S1x512 .f32) : Vec F S1x512 .f32 :=
  View.canon [⟨r0_S1x512, k0_pay1 (View.ld x0 r0_S1x4096) (View.ld x1 r0_S1x2048) (View.ld x2 r0_S512x4096) (View.ld x4 r0_S512x2048) (View.ld x3 r0_S1x512) (View.ld x5 r0_S1x512)⟩]

/-- The store's rectangle is the whole buffer, so it covers it. -/
theorem cover0_6 (p0 : Vec F S1x512 .f32) (y : S1x512.Idx) :
    ∃ pc ∈ ([⟨r0_S1x512, p0⟩] : List (View.Piece (Elt F) S1x512 .f32)), y ∈ pc.1.set :=
  View.cover_of_tiled [⟨r0_S1x512, p0⟩] S1x512.size (by rfl) y

/-! ## The body's triple -/

set_option maxHeartbeats 1000000 in
/-- The kernel body on whole staging memrefs, the inputs' at read contents `xW` and the output's at anything, runs to
    the continuation holding the inputs' as they were and the output's at `out0_6` of the inputs'. The body also
    loads the output's buffer before storing into it; the loaded value is not used. -/
theorem sound_kernel0 (c : Dev nD) (E : Set ℕ) (i : grid0.Coords) (arg0 : Memref sig .tc .vmem S1x4096 .f32) (harg0 : arg0.IsWhole) (arg1 : Memref sig .tc .vmem S1x2048 .f32) (harg1 : arg1.IsWhole) (arg2 : Memref sig .tc .vmem S512x4096 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S1x512 .f32) (harg6 : arg6.IsWhole)
    (x0 : Vec F S1x4096 .f32) (x1 : Vec F S1x2048 .f32) (x2 : Vec F S512x4096 .f32) (x3 : Vec F S1x512 .f32) (x4 : Vec F S512x2048 .f32) (x5 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5)) -∗ K ⟨⟩))
      ⊢ wp frame (wpE (defs₀ (F := F)) Variants.none c none) E (cc0__gate_kernel i arg0 harg0 arg1 harg1 arg2 harg2 arg3 harg3 arg4 harg4 arg5 harg5 arg6 harg6) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at point `t`
    each input's buffer at its block and the output's at `out0_6` of the input blocks; the invariant leaves the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/- The class-A half of REGION 1 (`cc1__alpha_bias_kernel`, pipeline 1) at a parameter `V`, the core's buffer
   contents when the region is entered: every window's block at a point, what the body leaves in the output
   window's buffer, the body's triple, the proof data and the body obligation. -/
import proofs.«115356_j45689862095431_2_alg».proof.Proof.Gen.Kernel.Launch
import proofs.«115356_j45689862095431_2_alg».proof.Proof.Gen.Kernel.Skeleton
import proofs.«115356_j45689862095431_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where it is not fetched
    its block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where it is not fetched
    its block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where it is not fetched
    its block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where it is not fetched
    its block index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_S1x4096 : Rect S1x4096 := Rect.unit (s := S1x4096) ![0, 0] S1x4096.size inb_S1x4096_S1x4096_0_0
abbrev r1_S512x4096 : Rect S512x4096 := Rect.unit (s := S512x4096) ![0, 0] S512x4096.size inb_S512x4096_S512x4096_0_0
abbrev r1_S1x512 : Rect S1x512 := Rect.unit (s := S1x512) ![0, 0] S1x512.size inb_S1x512_S1x512_0_0

/-! ## What the body leaves in the output window's buffer -/

/-- Window 4's staging buffer after the body, from the input windows' blocks: its one store, of the payload over
    the loaded blocks, as a single piece over the whole buffer. -/
def out1_4 (x0 : Vec F S1x4096 .f32) (x1 : Vec F S512x4096 .f32) (x2 : Vec F S1x512 .f32) (x3 : Vec F S1x512 .f32) : Vec F S1x512 .f32 :=
  View.canon [⟨r1_S1x512, k1_pay1 (View.ld x0 r1_S1x4096) (View.ld x1 r1_S512x4096) (View.ld x2 r1_S1x512) (View.ld x3 r1_S1x512)⟩]

/-- The store's rectangle is the whole buffer, so it covers it. -/
theorem cover1_4 (p0 : Vec F S1x512 .f32) (y : S1x512.Idx) :
    ∃ pc ∈ ([⟨r1_S1x512, p0⟩] : List (View.Piece (Elt F) S1x512 .f32)), y ∈ pc.1.set :=
  View.cover_of_tiled [⟨r1_S1x512, p0⟩] S1x512.size (by rfl) y

/-! ## The body's triple -/

set_option maxHeartbeats 1000000 in
/-- The kernel body on whole staging memrefs, the inputs' at read contents `xW` and the output's at anything, runs to
    the continuation holding the inputs' as they were and the output's at `out1_4` of the inputs'. The body also
    loads the output's buffer before storing into it; the loaded value is not used. -/
theorem sound_kernel1 (c : Dev nD) (E : Set ℕ) (i : grid1.Coords) (arg0 : Memref sig .tc .vmem S1x4096 .f32) (harg0 : arg0.IsWhole) (arg1 : Memref sig .tc .vmem S512x4096 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole)
    (x0 : Vec F S1x4096 .f32) (x1 : Vec F S512x4096 .f32) (x2 : Vec F S1x512 .f32) (x3 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__alpha_bias_kernel i arg0 harg0 arg1 harg1 arg2 harg2 arg3 harg3 arg4 harg4) K := by
  simp only [cc1__alpha_bias_kernel_eq_skeleton]; unfold cc1__alpha_bias_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and the output's at `out1_4` of the input blocks; the invariant leaves the scoped
    rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2Runs.lean ====
import proofs.«115356_j45689862095431_2_alg».proof.Proof.Gen.Kernel.Launch
import proofs.«115356_j45689862095431_2_alg».proof.Proof.Gen.Kernel.Skeleton
import proofs.«115356_j45689862095431_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The third region: the merge over the lexicon rows, a 2 × 2 grid (core, tile)

Windows 0–4 are inputs (the bias row, the input-gate row, the candidate row, the lexicon weight matrix, one tile of
1024 lexicon rows); windows 5 and 6 are the two outputs, one [1,1,2048] block per core, stored only at a core's
last tile; two [1,2048] scratch rows carry the running normaliser and the running weighted sum between the tiles
of a core. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's three conditions on the grid point, in closed form -/

/-- "This is the core's first tile": the scratch rows are reset. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- "Core 0's first tile": the gate row joins the sums, once. -/
abbrev cond2_1 (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond2_1 : ∀ t : Fin cfg2.N, cond2_1 (grid2.coords t) ↔ t.val % 4 = 0 :=
  (by decide +kernel : ∀ t : Fin grid2.N, cond2_1 (grid2.coords t) ↔ t.val % 4 = 0)
/-- "The core's last tile": the scratch rows are copied to the outputs. -/
abbrev cond2_2 (i : grid2.Coords) : Prop := k2_cond3 i = 1#1
theorem hcond2_2 : ∀ t : Fin cfg2.N, cond2_2 (grid2.coords t) ↔ t.val % 2 = 1 :=
  (by decide +kernel : ∀ t : Fin grid2.N, cond2_2 (grid2.coords t) ↔ t.val % 2 = 1)

/-! ## Where the windows are idle -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Where the core's last tile is not reached, output 5 is idle and not written back; at the last tile it is stored. -/
theorem idleAt2_5 : ∀ t : Fin cfg2.N, ¬cond2_2 (grid2.coords t) → cfg2.idle 5 (grid2.coords t) = true := by decide +kernel
theorem noFlush2_5 : ∀ t : Fin cfg2.N, ¬cond2_2 (grid2.coords t) → (cfg2.win 5).flush t = false := by decide +kernel
theorem liveAt2_5 : ∀ t : Fin cfg2.N, cond2_2 (grid2.coords t) → cfg2.idle 5 (grid2.coords t) = false := by decide +kernel
/-- Where the core's last tile is not reached, output 6 is idle and not written back; at the last tile it is stored. -/
theorem idleAt2_6 : ∀ t : Fin cfg2.N, ¬cond2_2 (grid2.coords t) → cfg2.idle 6 (grid2.coords t) = true := by decide +kernel
theorem noFlush2_6 : ∀ t : Fin cfg2.N, ¬cond2_2 (grid2.coords t) → (cfg2.win 6).flush t = false := by decide +kernel
theorem liveAt2_6 : ∀ t : Fin cfg2.N, cond2_2 (grid2.coords t) → cfg2.idle 6 (grid2.coords t) = false := by decide +kernel

/-! ## The memrefs the body is called with -/

abbrev VO2_5 : View sig .tc .vmem S1x1x2048 .f32 := (Memref.whole cc2_stg5_0 : Memref sig .tc .vmem S1x1x2048 .f32).view
abbrev VO2_6 : View sig .tc .vmem S1x1x2048 .f32 := (Memref.whole cc2_stg6_0 : Memref sig .tc .vmem S1x1x2048 .f32).view
abbrev ms2_0 (t : Fin cfg2.N) : Memref sig .tc .vmem S1x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x2048 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1x2048 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1x2048 .f32 := win2_6.stage (cfg2.slots t 6)
abbrev hs2_6 (t : Fin cfg2.N) : (ms2_6 t).IsWhole := hstage2_6 ((cfg2.slots t 6).cast nbuf2_6)
/-- The two scratch rows: whole scoped buffers of the kernel's own. -/
abbrev scM2_0 : Memref sig .tc .vmem S1x2048 .f32 := Memref.whole cc2_scratch0
abbrev scM2_1 : Memref sig .tc .vmem S1x2048 .f32 := Memref.whole cc2_scratch1
abbrev VS2_0 : View sig .tc .vmem S1x2048 .f32 := scM2_0.view
abbrev VS2_1 : View sig .tc .vmem S1x2048 .f32 := scM2_1.view

/-- Every other scoped buffer of the core (the other regions' staging buffers), unopened. -/
abbrev Rest2 (c : Dev nD) : sProp 𝕄 :=
  Pipeline.scopedRestBut (Ix := Unit) (Name := ℕ) (U := UR sig nD τ) (Lvl := ℕ) (Val := Elt F) spec2 c [cc2_scratch0, cc2_scratch1]

/-- The class invariant with the two scratch rows split out as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ Rest2 c) ∗ (∃ r, prngReg c r)) := by
  unfold Pipeline.ΦA
  rw [Pipeline.scopedRest_split_of_list spec2 c [cc2_scratch0, cc2_scratch1] (by decide) (by decide)]
  simp only [scM2_0, scM2_1, owns_whole]; try rfl

end Cert.Kernel.Hand

end
-- ==== Proof.K.R2RunA.lean ====
import proofs.«115356_j45689862095431_2_alg».proof.Proof.K.R2Runs
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (core 0's first tile: reset, the gate row, the tile): the outputs are not touched and are handed back as found; each scratch row ends with
    the pieces of the body's stores written (found by the run). -/
noncomputable def kernelRun2_A (c : Dev nD) (i : grid2.Coords) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S1024x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x2048 .f32) (harg10 : arg10.IsWhole) (hc0 : cond2_0 i) (hc1 : cond2_1 i) (hc2 : ¬cond2_2 i)
    (x0 : Vec F S1x2048 .f32) (x1 : Vec F S1x2048 .f32) (x2 : Vec F S1x2048 .f32) (x3 : Vec F S2048x2048 .bf16) (x4 : Vec F S1024x2048 .f32) :
    Σ' (LS0 : List (View.Piece (Elt F) S1x2048 .f32)), { LS1 : List (View.Piece (Elt F) S1x2048 .f32) //
      ∀ (xi5 : Vec F S1x1x2048 .f32) (xi6 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__merge_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc2__merge_kernel_eq_skeleton]; unfold cc2__merge_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.K.R2RunB.lean ====
import proofs.«115356_j45689862095431_2_alg».proof.Proof.K.R2Runs
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (a core's last tile): the scratch rows arrive at what the tile before left (`xs0`, `xs1`), take the tile's
    sums, and are copied into the two outputs; every buffer ends with the pieces of the body's stores written. -/
noncomputable def kernelRun2_B (c : Dev nD) (i : grid2.Coords) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S1024x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x2048 .f32) (harg10 : arg10.IsWhole) (hc0 : ¬cond2_0 i) (hc1 : ¬cond2_1 i) (hc2 : cond2_2 i)
    (x0 : Vec F S1x2048 .f32) (x1 : Vec F S1x2048 .f32) (x2 : Vec F S1x2048 .f32) (x3 : Vec F S2048x2048 .bf16) (x4 : Vec F S1024x2048 .f32) (xs0 : Vec F S1x2048 .f32) (xs1 : Vec F S1x2048 .f32) :
    Σ' (L5 : List (View.Piece (Elt F) S1x1x2048 .f32)) (L6 : List (View.Piece (Elt F) S1x1x2048 .f32)) (LS0 : List (View.Piece (Elt F) S1x2048 .f32)), { LS1 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__merge_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc2__merge_kernel_eq_skeleton]; unfold cc2__merge_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexists _; iexact HS1

end Cert.Kernel.Hand

end
-- ==== Proof.K.R2RunC.lean ====
import proofs.«115356_j45689862095431_2_alg».proof.Proof.K.R2Runs
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (core 1's first tile: reset, the tile): the outputs are not touched and are handed back as found; each scratch row ends with
    the pieces of the body's stores written (found by the run). -/
noncomputable def kernelRun2_C (c : Dev nD) (i : grid2.Coords) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S1024x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x2048 .f32) (harg10 : arg10.IsWhole) (hc0 : cond2_0 i) (hc1 : ¬cond2_1 i) (hc2 : ¬cond2_2 i)
    (x0 : Vec F S1x2048 .f32) (x1 : Vec F S1x2048 .f32) (x2 : Vec F S1x2048 .f32) (x3 : Vec F S2048x2048 .bf16) (x4 : Vec F S1024x2048 .f32) :
    Σ' (LS0 : List (View.Piece (Elt F) S1x2048 .f32)), { LS1 : List (View.Piece (Elt F) S1x2048 .f32) //
      ∀ (xi5 : Vec F S1x1x2048 .f32) (xi6 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__merge_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc2__merge_kernel_eq_skeleton]; unfold cc2__merge_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.K.Region2.lean ====
import proofs.«115356_j45689862095431_2_alg».proof.Proof.K.R2RunA
import proofs.«115356_j45689862095431_2_alg».proof.Proof.K.R2RunB
import proofs.«115356_j45689862095431_2_alg».proof.Proof.K.R2RunC
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point, each run at the point's memrefs and input blocks -/

/-- The run of core 0's first tile at point `t`. -/
abbrev runA (c : Dev nD) (t : Fin cfg2.N) (h0 : cond2_0 (grid2.coords t)) (h1 : cond2_1 (grid2.coords t)) (h2 : ¬cond2_2 (grid2.coords t)) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) h0 h1 h2 (iblk2 V c 0 t) (iblk2 V c 1 t) (iblk2 V c 2 t) (iblk2 V c 3 t) (iblk2 V c 4 t)
/-- The run of a core's last tile at point `t`, the scratch rows arriving at `xs0`, `xs1`. -/
abbrev runB (c : Dev nD) (t : Fin cfg2.N) (h0 : ¬cond2_0 (grid2.coords t)) (h1 : ¬cond2_1 (grid2.coords t)) (h2 : cond2_2 (grid2.coords t)) (xs0 xs1 : Vec F S1x2048 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) h0 h1 h2 (iblk2 V c 0 t) (iblk2 V c 1 t) (iblk2 V c 2 t) (iblk2 V c 3 t) (iblk2 V c 4 t) xs0 xs1
/-- The run of core 1's first tile at point `t`. -/
abbrev runC (c : Dev nD) (t : Fin cfg2.N) (h0 : cond2_0 (grid2.coords t)) (h1 : ¬cond2_1 (grid2.coords t)) (h2 : ¬cond2_2 (grid2.coords t)) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) h0 h1 h2 (iblk2 V c 0 t) (iblk2 V c 1 t) (iblk2 V c 2 t) (iblk2 V c 3 t) (iblk2 V c 4 t)

/-- A placeholder for an output block at a point that does not store it (nothing reads it: the block is neither
    written back there nor kept for the next point). -/
def idle5 : Vec F S1x1x2048 .f32 := VO2_5.read (Elt F) (VO2_5.writes (Elt F) VO2_5.junk [])
def idle6 : Vec F S1x1x2048 .f32 := VO2_6.read (Elt F) (VO2_6.writes (Elt F) VO2_6.junk [])

/-! ### Every buffer a case stores into is covered by its stores -/

theorem scover2_A_0 (c : Dev nD) (t : Fin cfg2.N) (h0 : cond2_0 (grid2.coords t)) (h1 : cond2_1 (grid2.coords t)) (h2 : ¬cond2_2 (grid2.coords t)) (y : S1x2048.Idx) :
    ∃ pc ∈ (runA V c t h0 h1 h2).1, y ∈ pc.1.set :=
  View.cover_of_tiledL (runA V c t h0 h1 h2).1 S1x2048.size (by sl_kernel_rfl) y
theorem scover2_A_1 (c : Dev nD) (t : Fin cfg2.N) (h0 : cond2_0 (grid2.coords t)) (h1 : cond2_1 (grid2.coords t)) (h2 : ¬cond2_2 (grid2.coords t)) (y : S1x2048.Idx) :
    ∃ pc ∈ (runA V c t h0 h1 h2).2.1, y ∈ pc.1.set :=
  View.cover_of_tiledL (runA V c t h0 h1 h2).2.1 S1x2048.size (by sl_kernel_rfl) y
/-- What case A leaves in the two scratch rows. -/
def sout2_A_0 (c : Dev nD) (t : Fin cfg2.N) (h0 : cond2_0 (grid2.coords t)) (h1 : cond2_1 (grid2.coords t)) (h2 : ¬cond2_2 (grid2.coords t)) : Vec F S1x2048 .f32 :=
  VS2_0.read (Elt F) (VS2_0.writes (Elt F) VS2_0.junk (runA V c t h0 h1 h2).1)
def sout2_A_1 (c : Dev nD) (t : Fin cfg2.N) (h0 : cond2_0 (grid2.coords t)) (h1 : cond2_1 (grid2.coords t)) (h2 : ¬cond2_2 (grid2.coords t)) : Vec F S1x2048 .f32 :=
  VS2_1.read (Elt F) (VS2_1.writes (Elt F) VS2_1.junk (runA V c t h0 h1 h2).2.1)

theorem scover2_C_0 (c : Dev nD) (t : Fin cfg2.N) (h0 : cond2_0 (grid2.coords t)) (h1 : ¬cond2_1 (grid2.coords t)) (h2 : ¬cond2_2 (grid2.coords t)) (y : S1x2048.Idx) :
    ∃ pc ∈ (runC V c t h0 h1 h2).1, y ∈ pc.1.set :=
  View.cover_of_tiledL (runC V c t h0 h1 h2).1 S1x2048.size (by sl_kernel_rfl) y
theorem scover2_C_1 (c : Dev nD) (t : Fin cfg2.N) (h0 : cond2_0 (grid2.coords t)) (h1 : ¬cond2_1 (grid2.coords t)) (h2 : ¬cond2_2 (grid2.coords t)) (y : S1x2048.Idx) :
    ∃ pc ∈ (runC V c t h0 h1 h2).2.1, y ∈ pc.1.set :=
  View.cover_of_tiledL (runC V c t h0 h1 h2).2.1 S1x2048.size (by sl_kernel_rfl) y
/-- What case C leaves in the two scratch rows. -/
def sout2_C_0 (c : Dev nD) (t : Fin cfg2.N) (h0 : cond2_0 (grid2.coords t)) (h1 : ¬cond2_1 (grid2.coords t)) (h2 : ¬cond2_2 (grid2.coords t)) : Vec F S1x2048 .f32 :=
  VS2_0.read (Elt F) (VS2_0.writes (Elt F) VS2_0.junk (runC V c t h0 h1 h2).1)
def sout2_C_1 (c : Dev nD) (t : Fin cfg2.N) (h0 : cond2_0 (grid2.coords t)) (h1 : ¬cond2_1 (grid2.coords t)) (h2 : ¬cond2_2 (grid2.coords t)) : Vec F S1x2048 .f32 :=
  VS2_1.read (Elt F) (VS2_1.writes (Elt F) VS2_1.junk (runC V c t h0 h1 h2).2.1)

theorem cover2_B_5 (c : Dev nD) (t : Fin cfg2.N) (h0 : ¬cond2_0 (grid2.coords t)) (h1 : ¬cond2_1 (grid2.coords t)) (h2 : cond2_2 (grid2.coords t)) (xs0 xs1 : Vec F S1x2048 .f32) (y : S1x1x2048.Idx) :
    ∃ pc ∈ (runB V c t h0 h1 h2 xs0 xs1).1, y ∈ pc.1.set :=
  View.cover_of_tiledL (runB V c t h0 h1 h2 xs0 xs1).1 S1x1x2048.size (by sl_kernel_rfl) y
theorem cover2_B_6 (c : Dev nD) (t : Fin cfg2.N) (h0 : ¬cond2_0 (grid2.coords t)) (h1 : ¬cond2_1 (grid2.coords t)) (h2 : cond2_2 (grid2.coords t)) (xs0 xs1 : Vec F S1x2048 .f32) (y : S1x1x2048.Idx) :
    ∃ pc ∈ (runB V c t h0 h1 h2 xs0 xs1).2.1, y ∈ pc.1.set :=
  View.cover_of_tiledL (runB V c t h0 h1 h2 xs0 xs1).2.1 S1x1x2048.size (by sl_kernel_rfl) y
theorem scover2_B_0 (c : Dev nD) (t : Fin cfg2.N) (h0 : ¬cond2_0 (grid2.coords t)) (h1 : ¬cond2_1 (grid2.coords t)) (h2 : cond2_2 (grid2.coords t)) (xs0 xs1 : Vec F S1x2048 .f32) (y : S1x2048.Idx) :
    ∃ pc ∈ (runB V c t h0 h1 h2 xs0 xs1).2.2.1, y ∈ pc.1.set :=
  View.cover_of_tiledL (runB V c t h0 h1 h2 xs0 xs1).2.2.1 S1x2048.size (by sl_kernel_rfl) y
theorem scover2_B_1 (c : Dev nD) (t : Fin cfg2.N) (h0 : ¬cond2_0 (grid2.coords t)) (h1 : ¬cond2_1 (grid2.coords t)) (h2 : cond2_2 (grid2.coords t)) (xs0 xs1 : Vec F S1x2048 .f32) (y : S1x2048.Idx) :
    ∃ pc ∈ (runB V c t h0 h1 h2 xs0 xs1).2.2.2.1, y ∈ pc.1.set :=
  View.cover_of_tiledL (runB V c t h0 h1 h2 xs0 xs1).2.2.2.1 S1x2048.size (by sl_kernel_rfl) y
/-- What a core's last tile leaves in the two outputs' blocks and in the two scratch rows. -/
def out2_B_5 (c : Dev nD) (t : Fin cfg2.N) (h0 : ¬cond2_0 (grid2.coords t)) (h1 : ¬cond2_1 (grid2.coords t)) (h2 : cond2_2 (grid2.coords t)) (xs0 xs1 : Vec F S1x2048 .f32) : Vec F S1x1x2048 .f32 :=
  VO2_5.read (Elt F) (VO2_5.writes (Elt F) VO2_5.junk (runB V c t h0 h1 h2 xs0 xs1).1)
def out2_B_6 (c : Dev nD) (t : Fin cfg2.N) (h0 : ¬cond2_0 (grid2.coords t)) (h1 : ¬cond2_1 (grid2.coords t)) (h2 : cond2_2 (grid2.coords t)) (xs0 xs1 : Vec F S1x2048 .f32) : Vec F S1x1x2048 .f32 :=
  VO2_6.read (Elt F) (VO2_6.writes (Elt F) VO2_6.junk (runB V c t h0 h1 h2 xs0 xs1).2.1)
def sout2_B_0 (c : Dev nD) (t : Fin cfg2.N) (h0 : ¬cond2_0 (grid2.coords t)) (h1 : ¬cond2_1 (grid2.coords t)) (h2 : cond2_2 (grid2.coords t)) (xs0 xs1 : Vec F S1x2048 .f32) : Vec F S1x2048 .f32 :=
  VS2_0.read (Elt F) (VS2_0.writes (Elt F) VS2_0.junk (runB V c t h0 h1 h2 xs0 xs1).2.2.1)
def sout2_B_1 (c : Dev nD) (t : Fin cfg2.N) (h0 : ¬cond2_0 (grid2.coords t)) (h1 : ¬cond2_1 (grid2.coords t)) (h2 : cond2_2 (grid2.coords t)) (xs0 xs1 : Vec F S1x2048 .f32) : Vec F S1x2048 .f32 :=
  VS2_1.read (Elt F) (VS2_1.writes (Elt F) VS2_1.junk (runB V c t h0 h1 h2 xs0 xs1).2.2.2.1)

/-! ## What the outputs and the scratch rows hold after each point -/

theorem N2_lt {n : ℕ} (hn : n < cfg2.N) : n < 4 := lt_of_lt_of_eq hn (show cfg2.N = 4 from N_2)

/-- After point `n`: (output 5's block, output 6's block, scratch row 0, scratch row 1). Point 0 is core 0's first
    tile; an odd point is a core's last tile, run over what the point before left in the scratch rows; point 2 is core
    1's first tile. -/
def outsAt2 (c : Dev nD) : (n : ℕ) → n < cfg2.N → Vec F S1x1x2048 .f32 × Vec F S1x1x2048 .f32 × Vec F S1x2048 .f32 × Vec F S1x2048 .f32
  | 0, hn =>
    (idle5, idle6,
      sout2_A_0 V c ⟨0, hn⟩ ((hcond2_0 ⟨0, hn⟩).mpr (Nat.zero_mod _)) ((hcond2_1 ⟨0, hn⟩).mpr (Nat.zero_mod _)) (fun h => (fun h => by (try dsimp only at h); omega) ((hcond2_2 ⟨0, hn⟩).mp h)),
      sout2_A_1 V c ⟨0, hn⟩ ((hcond2_0 ⟨0, hn⟩).mpr (Nat.zero_mod _)) ((hcond2_1 ⟨0, hn⟩).mpr (Nat.zero_mod _)) (fun h => (fun h => by (try dsimp only at h); omega) ((hcond2_2 ⟨0, hn⟩).mp h)))
  | n + 1, hn =>
    if h : (n + 1) % 2 = 1 then
      (out2_B_5 V c ⟨n + 1, hn⟩ (fun e => (fun e => by (try dsimp only at e); omega) ((hcond2_0 ⟨n + 1, hn⟩).mp e)) (fun e => (fun e => by (try dsimp only at e); omega) ((hcond2_1 ⟨n + 1, hn⟩).mp e)) ((hcond2_2 ⟨n + 1, hn⟩).mpr h) (outsAt2 c n (Nat.lt_of_succ_lt hn)).2.2.1 (outsAt2 c n (Nat.lt_of_succ_lt hn)).2.2.2,
       out2_B_6 V c ⟨n + 1, hn⟩ (fun e => (fun e => by (try dsimp only at e); omega) ((hcond2_0 ⟨n + 1, hn⟩).mp e)) (fun e => (fun e => by (try dsimp only at e); omega) ((hcond2_1 ⟨n + 1, hn⟩).mp e)) ((hcond2_2 ⟨n + 1, hn⟩).mpr h) (outsAt2 c n (Nat.lt_of_succ_lt hn)).2.2.1 (outsAt2 c n (Nat.lt_of_succ_lt hn)).2.2.2,
       sout2_B_0 V c ⟨n + 1, hn⟩ (fun e => (fun e => by (try dsimp only at e); omega) ((hcond2_0 ⟨n + 1, hn⟩).mp e)) (fun e => (fun e => by (try dsimp only at e); omega) ((hcond2_1 ⟨n + 1, hn⟩).mp e)) ((hcond2_2 ⟨n + 1, hn⟩).mpr h) (outsAt2 c n (Nat.lt_of_succ_lt hn)).2.2.1 (outsAt2 c n (Nat.lt_of_succ_lt hn)).2.2.2,
       sout2_B_1 V c ⟨n + 1, hn⟩ (fun e => (fun e => by (try dsimp only at e); omega) ((hcond2_0 ⟨n + 1, hn⟩).mp e)) (fun e => (fun e => by (try dsimp only at e); omega) ((hcond2_1 ⟨n + 1, hn⟩).mp e)) ((hcond2_2 ⟨n + 1, hn⟩).mpr h) (outsAt2 c n (Nat.lt_of_succ_lt hn)).2.2.1 (outsAt2 c n (Nat.lt_of_succ_lt hn)).2.2.2)
    else
      (idle5, idle6,
        sout2_C_0 V c ⟨n + 1, hn⟩ ((hcond2_0 ⟨n + 1, hn⟩).mpr (by (try dsimp only); omega)) (fun e => (fun e => by (try dsimp only at e); have := N2_lt hn; omega) ((hcond2_1 ⟨n + 1, hn⟩).mp e)) (fun e => h ((hcond2_2 ⟨n + 1, hn⟩).mp e)),
        sout2_C_1 V c ⟨n + 1, hn⟩ ((hcond2_0 ⟨n + 1, hn⟩).mpr (by (try dsimp only); omega)) (fun e => (fun e => by (try dsimp only at e); have := N2_lt hn; omega) ((hcond2_1 ⟨n + 1, hn⟩).mp e)) (fun e => h ((hcond2_2 ⟨n + 1, hn⟩).mp e)))

/-- `outsAt2` at point 0. -/
theorem outsAt2_A (c : Dev nD) (t : Fin cfg2.N) (hz : t.val = 0) (h0 : cond2_0 (grid2.coords t)) (h1 : cond2_1 (grid2.coords t)) (h2 : ¬cond2_2 (grid2.coords t)) :
    outsAt2 V c t.val t.isLt = (idle5, idle6, sout2_A_0 V c t h0 h1 h2, sout2_A_1 V c t h0 h1 h2) := by
  obtain ⟨n, hn⟩ := t
  cases n with
  | zero => exact rfl
  | succ n => exact absurd hz (Nat.succ_ne_zero n)

/-- `outsAt2` at a core's last tile: over what the point before left in the scratch rows. -/
theorem outsAt2_B (c : Dev nD) (t : Fin cfg2.N) (hodd : t.val % 2 = 1) (h0 : ¬cond2_0 (grid2.coords t)) (h1 : ¬cond2_1 (grid2.coords t)) (h2 : cond2_2 (grid2.coords t)) :
    outsAt2 V c t.val t.isLt =
      (out2_B_5 V c t h0 h1 h2 (outsAt2 V c (t.val - 1) (Nat.lt_of_le_of_lt (Nat.sub_le _ _) t.isLt)).2.2.1 (outsAt2 V c (t.val - 1) (Nat.lt_of_le_of_lt (Nat.sub_le _ _) t.isLt)).2.2.2,
       out2_B_6 V c t h0 h1 h2 (outsAt2 V c (t.val - 1) (Nat.lt_of_le_of_lt (Nat.sub_le _ _) t.isLt)).2.2.1 (outsAt2 V c (t.val - 1) (Nat.lt_of_le_of_lt (Nat.sub_le _ _) t.isLt)).2.2.2,
       sout2_B_0 V c t h0 h1 h2 (outsAt2 V c (t.val - 1) (Nat.lt_of_le_of_lt (Nat.sub_le _ _) t.isLt)).2.2.1 (outsAt2 V c (t.val - 1) (Nat.lt_of_le_of_lt (Nat.sub_le _ _) t.isLt)).2.2.2,
       sout2_B_1 V c t h0 h1 h2 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at hodd); omega)
  | succ n => exact (dif_pos hodd).trans rfl

/-- `outsAt2` at core 1's first tile. -/
theorem outsAt2_C (c : Dev nD) (t : Fin cfg2.N) (hz : t.val ≠ 0) (hev : ¬t.val % 2 = 1) (h0 : cond2_0 (grid2.coords t)) (h1 : ¬cond2_1 (grid2.coords t)) (h2 : ¬cond2_2 (grid2.coords t)) :
    outsAt2 V c t.val t.isLt = (idle5, idle6, sout2_C_0 V c t h0 h1 h2, sout2_C_1 V c t h0 h1 h2) := by
  obtain ⟨n, hn⟩ := t
  cases n with
  | zero => exact absurd rfl hz
  | succ n => exact (dif_neg hev).trans rfl

/-! ## The invariant: the scratch rows at what the point before left -/

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ Rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ Rest2 c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ Rest2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- The body at any point: the inputs' memrefs hold their blocks; the closed forms of the three conditions say which
    of the three cases the point is in; the invariant hands the body the scratch rows (at anything before the first
    point, afterwards at what the point before left) and takes them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 4 := N2_lt t.isLt
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases hodd : t.val % 2 = 1
  · have h0 : ¬cond2_0 (grid2.coords t) := fun e => by have := (hcond2_0 t).mp e; omega
    have h1 : ¬cond2_1 (grid2.coords t) := fun e => by have := (hcond2_1 t).mp e; omega
    have h2 : cond2_2 (grid2.coords t) := (hcond2_2 t).mpr hodd
    have hz : t.val ≠ 0 := by omega
    rw [show (dat2 V c).leavesExact 5 t = owns (c : Thread nD τ) (ms2_5 t) fullShare ((dat2 V c).after 5 t) from by
      unfold Dat.leavesExact; rw [liveAt2_5 t h2], after2_5]
    rw [show (dat2 V c).leavesExact 6 t = owns (c : Thread nD τ) (ms2_6 t) fullShare ((dat2 V c).after 6 t) from by
      unfold Dat.leavesExact; rw [liveAt2_6 t h2], after2_6]
    rw [outsAt2_B V c t hodd h0 h1 h2]
    unfold out2_B_5 out2_B_6 sout2_B_0 sout2_B_1; (try dsimp only)
    rw [PhiS2_castSucc V c t, PhiS2_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runB V c t h0 h1 h2 _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%e5, H5⟩, ⟨%e6, H6⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover2_B_0 V c t h0 h1 h2 _ _)
          · unfold owns; iexists _; isplitr
            swap; · iexact HS1
            ipureintro; exact View.read_writes_of_cover _ _ _ _ _ (scover2_B_1 V c t h0 h1 h2 _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_B_5 V c t h0 h1 h2 _ _)
    unfold owns; iexists _; isplitr
    swap; · iexact H6
    ipureintro; exact View.read_writes_of_cover _ _ _ _ _ (cover2_B_6 V c t h0 h1 h2 _ _)
  · have h0 : cond2_0 (grid2.coords t) := (hcond2_0 t).mpr (by omega)
    have h2 : ¬cond2_2 (grid2.coords t) := fun e => hodd ((hcond2_2 t).mp e)
    by_cases hz : t.val = 0
    · have h1 : cond2_1 (grid2.coords t) := (hcond2_1 t).mpr (by omega)
      rw [Dat.leavesExact_idle (dat2 V c) 5 t (idleAt2_5 t h2) (noFlush2_5 t h2), Dat.leavesExact_idle (dat2 V c) 6 t (idleAt2_6 t h2) (noFlush2_6 t h2)]
      rw [outsAt2_A V c t hz h0 h1 h2]
      unfold sout2_A_0 sout2_A_1; (try dsimp only)
      rw [PhiS2_castSucc V c t, PhiS2_zero V c _ _ hz, PhiA2_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0 h1 h2).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_A_0 V c t h0 h1 h2)
            · unfold owns; iexists _; isplitr
              swap; · iexact HS1
              ipureintro; exact View.read_writes_of_cover _ _ _ _ _ (scover2_A_1 V c t h0 h1 h2)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · have h1 : ¬cond2_1 (grid2.coords t) := fun e => by have := (hcond2_1 t).mp e; omega
      rw [Dat.leavesExact_idle (dat2 V c) 5 t (idleAt2_5 t h2) (noFlush2_5 t h2), Dat.leavesExact_idle (dat2 V c) 6 t (idleAt2_6 t h2) (noFlush2_6 t h2)]
      rw [outsAt2_C V c t hz hodd h0 h1 h2]
      unfold sout2_C_0 sout2_C_1; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runC V c t h0 h1 h2).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 V c t h0 h1 h2)
            · unfold owns; iexists _; isplitr
              swap; · iexact HS1
              ipureintro; exact View.read_writes_of_cover _ _ _ _ _ (scover2_C_1 V c t h0 h1 h2)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class's back: the scratch rows' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout2 (c : Dev nD) : (dat2 V c).Φ (Fin.last cfg2.N) ⊢ Pipeline.ΦA spec2 c :=
  Phi_out2 V c _ (by rw [Fin.val_last]; have : cfg2.N = 4 := N_2; omega)

end Cert.Kernel.Hand

end
-- ==== Proof.K.Run.lean ====
/- THE RUN of @main over its seven segments — four stretches of host operations and, between them, the three
   kernel regions —: the buffer contents at every segment boundary as a fold from the launch memory, each argument
   array read back through the fold to its launch contents, every pipeline's proof data at its region's entry
   contents, a segment record per stretch and per region, and the frame: every argument array ends as launched. -/
import proofs.«115356_j45689862095431_2_alg».proof.Proof.K.Region0
import proofs.«115356_j45689862095431_2_alg».proof.Proof.K.Region1
import proofs.«115356_j45689862095431_2_alg».proof.Proof.K.Region2
import proofs.«115356_j45689862095431_2_alg».proof.Proof.Gen.Kernel.Launch
import proofs.«115356_j45689862095431_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: the contents @main returns with. -/
abbrev W7 : Dev nD → Valuation τ sig (Elt F) := fun c => StableHlo.after hostOps3 (W6 m ρ c)

/-! ### The arguments end as launched: no host operation writes one, and a region reads it through an input window
    or does not touch it, so the fold at an argument's buffer walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := (W6_arr m ρ c 4).trans (((dat2 (V5 m ρ) c).arrAt_in 4 rfl _).trans (A_eq2 (V5 m ρ) c 4))
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_writes_sub hostOps0 _ hostOps0_writes (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 4).trans (((dat0 (V1 m ρ) c).arrAt_in 4 rfl _).trans (A_eq0 (V1 m ρ) c 4))
    _ = W0 m ρ c (Proc.devRef .tc main_arg6) := StableHlo.after_of_writes_sub hostOps0 _ hostOps0_writes (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := (W4_arr m ρ c 1).trans (((dat1 (V3 m ρ) c).arrAt_in 1 rfl _).trans (A_eq1 (V3 m ρ) c 1))
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's image of `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W7`, the
    generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 over the thread state: entered from every unscoped buffer at `W1`, left at `W2` (what the next
    segment is entered from). Its arrays are split out of the unscoped buffers and put back at the exit contents; the
    generator register goes into the invariant and comes out of it; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4` (what the next
    segment is entered from). Its arrays are split out of the unscoped buffers and put back at the exit contents; the
    generator register goes into the invariant and comes out of it; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6` (what the next
    segment is entered from). Its arrays are split out of the unscoped buffers and put back at the exit contents; the
    generator register goes into the invariant and comes out of it; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V5 m ρ) c
    unfold Pipeline.ΦA at h
    rw [show (pdats m ρ 2 c).Φ 0 = (dat2 (V5 m ρ) c).Φ 0 from rfl]
    iintro ⟨Hp, -, Hr⟩
    iapply h
    isplitl [Hr]; · iexact Hr
    iexact Hp
  hout c := by
    rw [Pipeline.ownSems0_none, show (pdats m ρ 2 c).Φ (Fin.last _) = (dat2 (V5 m ρ) c).Φ (Fin.last cfg2.N) from rfl]
    have h := hout2 (V5 m ρ) c
    unfold Pipeline.ΦA at h
    iintro HF
    ihave H := h $$ HF
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state each core's unscoped buffers hold the last
    boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      show iprop(StableHlo.held (c : Thread nD τ) (Pipeline.ucRefs τ sig) (W7 m ρ c) ∗ (∃ r, prngReg c r) ∗ ∃ W, owes (c : Thread nD τ) (0 : CellTallies nD τ sig Unit) W)
        ⊢ iprop((StableHlo.held (c : Thread nD τ) (Pipeline.ucRefs τ sig) (W7 m ρ c) ∗ ∃ r, prngReg c r) ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every final state of @main has the twelve argument arrays as launched — each read off `run_all`'s final
    contents `W7` and walked back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs (onTc (τ := τ) (main (F := F))) ⟨m, fun _ => 0, ρ⟩).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c)⟩) (run_all m ρ)

end Cert.Kernel.Hand

end
-- ==== Proof.KI.Region0.lean ====
/- The class-A half of REGION 0 (`cc0__gate_kernel`, pipeline 0) at a parameter `V`, the core's buffer
   contents when the region is entered: every window's block at a point, what the body leaves in the output
   window's buffer, the body's triple, the proof data and the body obligation. -/
import proofs.«115356_j45689862095431_2_alg».proof.Proof.Gen.KernelIdeal.Launch
import proofs.«115356_j45689862095431_2_alg».proof.Proof.Gen.KernelIdeal.Skeleton
import proofs.«115356_j45689862095431_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where it is not fetched
    its block index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where it is not fetched
    its block index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where it is not fetched
    its block index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): where it is not fetched
    its block index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): where it is not fetched
    its block index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): where it is not fetched
    its block index has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev r0_S1x4096 : Rect S1x4096 := Rect.unit (s := S1x4096) ![0, 0] S1x4096.size inb_S1x4096_S1x4096_0_0
abbrev r0_S1x2048 : Rect S1x2048 := Rect.unit (s := S1x2048) ![0, 0] S1x2048.size inb_S1x2048_S1x2048_0_0
abbrev r0_S512x4096 : Rect S512x4096 := Rect.unit (s := S512x4096) ![0, 0] S512x4096.size inb_S512x4096_S512x4096_0_0
abbrev r0_S1x512 : Rect S1x512 := Rect.unit (s := S1x512) ![0, 0] S1x512.size inb_S1x512_S1x512_0_0
abbrev r0_S512x2048 : Rect S512x2048 := Rect.unit (s := S512x2048) ![0, 0] S512x2048.size inb_S512x2048_S512x2048_0_0

/-! ## What the body leaves in the output window's buffer -/

/-- Window 6's staging buffer after the body, from the input windows' blocks: its one store, of the payload over
    the loaded blocks, as a single piece over the whole buffer. -/
def out0_6 (x0 : Vec F S1x4096 .f32) (x1 : Vec F S1x2048 .f32) (x2 : Vec F S512x4096 .f32) (x3 : Vec F S1x512 .f32) (x4 : Vec F S512x2048 .f32) (x5 : Vec F S1x512 .f32) : Vec F S1x512 .f32 :=
  View.canon [⟨r0_S1x512, k0_pay1 (View.ld x0 r0_S1x4096) (View.ld x1 r0_S1x2048) (View.ld x2 r0_S512x4096) (View.ld x4 r0_S512x2048) (View.ld x3 r0_S1x512) (View.ld x5 r0_S1x512)⟩]

/-- The store's rectangle is the whole buffer, so it covers it. -/
theorem cover0_6 (p0 : Vec F S1x512 .f32) (y : S1x512.Idx) :
    ∃ pc ∈ ([⟨r0_S1x512, p0⟩] : List (View.Piece (Elt F) S1x512 .f32)), y ∈ pc.1.set :=
  View.cover_of_tiled [⟨r0_S1x512, p0⟩] S1x512.size (by rfl) y

/-! ## The body's triple -/

set_option maxHeartbeats 1000000 in
/-- The kernel body on whole staging memrefs, the inputs' at read contents `xW` and the output's at anything, runs to
    the continuation holding the inputs' as they were and the output's at `out0_6` of the inputs'. The body also
    loads the output's buffer before storing into it; the loaded value is not used. -/
theorem sound_kernel0 (c : Dev nD) (E : Set ℕ) (i : grid0.Coords) (arg0 : Memref sig .tc .vmem S1x4096 .f32) (harg0 : arg0.IsWhole) (arg1 : Memref sig .tc .vmem S1x2048 .f32) (harg1 : arg1.IsWhole) (arg2 : Memref sig .tc .vmem S512x4096 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S1x512 .f32) (harg6 : arg6.IsWhole)
    (x0 : Vec F S1x4096 .f32) (x1 : Vec F S1x2048 .f32) (x2 : Vec F S512x4096 .f32) (x3 : Vec F S1x512 .f32) (x4 : Vec F S512x2048 .f32) (x5 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x1 x2 x3 x4 x5)) -∗ K ⟨⟩))
      ⊢ wp frame (wpE (defs₀ (F := F)) Variants.none c none) E (cc0__gate_kernel i arg0 harg0 arg1 harg1 arg2 harg2 arg3 harg3 arg4 harg4 arg5 harg5 arg6 harg6) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at point `t`
    each input's buffer at its block and the output's at `out0_6` of the input blocks; the invariant leaves the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- The class-A half of REGION 1 (`cc1__alpha_bias_kernel`, pipeline 1) at a parameter `V`, the core's buffer
   contents when the region is entered: every window's block at a point, what the body leaves in the output
   window's buffer, the body's triple, the proof data and the body obligation. -/
import proofs.«115356_j45689862095431_2_alg».proof.Proof.Gen.KernelIdeal.Launch
import proofs.«115356_j45689862095431_2_alg».proof.Proof.Gen.KernelIdeal.Skeleton
import proofs.«115356_j45689862095431_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where it is not fetched
    its block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where it is not fetched
    its block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where it is not fetched
    its block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where it is not fetched
    its block index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_S1x4096 : Rect S1x4096 := Rect.unit (s := S1x4096) ![0, 0] S1x4096.size inb_S1x4096_S1x4096_0_0
abbrev r1_S512x4096 : Rect S512x4096 := Rect.unit (s := S512x4096) ![0, 0] S512x4096.size inb_S512x4096_S512x4096_0_0
abbrev r1_S1x512 : Rect S1x512 := Rect.unit (s := S1x512) ![0, 0] S1x512.size inb_S1x512_S1x512_0_0

/-! ## What the body leaves in the output window's buffer -/

/-- Window 4's staging buffer after the body, from the input windows' blocks: its one store, of the payload over
    the loaded blocks, as a single piece over the whole buffer. -/
def out1_4 (x0 : Vec F S1x4096 .f32) (x1 : Vec F S512x4096 .f32) (x2 : Vec F S1x512 .f32) (x3 : Vec F S1x512 .f32) : Vec F S1x512 .f32 :=
  View.canon [⟨r1_S1x512, k1_pay1 (View.ld x0 r1_S1x4096) (View.ld x1 r1_S512x4096) (View.ld x2 r1_S1x512) (View.ld x3 r1_S1x512)⟩]

/-- The store's rectangle is the whole buffer, so it covers it. -/
theorem cover1_4 (p0 : Vec F S1x512 .f32) (y : S1x512.Idx) :
    ∃ pc ∈ ([⟨r1_S1x512, p0⟩] : List (View.Piece (Elt F) S1x512 .f32)), y ∈ pc.1.set :=
  View.cover_of_tiled [⟨r1_S1x512, p0⟩] S1x512.size (by rfl) y

/-! ## The body's triple -/

set_option maxHeartbeats 1000000 in
/-- The kernel body on whole staging memrefs, the inputs' at read contents `xW` and the output's at anything, runs to
    the continuation holding the inputs' as they were and the output's at `out1_4` of the inputs'. The body also
    loads the output's buffer before storing into it; the loaded value is not used. -/
theorem sound_kernel1 (c : Dev nD) (E : Set ℕ) (i : grid1.Coords) (arg0 : Memref sig .tc .vmem S1x4096 .f32) (harg0 : arg0.IsWhole) (arg1 : Memref sig .tc .vmem S512x4096 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S1x512 .f32) (harg4 : arg4.IsWhole)
    (x0 : Vec F S1x4096 .f32) (x1 : Vec F S512x4096 .f32) (x2 : Vec F S1x512 .f32) (x3 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__alpha_bias_kernel i arg0 harg0 arg1 harg1 arg2 harg2 arg3 harg3 arg4 harg4) K := by
  simp only [cc1__alpha_bias_kernel_eq_skeleton]; unfold cc1__alpha_bias_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and the output's at `out1_4` of the input blocks; the invariant leaves the scoped
    rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2Runs.lean ====
import proofs.«115356_j45689862095431_2_alg».proof.Proof.Gen.KernelIdeal.Launch
import proofs.«115356_j45689862095431_2_alg».proof.Proof.Gen.KernelIdeal.Skeleton
import proofs.«115356_j45689862095431_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The third region: the merge over the lexicon rows, a 2 × 2 grid (core, tile)

Windows 0–4 are inputs (the bias row, the input-gate row, the candidate row, the lexicon weight matrix, one tile of
1024 lexicon rows); windows 5 and 6 are the two outputs, one [1,1,2048] block per core, stored only at a core's
last tile; two [1,2048] scratch rows carry the running normaliser and the running weighted sum between the tiles
of a core. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's three conditions on the grid point, in closed form -/

/-- "This is the core's first tile": the scratch rows are reset. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- "Core 0's first tile": the gate row joins the sums, once. -/
abbrev cond2_1 (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond2_1 : ∀ t : Fin cfg2.N, cond2_1 (grid2.coords t) ↔ t.val % 4 = 0 :=
  (by decide +kernel : ∀ t : Fin grid2.N, cond2_1 (grid2.coords t) ↔ t.val % 4 = 0)
/-- "The core's last tile": the scratch rows are copied to the outputs. -/
abbrev cond2_2 (i : grid2.Coords) : Prop := k2_cond3 i = 1#1
theorem hcond2_2 : ∀ t : Fin cfg2.N, cond2_2 (grid2.coords t) ↔ t.val % 2 = 1 :=
  (by decide +kernel : ∀ t : Fin grid2.N, cond2_2 (grid2.coords t) ↔ t.val % 2 = 1)

/-! ## Where the windows are idle -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Where the core's last tile is not reached, output 5 is idle and not written back; at the last tile it is stored. -/
theorem idleAt2_5 : ∀ t : Fin cfg2.N, ¬cond2_2 (grid2.coords t) → cfg2.idle 5 (grid2.coords t) = true := by decide +kernel
theorem noFlush2_5 : ∀ t : Fin cfg2.N, ¬cond2_2 (grid2.coords t) → (cfg2.win 5).flush t = false := by decide +kernel
theorem liveAt2_5 : ∀ t : Fin cfg2.N, cond2_2 (grid2.coords t) → cfg2.idle 5 (grid2.coords t) = false := by decide +kernel
/-- Where the core's last tile is not reached, output 6 is idle and not written back; at the last tile it is stored. -/
theorem idleAt2_6 : ∀ t : Fin cfg2.N, ¬cond2_2 (grid2.coords t) → cfg2.idle 6 (grid2.coords t) = true := by decide +kernel
theorem noFlush2_6 : ∀ t : Fin cfg2.N, ¬cond2_2 (grid2.coords t) → (cfg2.win 6).flush t = false := by decide +kernel
theorem liveAt2_6 : ∀ t : Fin cfg2.N, cond2_2 (grid2.coords t) → cfg2.idle 6 (grid2.coords t) = false := by decide +kernel

/-! ## The memrefs the body is called with -/

abbrev VO2_5 : View sig .tc .vmem S1x1x2048 .f32 := (Memref.whole cc2_stg5_0 : Memref sig .tc .vmem S1x1x2048 .f32).view
abbrev VO2_6 : View sig .tc .vmem S1x1x2048 .f32 := (Memref.whole cc2_stg6_0 : Memref sig .tc .vmem S1x1x2048 .f32).view
abbrev ms2_0 (t : Fin cfg2.N) : Memref sig .tc .vmem S1x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x2048 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1x2048 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1x2048 .f32 := win2_6.stage (cfg2.slots t 6)
abbrev hs2_6 (t : Fin cfg2.N) : (ms2_6 t).IsWhole := hstage2_6 ((cfg2.slots t 6).cast nbuf2_6)
/-- The two scratch rows: whole scoped buffers of the kernel's own. -/
abbrev scM2_0 : Memref sig .tc .vmem S1x2048 .f32 := Memref.whole cc2_scratch0
abbrev scM2_1 : Memref sig .tc .vmem S1x2048 .f32 := Memref.whole cc2_scratch1
abbrev VS2_0 : View sig .tc .vmem S1x2048 .f32 := scM2_0.view
abbrev VS2_1 : View sig .tc .vmem S1x2048 .f32 := scM2_1.view

/-- Every other scoped buffer of the core (the other regions' staging buffers), unopened. -/
abbrev Rest2 (c : Dev nD) : sProp 𝕄 :=
  Pipeline.scopedRestBut (Ix := Unit) (Name := ℕ) (U := UR sig nD τ) (Lvl := ℕ) (Val := Elt F) spec2 c [cc2_scratch0, cc2_scratch1]

/-- The class invariant with the two scratch rows split out as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ Rest2 c) ∗ (∃ r, prngReg c r)) := by
  unfold Pipeline.ΦA
  rw [Pipeline.scopedRest_split_of_list spec2 c [cc2_scratch0, cc2_scratch1] (by decide) (by decide)]
  simp only [scM2_0, scM2_1, owns_whole]; try rfl

end Cert.KernelIdeal.Hand

end
-- ==== Proof.KI.R2RunA.lean ====
import proofs.«115356_j45689862095431_2_alg».proof.Proof.KI.R2Runs
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A (core 0's first tile: reset, the gate row, the tile): the outputs are not touched and are handed back as found; each scratch row ends with
    the pieces of the body's stores written (found by the run). -/
noncomputable def kernelRun2_A (c : Dev nD) (i : grid2.Coords) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S1024x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x2048 .f32) (harg10 : arg10.IsWhole) (hc0 : cond2_0 i) (hc1 : cond2_1 i) (hc2 : ¬cond2_2 i)
    (x0 : Vec F S1x2048 .f32) (x1 : Vec F S1x2048 .f32) (x2 : Vec F S1x2048 .f32) (x3 : Vec F S2048x2048 .bf16) (x4 : Vec F S1024x2048 .f32) :
    Σ' (LS0 : List (View.Piece (Elt F) S1x2048 .f32)), { LS1 : List (View.Piece (Elt F) S1x2048 .f32) //
      ∀ (xi5 : Vec F S1x1x2048 .f32) (xi6 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__merge_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc2__merge_kernel_eq_skeleton]; unfold cc2__merge_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KI.R2RunB.lean ====
import proofs.«115356_j45689862095431_2_alg».proof.Proof.KI.R2Runs
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B (a core's last tile): the scratch rows arrive at what the tile before left (`xs0`, `xs1`), take the tile's
    sums, and are copied into the two outputs; every buffer ends with the pieces of the body's stores written. -/
noncomputable def kernelRun2_B (c : Dev nD) (i : grid2.Coords) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S1024x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x2048 .f32) (harg10 : arg10.IsWhole) (hc0 : ¬cond2_0 i) (hc1 : ¬cond2_1 i) (hc2 : cond2_2 i)
    (x0 : Vec F S1x2048 .f32) (x1 : Vec F S1x2048 .f32) (x2 : Vec F S1x2048 .f32) (x3 : Vec F S2048x2048 .bf16) (x4 : Vec F S1024x2048 .f32) (xs0 : Vec F S1x2048 .f32) (xs1 : Vec F S1x2048 .f32) :
    Σ' (L5 : List (View.Piece (Elt F) S1x1x2048 .f32)) (L6 : List (View.Piece (Elt F) S1x1x2048 .f32)) (LS0 : List (View.Piece (Elt F) S1x2048 .f32)), { LS1 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__merge_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc2__merge_kernel_eq_skeleton]; unfold cc2__merge_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexists _; iexact HS1

end Cert.KernelIdeal.Hand

end
-- ==== Proof.KI.R2RunC.lean ====
import proofs.«115356_j45689862095431_2_alg».proof.Proof.KI.R2Runs
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C (core 1's first tile: reset, the tile): the outputs are not touched and are handed back as found; each scratch row ends with
    the pieces of the body's stores written (found by the run). -/
noncomputable def kernelRun2_C (c : Dev nD) (i : grid2.Coords) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S1024x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x2048 .f32) (harg9 : arg9.IsWhole) (arg10 : Memref sig .tc .vmem S1x2048 .f32) (harg10 : arg10.IsWhole) (hc0 : cond2_0 i) (hc1 : ¬cond2_1 i) (hc2 : ¬cond2_2 i)
    (x0 : Vec F S1x2048 .f32) (x1 : Vec F S1x2048 .f32) (x2 : Vec F S1x2048 .f32) (x3 : Vec F S2048x2048 .bf16) (x4 : Vec F S1024x2048 .f32) :
    Σ' (LS0 : List (View.Piece (Elt F) S1x2048 .f32)), { LS1 : List (View.Piece (Elt F) S1x2048 .f32) //
      ∀ (xi5 : Vec F S1x1x2048 .f32) (xi6 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__merge_kernel i arg2 harg2 arg3 harg3 arg4 harg4 arg5 harg5 arg6 harg6 arg7 harg7 arg8 harg8 arg9 harg9 arg10 harg10) K } := by
  refine ⟨?_, ?_, fun xi5 xi6 E K => ?run⟩
  case run =>
    simp only [cc2__merge_kernel_eq_skeleton]; unfold cc2__merge_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KI.Region2.lean ====
import proofs.«115356_j45689862095431_2_alg».proof.Proof.KI.R2RunA
import proofs.«115356_j45689862095431_2_alg».proof.Proof.KI.R2RunB
import proofs.«115356_j45689862095431_2_alg».proof.Proof.KI.R2RunC
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three cases at a grid point, each run at the point's memrefs and input blocks -/

/-- The run of core 0's first tile at point `t`. -/
abbrev runA (c : Dev nD) (t : Fin cfg2.N) (h0 : cond2_0 (grid2.coords t)) (h1 : cond2_1 (grid2.coords t)) (h2 : ¬cond2_2 (grid2.coords t)) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) h0 h1 h2 (iblk2 V c 0 t) (iblk2 V c 1 t) (iblk2 V c 2 t) (iblk2 V c 3 t) (iblk2 V c 4 t)
/-- The run of a core's last tile at point `t`, the scratch rows arriving at `xs0`, `xs1`. -/
abbrev runB (c : Dev nD) (t : Fin cfg2.N) (h0 : ¬cond2_0 (grid2.coords t)) (h1 : ¬cond2_1 (grid2.coords t)) (h2 : cond2_2 (grid2.coords t)) (xs0 xs1 : Vec F S1x2048 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) h0 h1 h2 (iblk2 V c 0 t) (iblk2 V c 1 t) (iblk2 V c 2 t) (iblk2 V c 3 t) (iblk2 V c 4 t) xs0 xs1
/-- The run of core 1's first tile at point `t`. -/
abbrev runC (c : Dev nD) (t : Fin cfg2.N) (h0 : cond2_0 (grid2.coords t)) (h1 : ¬cond2_1 (grid2.coords t)) (h2 : ¬cond2_2 (grid2.coords t)) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) h0 h1 h2 (iblk2 V c 0 t) (iblk2 V c 1 t) (iblk2 V c 2 t) (iblk2 V c 3 t) (iblk2 V c 4 t)

/-- A placeholder for an output block at a point that does not store it (nothing reads it: the block is neither
    written back there nor kept for the next point). -/
def idle5 : Vec F S1x1x2048 .f32 := VO2_5.read (Elt F) (VO2_5.writes (Elt F) VO2_5.junk [])
def idle6 : Vec F S1x1x2048 .f32 := VO2_6.read (Elt F) (VO2_6.writes (Elt F) VO2_6.junk [])

/-! ### Every buffer a case stores into is covered by its stores -/

theorem scover2_A_0 (c : Dev nD) (t : Fin cfg2.N) (h0 : cond2_0 (grid2.coords t)) (h1 : cond2_1 (grid2.coords t)) (h2 : ¬cond2_2 (grid2.coords t)) (y : S1x2048.Idx) :
    ∃ pc ∈ (runA V c t h0 h1 h2).1, y ∈ pc.1.set :=
  View.cover_of_tiledL (runA V c t h0 h1 h2).1 S1x2048.size (by sl_kernel_rfl) y
theorem scover2_A_1 (c : Dev nD) (t : Fin cfg2.N) (h0 : cond2_0 (grid2.coords t)) (h1 : cond2_1 (grid2.coords t)) (h2 : ¬cond2_2 (grid2.coords t)) (y : S1x2048.Idx) :
    ∃ pc ∈ (runA V c t h0 h1 h2).2.1, y ∈ pc.1.set :=
  View.cover_of_tiledL (runA V c t h0 h1 h2).2.1 S1x2048.size (by sl_kernel_rfl) y
/-- What case A leaves in the two scratch rows. -/
def sout2_A_0 (c : Dev nD) (t : Fin cfg2.N) (h0 : cond2_0 (grid2.coords t)) (h1 : cond2_1 (grid2.coords t)) (h2 : ¬cond2_2 (grid2.coords t)) : Vec F S1x2048 .f32 :=
  VS2_0.read (Elt F) (VS2_0.writes (Elt F) VS2_0.junk (runA V c t h0 h1 h2).1)
def sout2_A_1 (c : Dev nD) (t : Fin cfg2.N) (h0 : cond2_0 (grid2.coords t)) (h1 : cond2_1 (grid2.coords t)) (h2 : ¬cond2_2 (grid2.coords t)) : Vec F S1x2048 .f32 :=
  VS2_1.read (Elt F) (VS2_1.writes (Elt F) VS2_1.junk (runA V c t h0 h1 h2).2.1)

theorem scover2_C_0 (c : Dev nD) (t : Fin cfg2.N) (h0 : cond2_0 (grid2.coords t)) (h1 : ¬cond2_1 (grid2.coords t)) (h2 : ¬cond2_2 (grid2.coords t)) (y : S1x2048.Idx) :
    ∃ pc ∈ (runC V c t h0 h1 h2).1, y ∈ pc.1.set :=
  View.cover_of_tiledL (runC V c t h0 h1 h2).1 S1x2048.size (by sl_kernel_rfl) y
theorem scover2_C_1 (c : Dev nD) (t : Fin cfg2.N) (h0 : cond2_0 (grid2.coords t)) (h1 : ¬cond2_1 (grid2.coords t)) (h2 : ¬cond2_2 (grid2.coords t)) (y : S1x2048.Idx) :
    ∃ pc ∈ (runC V c t h0 h1 h2).2.1, y ∈ pc.1.set :=
  View.cover_of_tiledL (runC V c t h0 h1 h2).2.1 S1x2048.size (by sl_kernel_rfl) y
/-- What case C leaves in the two scratch rows. -/
def sout2_C_0 (c : Dev nD) (t : Fin cfg2.N) (h0 : cond2_0 (grid2.coords t)) (h1 : ¬cond2_1 (grid2.coords t)) (h2 : ¬cond2_2 (grid2.coords t)) : Vec F S1x2048 .f32 :=
  VS2_0.read (Elt F) (VS2_0.writes (Elt F) VS2_0.junk (runC V c t h0 h1 h2).1)
def sout2_C_1 (c : Dev nD) (t : Fin cfg2.N) (h0 : cond2_0 (grid2.coords t)) (h1 : ¬cond2_1 (grid2.coords t)) (h2 : ¬cond2_2 (grid2.coords t)) : Vec F S1x2048 .f32 :=
  VS2_1.read (Elt F) (VS2_1.writes (Elt F) VS2_1.junk (runC V c t h0 h1 h2).2.1)

theorem cover2_B_5 (c : Dev nD) (t : Fin cfg2.N) (h0 : ¬cond2_0 (grid2.coords t)) (h1 : ¬cond2_1 (grid2.coords t)) (h2 : cond2_2 (grid2.coords t)) (xs0 xs1 : Vec F S1x2048 .f32) (y : S1x1x2048.Idx) :
    ∃ pc ∈ (runB V c t h0 h1 h2 xs0 xs1).1, y ∈ pc.1.set :=
  View.cover_of_tiledL (runB V c t h0 h1 h2 xs0 xs1).1 S1x1x2048.size (by sl_kernel_rfl) y
theorem cover2_B_6 (c : Dev nD) (t : Fin cfg2.N) (h0 : ¬cond2_0 (grid2.coords t)) (h1 : ¬cond2_1 (grid2.coords t)) (h2 : cond2_2 (grid2.coords t)) (xs0 xs1 : Vec F S1x2048 .f32) (y : S1x1x2048.Idx) :
    ∃ pc ∈ (runB V c t h0 h1 h2 xs0 xs1).2.1, y ∈ pc.1.set :=
  View.cover_of_tiledL (runB V c t h0 h1 h2 xs0 xs1).2.1 S1x1x2048.size (by sl_kernel_rfl) y
theorem scover2_B_0 (c : Dev nD) (t : Fin cfg2.N) (h0 : ¬cond2_0 (grid2.coords t)) (h1 : ¬cond2_1 (grid2.coords t)) (h2 : cond2_2 (grid2.coords t)) (xs0 xs1 : Vec F S1x2048 .f32) (y : S1x2048.Idx) :
    ∃ pc ∈ (runB V c t h0 h1 h2 xs0 xs1).2.2.1, y ∈ pc.1.set :=
  View.cover_of_tiledL (runB V c t h0 h1 h2 xs0 xs1).2.2.1 S1x2048.size (by sl_kernel_rfl) y
theorem scover2_B_1 (c : Dev nD) (t : Fin cfg2.N) (h0 : ¬cond2_0 (grid2.coords t)) (h1 : ¬cond2_1 (grid2.coords t)) (h2 : cond2_2 (grid2.coords t)) (xs0 xs1 : Vec F S1x2048 .f32) (y : S1x2048.Idx) :
    ∃ pc ∈ (runB V c t h0 h1 h2 xs0 xs1).2.2.2.1, y ∈ pc.1.set :=
  View.cover_of_tiledL (runB V c t h0 h1 h2 xs0 xs1).2.2.2.1 S1x2048.size (by sl_kernel_rfl) y
/-- What a core's last tile leaves in the two outputs' blocks and in the two scratch rows. -/
def out2_B_5 (c : Dev nD) (t : Fin cfg2.N) (h0 : ¬cond2_0 (grid2.coords t)) (h1 : ¬cond2_1 (grid2.coords t)) (h2 : cond2_2 (grid2.coords t)) (xs0 xs1 : Vec F S1x2048 .f32) : Vec F S1x1x2048 .f32 :=
  VO2_5.read (Elt F) (VO2_5.writes (Elt F) VO2_5.junk (runB V c t h0 h1 h2 xs0 xs1).1)
def out2_B_6 (c : Dev nD) (t : Fin cfg2.N) (h0 : ¬cond2_0 (grid2.coords t)) (h1 : ¬cond2_1 (grid2.coords t)) (h2 : cond2_2 (grid2.coords t)) (xs0 xs1 : Vec F S1x2048 .f32) : Vec F S1x1x2048 .f32 :=
  VO2_6.read (Elt F) (VO2_6.writes (Elt F) VO2_6.junk (runB V c t h0 h1 h2 xs0 xs1).2.1)
def sout2_B_0 (c : Dev nD) (t : Fin cfg2.N) (h0 : ¬cond2_0 (grid2.coords t)) (h1 : ¬cond2_1 (grid2.coords t)) (h2 : cond2_2 (grid2.coords t)) (xs0 xs1 : Vec F S1x2048 .f32) : Vec F S1x2048 .f32 :=
  VS2_0.read (Elt F) (VS2_0.writes (Elt F) VS2_0.junk (runB V c t h0 h1 h2 xs0 xs1).2.2.1)
def sout2_B_1 (c : Dev nD) (t : Fin cfg2.N) (h0 : ¬cond2_0 (grid2.coords t)) (h1 : ¬cond2_1 (grid2.coords t)) (h2 : cond2_2 (grid2.coords t)) (xs0 xs1 : Vec F S1x2048 .f32) : Vec F S1x2048 .f32 :=
  VS2_1.read (Elt F) (VS2_1.writes (Elt F) VS2_1.junk (runB V c t h0 h1 h2 xs0 xs1).2.2.2.1)

/-! ## What the outputs and the scratch rows hold after each point -/

theorem N2_lt {n : ℕ} (hn : n < cfg2.N) : n < 4 := lt_of_lt_of_eq hn (show cfg2.N = 4 from N_2)

/-- After point `n`: (output 5's block, output 6's block, scratch row 0, scratch row 1). Point 0 is core 0's first
    tile; an odd point is a core's last tile, run over what the point before left in the scratch rows; point 2 is core
    1's first tile. -/
def outsAt2 (c : Dev nD) : (n : ℕ) → n < cfg2.N → Vec F S1x1x2048 .f32 × Vec F S1x1x2048 .f32 × Vec F S1x2048 .f32 × Vec F S1x2048 .f32
  | 0, hn =>
    (idle5, idle6,
      sout2_A_0 V c ⟨0, hn⟩ ((hcond2_0 ⟨0, hn⟩).mpr (Nat.zero_mod _)) ((hcond2_1 ⟨0, hn⟩).mpr (Nat.zero_mod _)) (fun h => (fun h => by (try dsimp only at h); omega) ((hcond2_2 ⟨0, hn⟩).mp h)),
      sout2_A_1 V c ⟨0, hn⟩ ((hcond2_0 ⟨0, hn⟩).mpr (Nat.zero_mod _)) ((hcond2_1 ⟨0, hn⟩).mpr (Nat.zero_mod _)) (fun h => (fun h => by (try dsimp only at h); omega) ((hcond2_2 ⟨0, hn⟩).mp h)))
  | n + 1, hn =>
    if h : (n + 1) % 2 = 1 then
      (out2_B_5 V c ⟨n + 1, hn⟩ (fun e => (fun e => by (try dsimp only at e); omega) ((hcond2_0 ⟨n + 1, hn⟩).mp e)) (fun e => (fun e => by (try dsimp only at e); omega) ((hcond2_1 ⟨n + 1, hn⟩).mp e)) ((hcond2_2 ⟨n + 1, hn⟩).mpr h) (outsAt2 c n (Nat.lt_of_succ_lt hn)).2.2.1 (outsAt2 c n (Nat.lt_of_succ_lt hn)).2.2.2,
       out2_B_6 V c ⟨n + 1, hn⟩ (fun e => (fun e => by (try dsimp only at e); omega) ((hcond2_0 ⟨n + 1, hn⟩).mp e)) (fun e => (fun e => by (try dsimp only at e); omega) ((hcond2_1 ⟨n + 1, hn⟩).mp e)) ((hcond2_2 ⟨n + 1, hn⟩).mpr h) (outsAt2 c n (Nat.lt_of_succ_lt hn)).2.2.1 (outsAt2 c n (Nat.lt_of_succ_lt hn)).2.2.2,
       sout2_B_0 V c ⟨n + 1, hn⟩ (fun e => (fun e => by (try dsimp only at e); omega) ((hcond2_0 ⟨n + 1, hn⟩).mp e)) (fun e => (fun e => by (try dsimp only at e); omega) ((hcond2_1 ⟨n + 1, hn⟩).mp e)) ((hcond2_2 ⟨n + 1, hn⟩).mpr h) (outsAt2 c n (Nat.lt_of_succ_lt hn)).2.2.1 (outsAt2 c n (Nat.lt_of_succ_lt hn)).2.2.2,
       sout2_B_1 V c ⟨n + 1, hn⟩ (fun e => (fun e => by (try dsimp only at e); omega) ((hcond2_0 ⟨n + 1, hn⟩).mp e)) (fun e => (fun e => by (try dsimp only at e); omega) ((hcond2_1 ⟨n + 1, hn⟩).mp e)) ((hcond2_2 ⟨n + 1, hn⟩).mpr h) (outsAt2 c n (Nat.lt_of_succ_lt hn)).2.2.1 (outsAt2 c n (Nat.lt_of_succ_lt hn)).2.2.2)
    else
      (idle5, idle6,
        sout2_C_0 V c ⟨n + 1, hn⟩ ((hcond2_0 ⟨n + 1, hn⟩).mpr (by (try dsimp only); omega)) (fun e => (fun e => by (try dsimp only at e); have := N2_lt hn; omega) ((hcond2_1 ⟨n + 1, hn⟩).mp e)) (fun e => h ((hcond2_2 ⟨n + 1, hn⟩).mp e)),
        sout2_C_1 V c ⟨n + 1, hn⟩ ((hcond2_0 ⟨n + 1, hn⟩).mpr (by (try dsimp only); omega)) (fun e => (fun e => by (try dsimp only at e); have := N2_lt hn; omega) ((hcond2_1 ⟨n + 1, hn⟩).mp e)) (fun e => h ((hcond2_2 ⟨n + 1, hn⟩).mp e)))

/-- `outsAt2` at point 0. -/
theorem outsAt2_A (c : Dev nD) (t : Fin cfg2.N) (hz : t.val = 0) (h0 : cond2_0 (grid2.coords t)) (h1 : cond2_1 (grid2.coords t)) (h2 : ¬cond2_2 (grid2.coords t)) :
    outsAt2 V c t.val t.isLt = (idle5, idle6, sout2_A_0 V c t h0 h1 h2, sout2_A_1 V c t h0 h1 h2) := by
  obtain ⟨n, hn⟩ := t
  cases n with
  | zero => exact rfl
  | succ n => exact absurd hz (Nat.succ_ne_zero n)

/-- `outsAt2` at a core's last tile: over what the point before left in the scratch rows. -/
theorem outsAt2_B (c : Dev nD) (t : Fin cfg2.N) (hodd : t.val % 2 = 1) (h0 : ¬cond2_0 (grid2.coords t)) (h1 : ¬cond2_1 (grid2.coords t)) (h2 : cond2_2 (grid2.coords t)) :
    outsAt2 V c t.val t.isLt =
      (out2_B_5 V c t h0 h1 h2 (outsAt2 V c (t.val - 1) (Nat.lt_of_le_of_lt (Nat.sub_le _ _) t.isLt)).2.2.1 (outsAt2 V c (t.val - 1) (Nat.lt_of_le_of_lt (Nat.sub_le _ _) t.isLt)).2.2.2,
       out2_B_6 V c t h0 h1 h2 (outsAt2 V c (t.val - 1) (Nat.lt_of_le_of_lt (Nat.sub_le _ _) t.isLt)).2.2.1 (outsAt2 V c (t.val - 1) (Nat.lt_of_le_of_lt (Nat.sub_le _ _) t.isLt)).2.2.2,
       sout2_B_0 V c t h0 h1 h2 (outsAt2 V c (t.val - 1) (Nat.lt_of_le_of_lt (Nat.sub_le _ _) t.isLt)).2.2.1 (outsAt2 V c (t.val - 1) (Nat.lt_of_le_of_lt (Nat.sub_le _ _) t.isLt)).2.2.2,
       sout2_B_1 V c t h0 h1 h2 (outsAt2 V c (t.val - 1) (Nat.lt_of_le_of_lt (Nat.sub_le _ _) t.isLt)).2.2.1 (outsAt2 V c (t.val - 1) (Nat.lt_of_le_of_lt (Nat.sub_le _ _) t.isLt)).2.2.2) := by
  obtain ⟨n, hn⟩ := t
  cases n with
  | zero => exact (by exfalso; (try dsimp only at hodd); omega)
  | succ n => exact (dif_pos hodd).trans rfl

/-- `outsAt2` at core 1's first tile. -/
theorem outsAt2_C (c : Dev nD) (t : Fin cfg2.N) (hz : t.val ≠ 0) (hev : ¬t.val % 2 = 1) (h0 : cond2_0 (grid2.coords t)) (h1 : ¬cond2_1 (grid2.coords t)) (h2 : ¬cond2_2 (grid2.coords t)) :
    outsAt2 V c t.val t.isLt = (idle5, idle6, sout2_C_0 V c t h0 h1 h2, sout2_C_1 V c t h0 h1 h2) := by
  obtain ⟨n, hn⟩ := t
  cases n with
  | zero => exact absurd rfl hz
  | succ n => exact (dif_neg hev).trans rfl

/-! ## The invariant: the scratch rows at what the point before left -/

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.1) ∗ owns (c : Thread nD τ) scM2_1 fullShare ((outsAt2 V c n hn).2.2.2)) ∗ Rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.2.1) ∗ owns (c : Thread nD τ) scM2_1 fullShare ((outsAt2 V c n hn).2.2.2)) ∗ Rest2 c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.1) ∗ owns (c : Thread nD τ) scM2_1 fullShare ((outsAt2 V c (n - 1) (by omega)).2.2.2)) ∗ Rest2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- The body at any point: the inputs' memrefs hold their blocks; the closed forms of the three conditions say which
    of the three cases the point is in; the invariant hands the body the scratch rows (at anything before the first
    point, afterwards at what the point before left) and takes them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 4 := N2_lt t.isLt
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases hodd : t.val % 2 = 1
  · have h0 : ¬cond2_0 (grid2.coords t) := fun e => by have := (hcond2_0 t).mp e; omega
    have h1 : ¬cond2_1 (grid2.coords t) := fun e => by have := (hcond2_1 t).mp e; omega
    have h2 : cond2_2 (grid2.coords t) := (hcond2_2 t).mpr hodd
    have hz : t.val ≠ 0 := by omega
    rw [show (dat2 V c).leavesExact 5 t = owns (c : Thread nD τ) (ms2_5 t) fullShare ((dat2 V c).after 5 t) from by
      unfold Dat.leavesExact; rw [liveAt2_5 t h2], after2_5]
    rw [show (dat2 V c).leavesExact 6 t = owns (c : Thread nD τ) (ms2_6 t) fullShare ((dat2 V c).after 6 t) from by
      unfold Dat.leavesExact; rw [liveAt2_6 t h2], after2_6]
    rw [outsAt2_B V c t hodd h0 h1 h2]
    unfold out2_B_5 out2_B_6 sout2_B_0 sout2_B_1; (try dsimp only)
    rw [PhiS2_castSucc V c t, PhiS2_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((runB V c t h0 h1 h2 _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%e5, H5⟩, ⟨%e6, H6⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover2_B_0 V c t h0 h1 h2 _ _)
          · unfold owns; iexists _; isplitr
            swap; · iexact HS1
            ipureintro; exact View.read_writes_of_cover _ _ _ _ _ (scover2_B_1 V c t h0 h1 h2 _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_B_5 V c t h0 h1 h2 _ _)
    unfold owns; iexists _; isplitr
    swap; · iexact H6
    ipureintro; exact View.read_writes_of_cover _ _ _ _ _ (cover2_B_6 V c t h0 h1 h2 _ _)
  · have h0 : cond2_0 (grid2.coords t) := (hcond2_0 t).mpr (by omega)
    have h2 : ¬cond2_2 (grid2.coords t) := fun e => hodd ((hcond2_2 t).mp e)
    by_cases hz : t.val = 0
    · have h1 : cond2_1 (grid2.coords t) := (hcond2_1 t).mpr (by omega)
      rw [Dat.leavesExact_idle (dat2 V c) 5 t (idleAt2_5 t h2) (noFlush2_5 t h2), Dat.leavesExact_idle (dat2 V c) 6 t (idleAt2_6 t h2) (noFlush2_6 t h2)]
      rw [outsAt2_A V c t hz h0 h1 h2]
      unfold sout2_A_0 sout2_A_1; (try dsimp only)
      rw [PhiS2_castSucc V c t, PhiS2_zero V c _ _ hz, PhiA2_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0 h1 h2).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_A_0 V c t h0 h1 h2)
            · unfold owns; iexists _; isplitr
              swap; · iexact HS1
              ipureintro; exact View.read_writes_of_cover _ _ _ _ _ (scover2_A_1 V c t h0 h1 h2)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · have h1 : ¬cond2_1 (grid2.coords t) := fun e => by have := (hcond2_1 t).mp e; omega
      rw [Dat.leavesExact_idle (dat2 V c) 5 t (idleAt2_5 t h2) (noFlush2_5 t h2), Dat.leavesExact_idle (dat2 V c) 6 t (idleAt2_6 t h2) (noFlush2_6 t h2)]
      rw [outsAt2_C V c t hz hodd h0 h1 h2]
      unfold sout2_C_0 sout2_C_1; (try dsimp only)
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((runC V c t h0 h1 h2).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 V c t h0 h1 h2)
            · unfold owns; iexists _; isplitr
              swap; · iexact HS1
              ipureintro; exact View.read_writes_of_cover _ _ _ _ _ (scover2_C_1 V c t h0 h1 h2)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class's back: the scratch rows' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout2 (c : Dev nD) : (dat2 V c).Φ (Fin.last cfg2.N) ⊢ Pipeline.ΦA spec2 c :=
  Phi_out2 V c _ (by rw [Fin.val_last]; have : cfg2.N = 4 := N_2; omega)

end Cert.KernelIdeal.Hand

end
-- ==== Proof.KI.Run.lean ====
/- THE RUN of @main over its seven segments — four stretches of host operations and, between them, the three
   kernel regions —: the buffer contents at every segment boundary as a fold from the launch memory, each argument
   array read back through the fold to its launch contents, every pipeline's proof data at its region's entry
   contents, a segment record per stretch and per region, and the frame: every argument array ends as launched. -/
import proofs.«115356_j45689862095431_2_alg».proof.Proof.KI.Region0
import proofs.«115356_j45689862095431_2_alg».proof.Proof.KI.Region1
import proofs.«115356_j45689862095431_2_alg».proof.Proof.KI.Region2
import proofs.«115356_j45689862095431_2_alg».proof.Proof.Gen.KernelIdeal.Launch
import proofs.«115356_j45689862095431_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: the contents @main returns with. -/
abbrev W7 : Dev nD → Valuation τ sig (Elt F) := fun c => StableHlo.after hostOps3 (W6 m ρ c)

/-! ### The arguments end as launched: no host operation writes one, and a region reads it through an input window
    or does not touch it, so the fold at an argument's buffer walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := (W6_arr m ρ c 4).trans (((dat2 (V5 m ρ) c).arrAt_in 4 rfl _).trans (A_eq2 (V5 m ρ) c 4))
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := StableHlo.after_of_writes_sub hostOps0 _ hostOps0_writes (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 4).trans (((dat0 (V1 m ρ) c).arrAt_in 4 rfl _).trans (A_eq0 (V1 m ρ) c 4))
    _ = W0 m ρ c (Proc.devRef .tc main_arg6) := StableHlo.after_of_writes_sub hostOps0 _ hostOps0_writes (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := (W4_arr m ρ c 1).trans (((dat1 (V3 m ρ) c).arrAt_in 1 rfl _).trans (A_eq1 (V3 m ρ) c 1))
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's image of `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W7`, the
    generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 over the thread state: entered from every unscoped buffer at `W1`, left at `W2` (what the next
    segment is entered from). Its arrays are split out of the unscoped buffers and put back at the exit contents; the
    generator register goes into the invariant and comes out of it; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4` (what the next
    segment is entered from). Its arrays are split out of the unscoped buffers and put back at the exit contents; the
    generator register goes into the invariant and comes out of it; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6` (what the next
    segment is entered from). Its arrays are split out of the unscoped buffers and put back at the exit contents; the
    generator register goes into the invariant and comes out of it; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V5 m ρ) c
    unfold Pipeline.ΦA at h
    rw [show (pdats m ρ 2 c).Φ 0 = (dat2 (V5 m ρ) c).Φ 0 from rfl]
    iintro ⟨Hp, -, Hr⟩
    iapply h
    isplitl [Hr]; · iexact Hr
    iexact Hp
  hout c := by
    rw [Pipeline.ownSems0_none, show (pdats m ρ 2 c).Φ (Fin.last _) = (dat2 (V5 m ρ) c).Φ (Fin.last cfg2.N) from rfl]
    have h := hout2 (V5 m ρ) c
    unfold Pipeline.ΦA at h
    iintro HF
    ihave H := h $$ HF
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and in every final state each core's unscoped buffers hold the last
    boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      show iprop(StableHlo.held (c : Thread nD τ) (Pipeline.ucRefs τ sig) (W7 m ρ c) ∗ (∃ r, prngReg c r) ∗ ∃ W, owes (c : Thread nD τ) (0 : CellTallies nD τ sig Unit) W)
        ⊢ iprop((StableHlo.held (c : Thread nD τ) (Pipeline.ucRefs τ sig) (W7 m ρ c) ∗ ∃ r, prngReg c r) ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every final state of @main has the twelve argument arrays as launched — each read off `run_all`'s final
    contents `W7` and walked back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs (onTc (τ := τ) (main (F := F))) ⟨m, fun _ => 0, ρ⟩).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c)⟩) (run_all m ρ)

end Cert.KernelIdeal.Hand

end
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.KI.Payloads.lean ====
/- The kernel's arithmetic read at an index, on the extended reals.

   Each payload of the three kernel functions is a composition of pointwise operations, layout operations that do not
   move an entry, contractions of rows against rows and a sum over the leading axis. Read at one output index over the
   extended reals (where narrowing a float is the identity, a product into a zero accumulator is a plain sum of
   products and a reduction with zero initial word a plain sum) each payload is an explicit expression in the entries
   of the vectors it was computed from. -/
import proofs.«115356_j45689862095431_2_alg».proof.Proof.Gen.KernelIdeal.Skeleton
import proofs.«115356_j45689862095431_2_alg».proof.Proof.LibContractRows
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-! ## The three contractions: rows against rows -/

/-- `[1, 4096] × [512, 4096] → [1, 512]` into the zero accumulator: entry `(0, q)` is row `0` against row `q`. -/
theorem matmul_1x4096_apply (l : FVec Ideal S1x4096 .bf16) (r : FVec Ideal S512x4096 .bf16) (q : Fin 512) :
    matmul dot_S1x4096_S512x4096_S1x512_1_1_0_0_n_n none l r (constant (F := Ideal) S1x512 .f32 0x00000000#32) (ix2 0 q)
      = ∑ k : Fin 4096, l (ix2 0 k) * r (ix2 q k) :=
  ContractRows.matmul_zero_apply (M := 1) (K := 4096) (N := 512) none l r 0 q

/-- `[1, 2048] × [512, 2048] → [1, 512]` into the zero accumulator. -/
theorem matmul_1x2048_apply (l : FVec Ideal S1x2048 .bf16) (r : FVec Ideal S512x2048 .bf16) (q : Fin 512) :
    matmul dot_S1x2048_S512x2048_S1x512_1_1_0_0_n_n none l r (constant (F := Ideal) S1x512 .f32 0x00000000#32) (ix2 0 q)
      = ∑ k : Fin 2048, l (ix2 0 k) * r (ix2 q k) :=
  ContractRows.matmul_zero_apply (M := 1) (K := 2048) (N := 512) none l r 0 q

/-- `[1024, 2048] × [2048, 2048] → [1024, 2048]` into the zero accumulator: entry `(r, h)` is row `r` against row `h`. -/
theorem matmul_1024x2048_apply (l : FVec Ideal S1024x2048 .bf16) (w : FVec Ideal S2048x2048 .bf16) (r : Fin 1024) (h : Fin 2048) :
    matmul dot_S1024x2048_S2048x2048_S1024x2048_1_1_0_0_n_n none l w (constant (F := Ideal) S1024x2048 .f32 0x00000000#32) (ix2 r h)
      = ∑ k : Fin 2048, l (ix2 r k) * w (ix2 h k) :=
  ContractRows.matmul_zero_apply (M := 1024) (K := 2048) (N := 2048) none l w r h

/-! ## Region 0 and region 1 -/

theorem pay0_apply (v0 : Vec Ideal S1x4096 .f32) (v2 : Vec Ideal S1x2048 .f32) (v4 : Vec Ideal S512x4096 .f32)
    (v6 : Vec Ideal S512x2048 .f32) (v11 v14 : Vec Ideal S1x512 .f32) (q : Fin 512) :
    k0_pay1 (F := Ideal) v0 v2 v4 v6 v11 v14 (ix2 0 q)
      = (∑ k : Fin 4096, v0 (ix2 0 k) * v4 (ix2 q k)) + (∑ k : Fin 2048, v2 (ix2 0 k) * v6 (ix2 q k))
          + v11 (ix2 0 q) + v14 (ix2 0 q) := by
  unfold k0_pay1
  rw [addf_apply, addf_apply, addf_apply, shapeCast_self, shapeCast_self, matmul_1x4096_apply, matmul_1x2048_apply]
  rfl

theorem pay1_apply (v0 : Vec Ideal S1x4096 .f32) (v2 : Vec Ideal S512x4096 .f32) (v5 v8 : Vec Ideal S1x512 .f32) (q : Fin 512) :
    k1_pay1 (F := Ideal) v0 v2 v5 v8 (ix2 0 q)
      = (∑ k : Fin 4096, v0 (ix2 0 k) * v2 (ix2 q k)) + v5 (ix2 0 q) + v8 (ix2 0 q) := by
  unfold k1_pay1
  rw [addf_apply, addf_apply, shapeCast_self, shapeCast_self, matmul_1x4096_apply]
  rfl

/-! ## Region 2 -/

/-- The exponential of a vector is taken entry by entry. -/
theorem exp_apply {s : Shape} (x : FVec Ideal s .f32) (i : s.Idx) : exp x i = Ideal.exp (x i) := rfl

/-- The logistic function of a vector is taken entry by entry. -/
theorem logistic_apply {s : Shape} (x : FVec Ideal s .f32) (i : s.Idx) : logistic x i = Ideal.logistic (x i) := rfl

/-- The sum of a `[1024, 2048]` vector over its leading axis, from the zero word: column `h` summed over the rows. -/
theorem sum_rows_apply (src : FVec Ideal S1024x2048 .f32) (h : Fin 2048) :
    multiReduction .add [0] S2048 src 0x00000000#32 reduces_S1024x2048_S2048 (.inl rfl) rfl (ix1 h)
      = ∑ r : Fin 1024, src (ix2 r h) :=
  (Ideal.multiReduction_add_single src 0x00000000#32 reduces_S1024x2048_S2048 (.inl rfl) rfl (ix1 h)).trans
    (Finset.sum_congr rfl fun r _ => congrArg src (funext fun a => Fin.ext (by
      match a with
      | ⟨0, _⟩ => rfl
      | ⟨1, _⟩ => rfl)))

theorem k2_pay1_apply (v30 : FVec Ideal S1x2048 .f32) (h : Fin 2048) :
    k2_pay1 (F := Ideal) v30 (ix2 0 h) = v30 (ix2 0 h) := by
  unfold k2_pay1
  rw [shapeCast_self]

theorem k2_pay2_apply (v37 : Vec Ideal S1x2048 .f32) (h : Fin 2048) :
    k2_pay2 (F := Ideal) v37 (ix3 0 0 h) = v37 (ix2 0 h) := by
  unfold k2_pay2
  exact shapeCast_ab_1ab_apply (a := 1) (b := 2048) v37 shapeCasts_S1x2048_S1x1x2048 0 0 h

theorem k2_pay3_apply (v40 : Vec Ideal S1x2048 .f32) (h : Fin 2048) :
    k2_pay3 (F := Ideal) v40 (ix3 0 0 h) = v40 (ix2 0 h) := by
  unfold k2_pay3
  exact shapeCast_ab_1ab_apply (a := 1) (b := 2048) v40 shapeCasts_S1x2048_S1x1x2048 0 0 h

/-- The first accumulator starts from the zero vector. -/
theorem k2_pay4_apply (j : S1x2048.Idx) : k2_pay4 (F := Ideal) j = (0 : EReal) := by
  unfold k2_pay4
  rw [shapeCast_self]
  exact Ideal.ofBits_zero_f32

/-- The second accumulator starts from the zero vector. -/
theorem k2_pay5_apply (j : S1x2048.Idx) : k2_pay5 (F := Ideal) j = (0 : EReal) := by
  unfold k2_pay5
  rw [shapeCast_self]
  exact Ideal.ofBits_zero_f32

theorem k2_pay6_apply (v37 : Vec Ideal S1x2048 .f32) (h : Fin 2048) :
    k2_pay6 (F := Ideal) v37 (ix2 0 h) = Ideal.exp (v37 (ix2 0 h)) := by
  unfold k2_pay6
  rw [exp_apply, shapeCast_self]

theorem k2_pay7_apply (v37 v40 : Vec Ideal S1x2048 .f32) (h : Fin 2048) :
    k2_pay7 (F := Ideal) v37 v40 (ix2 0 h) = v40 (ix2 0 h) + Ideal.exp (v37 (ix2 0 h)) := by
  unfold k2_pay7
  rw [shapeCast_self, addf_apply, k2_pay6_apply]

theorem k2_pay8_apply (v37 v45 v46 : Vec Ideal S1x2048 .f32) (h : Fin 2048) :
    k2_pay8 (F := Ideal) v37 v45 v46 (ix2 0 h) = v45 (ix2 0 h) + Ideal.exp (v37 (ix2 0 h)) * v46 (ix2 0 h) := by
  unfold k2_pay8
  rw [shapeCast_self, addf_apply, mulf_apply, k2_pay6_apply, shapeCast_self]

theorem k2_pay9_apply (v8 : Vec Ideal S1024x2048 .f32) (v10 : Vec Ideal S2048x2048 .bf16) (v12 : Vec Ideal S1x2048 .f32)
    (r : Fin 1024) (h : Fin 2048) :
    k2_pay9 (F := Ideal) v8 v10 v12 (ix2 r h)
      = Ideal.exp (Ideal.logistic (v12 (ix2 0 h) + ∑ k : Fin 2048, v8 (ix2 r k) * v10 (ix2 h k))) := by
  unfold k2_pay9
  rw [exp_apply, logistic_apply, addf_apply, broadcastTo_1b_ab_apply, shapeCast_self, shapeCast_self, matmul_1024x2048_apply]
  rfl

theorem k2_pay10_apply (v8 : Vec Ideal S1024x2048 .f32) (v10 : Vec Ideal S2048x2048 .bf16) (v12 v19 : Vec Ideal S1x2048 .f32)
    (h : Fin 2048) :
    k2_pay10 (F := Ideal) v8 v10 v12 v19 (ix2 0 h)
      = v19 (ix2 0 h) + ∑ r : Fin 1024, k2_pay9 (F := Ideal) v8 v10 v12 (ix2 r h) := by
  unfold k2_pay10
  rw [shapeCast_self, addf_apply, shapeCast_a_1a_apply, sum_rows_apply]

theorem k2_pay11_apply (v8 : Vec Ideal S1024x2048 .f32) (v10 : Vec Ideal S2048x2048 .bf16) (v12 v26 : Vec Ideal S1x2048 .f32)
    (h : Fin 2048) :
    k2_pay11 (F := Ideal) v8 v10 v12 v26 (ix2 0 h)
      = v26 (ix2 0 h) + ∑ r : Fin 1024, k2_pay9 (F := Ideal) v8 v10 v12 (ix2 r h) * v8 (ix2 r h) := by
  unfold k2_pay11
  rw [addf_apply, shapeCast_a_1a_apply, sum_rows_apply]
  rfl

end Cert.KernelIdeal.Hand

end
-- ==== Proof.KI.Value01.lean ====
/- The whole output arrays of the first two regions, on the extended reals.

   Each grid point of a region writes one block of 512 columns of its output row; the block is the payload of the
   point's input blocks, which are the whole input rows and the point's 512 rows of each weight matrix and 512
   columns of each bias row. Read entry by entry every block is the same function of the region's input arrays, the
   blocks tile the output row, and so the array after the region's last point is that function. -/
import proofs.«115356_j45689862095431_2_alg».proof.Proof.KI.Region0
import proofs.«115356_j45689862095431_2_alg».proof.Proof.KI.Region1
import proofs.«115356_j45689862095431_2_alg».proof.Proof.KI.Payloads
import Idealize.ShloMosaic.Lib.Pipeline.Value
import Idealize.ShloMosaic.Lib.Decide

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- the TensorCore's buffer contents when the region is entered
variable (V : (c : Dev nD) → (b : Ref sig .tc) → Buf (Elt Ideal) ((c : Thread nD τ).loc b))

theorem zeros2 : (![0, 0] : Fin 2 → Nat) = fun _ => 0 := funext fun a => by fin_cases a <;> rfl

/-! ## Region 0 -/

/-- The gate pre-activations: column `q` is the input row against row `q` of the first weight matrix, plus the
    state row against row `q` of the second, plus the two biases at `q`. -/
def gates (x : S1x4096.Idx → EReal) (hp : S1x2048.Idx → EReal) (wi : S8192x4096.Idx → EReal) (wh : S8192x2048.Idx → EReal)
    (bi bh : S1x8192.Idx → EReal) : S1x8192.Idx → EReal := fun j =>
  (∑ k : Fin 4096, x (ix2 0 k) * wi (ix2 (j 1) k)) + (∑ k : Fin 2048, hp (ix2 0 k) * wh (ix2 (j 1) k))
    + bi (ix2 0 (j 1)) + bh (ix2 0 (j 1))

/-- The printed index maps over the sixteen points: the whole-row windows stay at block 0, the weight windows step
    down the rows and the bias and output windows step along the columns, all with the point. -/
theorem index_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = t.val ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-- Column `q` of point `t`'s block is column `512 t + q` of the row of 8192. -/
def col0 (t : Fin cfg0.N) (q : Fin 512) : Fin 8192 :=
  ⟨t.val * 512 + q.val, by have h : t.val < 16 := N_0 ▸ t.isLt; have := q.isLt; omega⟩

/-- The whole input row, at every point. -/
theorem iblk0_0_apply (c : Dev nD) (t : Fin cfg0.N) (k : Fin 4096) :
    (iblk0 V c 0 t : Vec Ideal S1x4096 .f32) (ix2 0 k) = (V c main_arg0 : S1x4096.Idx → EReal) (ix2 0 k) := by
  obtain ⟨e0, e1, -⟩ := index_facts0 t
  show (V c main_arg0 : S1x4096.Idx → EReal) (((cfg0.win 0).blk t).view.emb (ix2 0 k)) = _
  refine congrArg _ (funext fun a => Fin.ext ?_)
  match a with
  | ⟨0, _⟩ => show win0_0.index t (0 : Fin 2) * 1 + 1 * 0 = 0; omega
  | ⟨1, _⟩ => show win0_0.index t (1 : Fin 2) * 4096 + 1 * k.val = k.val; omega

/-- The whole state row, at every point. -/
theorem iblk0_1_apply (c : Dev nD) (t : Fin cfg0.N) (k : Fin 2048) :
    (iblk0 V c 1 t : Vec Ideal S1x2048 .f32) (ix2 0 k) = (V c main_arg2 : S1x2048.Idx → EReal) (ix2 0 k) := by
  obtain ⟨-, -, e0, e1, -⟩ := index_facts0 t
  show (V c main_arg2 : S1x2048.Idx → EReal) (((cfg0.win 1).blk t).view.emb (ix2 0 k)) = _
  refine congrArg _ (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- Point `t`'s 512 rows of the first weight matrix. -/
theorem iblk0_2_apply (c : Dev nD) (t : Fin cfg0.N) (q : Fin 512) (k : Fin 4096) :
    (iblk0 V c 2 t : Vec Ideal S512x4096 .f32) (ix2 q k) = (V c main_arg4 : S8192x4096.Idx → EReal) (ix2 (col0 t q) k) := by
  obtain ⟨-, -, -, -, e0, e1, -⟩ := index_facts0 t
  show (V c main_arg4 : S8192x4096.Idx → EReal) (((cfg0.win 2).blk t).view.emb (ix2 q k)) = _
  refine congrArg _ (funext fun a => Fin.ext ?_)
  match a with
  | ⟨0, _⟩ => show win0_2.index t (0 : Fin 2) * 512 + 1 * q.val = t.val * 512 + q.val; omega
  | ⟨1, _⟩ => show win0_2.index t (1 : Fin 2) * 4096 + 1 * k.val = k.val; omega

/-- Point `t`'s 512 columns of the first bias row. -/
theorem iblk0_3_apply (c : Dev nD) (t : Fin cfg0.N) (q : Fin 512) :
    (iblk0 V c 3 t : Vec Ideal S1x512 .f32) (ix2 0 q) = (V c main_v0 : S1x8192.Idx → EReal) (ix2 0 (col0 t q)) := by
  obtain ⟨-, -, -, -, -, -, e0, e1, -⟩ := index_facts0 t
  show (V c main_v0 : S1x8192.Idx → EReal) (((cfg0.win 3).blk t).view.emb (ix2 0 q)) = _
  refine congrArg _ (funext fun a => Fin.ext ?_)
  match a with
  | ⟨0, _⟩ => show win0_3.index t (0 : Fin 2) * 1 + 1 * 0 = 0; omega
  | ⟨1, _⟩ => show win0_3.index t (1 : Fin 2) * 512 + 1 * q.val = t.val * 512 + q.val; omega

/-- Point `t`'s 512 rows of the second weight matrix. -/
theorem iblk0_4_apply (c : Dev nD) (t : Fin cfg0.N) (q : Fin 512) (k : Fin 2048) :
    (iblk0 V c 4 t : Vec Ideal S512x2048 .f32) (ix2 q k) = (V c main_arg6 : S8192x2048.Idx → EReal) (ix2 (col0 t q) k) := by
  obtain ⟨-, -, -, -, -, -, -, -, e0, e1, -⟩ := index_facts0 t
  show (V c main_arg6 : S8192x2048.Idx → EReal) (((cfg0.win 4).blk t).view.emb (ix2 q k)) = _
  refine congrArg _ (funext fun a => Fin.ext ?_)
  match a with
  | ⟨0, _⟩ => show win0_4.index t (0 : Fin 2) * 512 + 1 * q.val = t.val * 512 + q.val; omega
  | ⟨1, _⟩ => show win0_4.index t (1 : Fin 2) * 2048 + 1 * k.val = k.val; omega

/-- Point `t`'s 512 columns of the second bias row. -/
theorem iblk0_5_apply (c : Dev nD) (t : Fin cfg0.N) (q : Fin 512) :
    (iblk0 V c 5 t : Vec Ideal S1x512 .f32) (ix2 0 q) = (V c main_v1 : S1x8192.Idx → EReal) (ix2 0 (col0 t q)) := by
  obtain ⟨-, -, -, -, -, -, -, -, -, -, e0, e1, -⟩ := index_facts0 t
  show (V c main_v1 : S1x8192.Idx → EReal) (((cfg0.win 5).blk t).view.emb (ix2 0 q)) = _
  refine congrArg _ (funext fun a => Fin.ext ?_)
  match a with
  | ⟨0, _⟩ => show win0_5.index t (0 : Fin 2) * 1 + 1 * 0 = 0; omega
  | ⟨1, _⟩ => show win0_5.index t (1 : Fin 2) * 512 + 1 * q.val = t.val * 512 + q.val; omega

/-- Where point `t`'s output block sits in the output row. -/
theorem emb0_6 (t : Fin cfg0.N) (q : Fin 512) :
    (((cfg0.win 6).blk t).view.emb (ix2 0 q) : S1x8192.Idx) = ix2 0 (col0 t q) := by
  obtain ⟨-, -, -, -, -, -, -, -, -, -, -, -, e0, e1⟩ := index_facts0 t
  refine funext fun a => Fin.ext ?_
  match a with
  | ⟨0, _⟩ => show win0_6.index t (0 : Fin 2) * 1 + 1 * 0 = 0; omega
  | ⟨1, _⟩ => show win0_6.index t (1 : Fin 2) * 512 + 1 * q.val = t.val * 512 + q.val; omega

/-- What point `t` writes back is block `t` of the gate pre-activations of the region's input arrays. -/
theorem flushed0_eq (c : Dev nD) (t : Fin cfg0.N) :
    (dat0 (F := Ideal) V c).flushed 6 t = ((cfg0.win 6).blk t).view.read (Elt Ideal)
      (gates (V c main_arg0) (V c main_arg2) (V c main_arg4) (V c main_arg6) (V c main_v0) (V c main_v1)) := by
  show (cfg0.win 6).cut (grid0.coords t) ((dat0 V c).after 6 t) = _
  rw [after0_6]
  unfold out0_6
  rw [View.canon_unit_zero zeros2]
  simp only [View.ld_unit_zero (S := S1x4096) zeros2, View.ld_unit_zero (S := S1x2048) zeros2, View.ld_unit_zero (S := S512x4096) zeros2,
    View.ld_unit_zero (S := S512x2048) zeros2, View.ld_unit_zero (S := S1x512) zeros2]
  funext y
  obtain ⟨u, q, rfl⟩ : ∃ (u : Fin 1) (q : Fin 512), y = ix2 u q := ⟨y 0, y 1, eq_ix2 y⟩
  obtain rfl : u = 0 := Subsingleton.elim _ _
  show k0_pay1 (F := Ideal) (iblk0 V c 0 t) (iblk0 V c 1 t) (iblk0 V c 2 t) (iblk0 V c 4 t) (iblk0 V c 3 t) (iblk0 V c 5 t) (ix2 0 q)
    = gates (V c main_arg0) (V c main_arg2) (V c main_arg4) (V c main_arg6) (V c main_v0) (V c main_v1) (((cfg0.win 6).blk t).view.emb (ix2 0 q))
  rw [emb0_6]
  refine (pay0_apply _ _ _ _ _ _ q).trans ?_
  simp only [iblk0_0_apply, iblk0_1_apply, iblk0_2_apply, iblk0_3_apply, iblk0_4_apply, iblk0_5_apply]
  rfl

/-- An index of the output row is in point `t`'s block iff each coordinate is in the block's range on its axis. -/
theorem mem_blk0 (t : Fin cfg0.N) (i : S1x8192.Idx) :
    i ∈ ((cfg0.win 6).blk t).view.set ↔ ∀ a : Fin 2, win0_6.index t a * S1x512.size a ≤ (i a).val ∧ (i a).val < win0_6.index t a * S1x512.size a + S1x512.size a := by
  show i ∈ ((View.whole main_v4).slice (win0_6.rect t)).set ↔ _
  rw [View.set_slice_whole, Rect.mem_set_unit]
  exact Iff.rfl

/-- Every column of the output row is in the block of the point `column / 512`. -/
theorem cover0 (i : S1x8192.Idx) : ∃ t : Fin cfg0.N, (cfg0.win 6).flush t = true ∧ i ∈ ((cfg0.win 6).blk t).view.set := by
  have hi0 : (i 0).val < 1 := (i 0).isLt
  have hi1 : (i 1).val < 8192 := (i 1).isLt
  let t : Fin cfg0.N := ⟨(i 1).val / 512, by rw [show cfg0.N = 16 from N_0]; omega⟩
  obtain ⟨-, -, -, -, -, -, -, -, -, -, -, -, e0, e1⟩ := index_facts0 t
  have ht : t.val = (i 1).val / 512 := rfl
  refine ⟨t, flush0_6 t, ?_⟩
  rw [mem_blk0]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 512 ≤ (i 1).val ∧ (i 1).val < win0_6.index t (1 : Fin 2) * 512 + 512; omega

/-- THE ARRAY after region 0's sixteen points: the gate pre-activations of the region's input arrays. -/
theorem final0 (c : Dev nD) : (dat0 (F := Ideal) V c).arrAt 6 cfg0.N
    = gates (V c main_arg0) (V c main_arg2) (V c main_arg4) (V c main_arg6) (V c main_v0) (V c main_v1) :=
  (dat0 (F := Ideal) V c).arrAt_eq_of_cover 6 _ (fun t _ => flushed0_eq V c t) (cover0)

/-- The gate pre-activations at column `q`, written out. -/
theorem gates_apply (x : S1x4096.Idx → EReal) (hp : S1x2048.Idx → EReal) (wi : S8192x4096.Idx → EReal) (wh : S8192x2048.Idx → EReal)
    (bi bh : S1x8192.Idx → EReal) (q : Fin 8192) :
    gates x hp wi wh bi bh (ix2 0 q) = (∑ k : Fin 4096, x (ix2 0 k) * wi (ix2 q k)) + (∑ k : Fin 2048, hp (ix2 0 k) * wh (ix2 q k))
      + bi (ix2 0 q) + bh (ix2 0 q) := rfl

/-! ## Region 1 -/

/-- The second projection: column `q` is the input row against row `q` of the weight matrix, plus the two biases at `q`. -/
def proj (x : S1x4096.Idx → EReal) (w : S2048x4096.Idx → EReal) (b1 b2 : S1x2048.Idx → EReal) : S1x2048.Idx → EReal := fun j =>
  (∑ k : Fin 4096, x (ix2 0 k) * w (ix2 (j 1) k)) + b1 (ix2 0 (j 1)) + b2 (ix2 0 (j 1))

/-- The projection at column `q`, written out. -/
theorem proj_apply (x : S1x4096.Idx → EReal) (w : S2048x4096.Idx → EReal) (b1 b2 : S1x2048.Idx → EReal) (q : Fin 2048) :
    proj x w b1 b2 (ix2 0 q) = (∑ k : Fin 4096, x (ix2 0 k) * w (ix2 q k)) + b1 (ix2 0 q) + b2 (ix2 0 q) := rfl

/-- The printed index maps over the four points: the whole-row window stays at block 0, the weight window steps down
    the rows and the bias and output windows step along the columns, all with the point. -/
theorem index_facts1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val
    ∧ win1_4.index t (0 : Fin 2) = 0 ∧ win1_4.index t (1 : Fin 2) = t.val :=
  (by decide +kernel : ∀ t : Fin grid1.N, _)

/-- Column `q` of point `t`'s block is column `512 t + q` of the row of 2048. -/
def col1 (t : Fin cfg1.N) (q : Fin 512) : Fin 2048 :=
  ⟨t.val * 512 + q.val, by have h : t.val < 4 := N_1 ▸ t.isLt; have := q.isLt; omega⟩

/-- The whole input row, at every point. -/
theorem iblk1_0_apply (c : Dev nD) (t : Fin cfg1.N) (k : Fin 4096) :
    (iblk1 V c 0 t : Vec Ideal S1x4096 .f32) (ix2 0 k) = (V c main_arg0 : S1x4096.Idx → EReal) (ix2 0 k) := by
  obtain ⟨e0, e1, -⟩ := index_facts1 t
  show (V c main_arg0 : S1x4096.Idx → EReal) (((cfg1.win 0).blk t).view.emb (ix2 0 k)) = _
  refine congrArg _ (funext fun a => Fin.ext ?_)
  match a with
  | ⟨0, _⟩ => show win1_0.index t (0 : Fin 2) * 1 + 1 * 0 = 0; omega
  | ⟨1, _⟩ => show win1_0.index t (1 : Fin 2) * 4096 + 1 * k.val = k.val; omega

/-- Point `t`'s 512 rows of the weight matrix. -/
theorem iblk1_1_apply (c : Dev nD) (t : Fin cfg1.N) (q : Fin 512) (k : Fin 4096) :
    (iblk1 V c 1 t : Vec Ideal S512x4096 .f32) (ix2 q k) = (V c main_arg8 : S2048x4096.Idx → EReal) (ix2 (col1 t q) k) := by
  obtain ⟨-, -, e0, e1, -⟩ := index_facts1 t
  show (V c main_arg8 : S2048x4096.Idx → EReal) (((cfg1.win 1).blk t).view.emb (ix2 q k)) = _
  refine congrArg _ (funext fun a => Fin.ext ?_)
  match a with
  | ⟨0, _⟩ => show win1_1.index t (0 : Fin 2) * 512 + 1 * q.val = t.val * 512 + q.val; omega
  | ⟨1, _⟩ => show win1_1.index t (1 : Fin 2) * 4096 + 1 * k.val = k.val; omega

/-- Point `t`'s 512 columns of the first bias row. -/
theorem iblk1_2_apply (c : Dev nD) (t : Fin cfg1.N) (q : Fin 512) :
    (iblk1 V c 2 t : Vec Ideal S1x512 .f32) (ix2 0 q) = (V c main_v2 : S1x2048.Idx → EReal) (ix2 0 (col1 t q)) := by
  obtain ⟨-, -, -, -, e0, e1, -⟩ := index_facts1 t
  show (V c main_v2 : S1x2048.Idx → EReal) (((cfg1.win 2).blk t).view.emb (ix2 0 q)) = _
  refine congrArg _ (funext fun a => Fin.ext ?_)
  match a with
  | ⟨0, _⟩ => show win1_2.index t (0 : Fin 2) * 1 + 1 * 0 = 0; omega
  | ⟨1, _⟩ => show win1_2.index t (1 : Fin 2) * 512 + 1 * q.val = t.val * 512 + q.val; omega

/-- Point `t`'s 512 columns of the second bias row. -/
theorem iblk1_3_apply (c : Dev nD) (t : Fin cfg1.N) (q : Fin 512) :
    (iblk1 V c 3 t : Vec Ideal S1x512 .f32) (ix2 0 q) = (V c main_v3 : S1x2048.Idx → EReal) (ix2 0 (col1 t q)) := by
  obtain ⟨-, -, -, -, -, -, e0, e1, -⟩ := index_facts1 t
  show (V c main_v3 : S1x2048.Idx → EReal) (((cfg1.win 3).blk t).view.emb (ix2 0 q)) = _
  refine congrArg _ (funext fun a => Fin.ext ?_)
  match a with
  | ⟨0, _⟩ => show win1_3.index t (0 : Fin 2) * 1 + 1 * 0 = 0; omega
  | ⟨1, _⟩ => show win1_3.index t (1 : Fin 2) * 512 + 1 * q.val = t.val * 512 + q.val; omega

/-- Where point `t`'s output block sits in the output row. -/
theorem emb1_4 (t : Fin cfg1.N) (q : Fin 512) :
    (((cfg1.win 4).blk t).view.emb (ix2 0 q) : S1x2048.Idx) = ix2 0 (col1 t q) := by
  obtain ⟨-, -, -, -, -, -, -, -, e0, e1⟩ := index_facts1 t
  refine funext fun a => Fin.ext ?_
  match a with
  | ⟨0, _⟩ => show win1_4.index t (0 : Fin 2) * 1 + 1 * 0 = 0; omega
  | ⟨1, _⟩ => show win1_4.index t (1 : Fin 2) * 512 + 1 * q.val = t.val * 512 + q.val; omega

/-- What point `t` writes back is block `t` of the projection of the region's input arrays. -/
theorem flushed1_eq (c : Dev nD) (t : Fin cfg1.N) :
    (dat1 (F := Ideal) V c).flushed 4 t = ((cfg1.win 4).blk t).view.read (Elt Ideal)
      (proj (V c main_arg0) (V c main_arg8) (V c main_v2) (V c main_v3)) := by
  show (cfg1.win 4).cut (grid1.coords t) ((dat1 V c).after 4 t) = _
  rw [after1_4]
  unfold out1_4
  rw [View.canon_unit_zero zeros2]
  simp only [View.ld_unit_zero (S := S1x4096) zeros2, View.ld_unit_zero (S := S512x4096) zeros2, View.ld_unit_zero (S := S1x512) zeros2]
  funext y
  obtain ⟨u, q, rfl⟩ : ∃ (u : Fin 1) (q : Fin 512), y = ix2 u q := ⟨y 0, y 1, eq_ix2 y⟩
  obtain rfl : u = 0 := Subsingleton.elim _ _
  show k1_pay1 (F := Ideal) (iblk1 V c 0 t) (iblk1 V c 1 t) (iblk1 V c 2 t) (iblk1 V c 3 t) (ix2 0 q)
    = proj (V c main_arg0) (V c main_arg8) (V c main_v2) (V c main_v3) (((cfg1.win 4).blk t).view.emb (ix2 0 q))
  rw [emb1_4]
  refine (pay1_apply _ _ _ _ q).trans ?_
  simp only [iblk1_0_apply, iblk1_1_apply, iblk1_2_apply, iblk1_3_apply]
  rfl

/-- An index of the output row is in point `t`'s block iff each coordinate is in the block's range on its axis. -/
theorem mem_blk1 (t : Fin cfg1.N) (i : S1x2048.Idx) :
    i ∈ ((cfg1.win 4).blk t).view.set ↔ ∀ a : Fin 2, win1_4.index t a * S1x512.size a ≤ (i a).val ∧ (i a).val < win1_4.index t a * S1x512.size a + S1x512.size a := by
  show i ∈ ((View.whole main_v21).slice (win1_4.rect t)).set ↔ _
  rw [View.set_slice_whole, Rect.mem_set_unit]
  exact Iff.rfl

/-- Every column of the output row is in the block of the point `column / 512`. -/
theorem cover1 (i : S1x2048.Idx) : ∃ t : Fin cfg1.N, (cfg1.win 4).flush t = true ∧ i ∈ ((cfg1.win 4).blk t).view.set := by
  have hi0 : (i 0).val < 1 := (i 0).isLt
  have hi1 : (i 1).val < 2048 := (i 1).isLt
  let t : Fin cfg1.N := ⟨(i 1).val / 512, by rw [show cfg1.N = 4 from N_1]; omega⟩
  obtain ⟨-, -, -, -, -, -, -, -, e0, e1⟩ := index_facts1 t
  have ht : t.val = (i 1).val / 512 := rfl
  refine ⟨t, flush1_4 t, ?_⟩
  rw [mem_blk1]
  intro a
  match a with
  | ⟨0, _⟩ => show win1_4.index t (0 : Fin 2) * 1 ≤ (i 0).val ∧ (i 0).val < win1_4.index t (0 : Fin 2) * 1 + 1; omega
  | ⟨1, _⟩ => show win1_4.index t (1 : Fin 2) * 512 ≤ (i 1).val ∧ (i 1).val < win1_4.index t (1 : Fin 2) * 512 + 512; omega

/-- THE ARRAY after region 1's four points: the projection of the region's input arrays. -/
theorem final1 (c : Dev nD) : (dat1 (F := Ideal) V c).arrAt 4 cfg1.N
    = proj (V c main_arg0) (V c main_arg8) (V c main_v2) (V c main_v3) :=
  (dat1 (F := Ideal) V c).arrAt_eq_of_cover 4 _ (fun t _ => flushed1_eq V c t) cover1

end Cert.KernelIdeal.Hand

end
-- ==== Proof.MergeFns.lean ====
/-
  What the merge region leaves in its two outputs, as functions of the arrays it reads: per core a partial
  normaliser and a partial weighted sum over that core's half of the lexicon rows, accumulated tile by tile in the
  order the grid runs (core 0: the gate row, tile 0, tile 1; core 1: tile 2, tile 3), each tile's contribution a sum
  over its 1024 rows.
-/
import Idealize.ShloMosaic.PureOps.Ideal
import Idealize.ShloMosaic.Lib.ValueIdx

noncomputable section

open scoped BigOperators

namespace Cert.MergeFns

open Idealize.ShloMosaic Idealize.ShloMosaic.ValueIdx

abbrev Row : Type := (⟨2, ![1, 2048]⟩ : Shape).Idx → EReal

section
variable (bias ig gg : Row) (aw : (⟨2, ![2048, 2048]⟩ : Shape).Idx → EReal) (cin : (⟨2, ![4096, 2048]⟩ : Shape).Idx → EReal)

/-- Row r of tile t of the lexicon matrix. -/
def rowOf (t : Fin 4) (r : Fin 1024) : Fin 4096 := ⟨1024 * t.val + r.val, by have := t.isLt; have := r.isLt; omega⟩

/-- The weight e^{σ(bias + c·aW_hhᵀ)} of lexicon row (t, r) at hidden unit h. -/
def wgt (t : Fin 4) (r : Fin 1024) (h : Fin 2048) : EReal :=
  Ideal.exp (Ideal.logistic (bias (ix2 0 h) + ∑ k : Fin 2048, cin (ix2 (rowOf t r) k) * aw (ix2 h k)))

/-- Tile t's contribution to the normaliser and to the weighted sum of hidden unit h. -/
def tileE (t : Fin 4) (h : Fin 2048) : EReal := ∑ r : Fin 1024, wgt bias aw cin t r h
def tileW (t : Fin 4) (h : Fin 2048) : EReal := ∑ r : Fin 1024, wgt bias aw cin t r h * cin (ix2 (rowOf t r) h)

/-- The two outputs [2,1,2048]: core 0's block then core 1's. -/
def seOut : (⟨3, ![2, 1, 2048]⟩ : Shape).Idx → EReal := fun j =>
  if (j 0).val = 0 then ((0 + Ideal.exp (ig (ix2 0 (j 2)))) + tileE bias aw cin 0 (j 2)) + tileE bias aw cin 1 (j 2)
  else (0 + tileE bias aw cin 2 (j 2)) + tileE bias aw cin 3 (j 2)
def wcOut : (⟨3, ![2, 1, 2048]⟩ : Shape).Idx → EReal := fun j =>
  if (j 0).val = 0 then ((0 + Ideal.exp (ig (ix2 0 (j 2))) * gg (ix2 0 (j 2))) + tileW bias aw cin 0 (j 2)) + tileW bias aw cin 1 (j 2)
  else (0 + tileW bias aw cin 2 (j 2)) + tileW bias aw cin 3 (j 2)
end

end Cert.MergeFns

end
-- ==== Proof.Spec.lean ====
/-
  The function both programs compute, at the extended reals, index by index.

  Inputs: x (1×4096), c_input (4096×2048), h₀ (1×2048), W_ih (8192×4096), b_ih (8192), W_hh (8192×2048),
  b_hh (8192), aW_ih (2048×4096), ab_ih (2048), aW_hh (2048×2048), ab_hh (2048).

  * the gate pre-activations  gate j = Σ_k x₀ₖ·W_ih[j,k] + Σ_k h₀ₖ·W_hh[j,k] + b_ih[j] + b_hh[j]   (j < 8192);
  * i = σ(gate[0:2048]), o = σ(gate[4096:6144]), g = tanh(gate[6144:8192]), σ z = 1 / (1 + e^(−z));
  * α[r,h] = σ(Σ_k x₀ₖ·aW_ih[h,k] + ab_ih[h] + ab_hh[h] + Σ_k c[r,k]·aW_hh[h,k])   (r < 4096, h < 2048);
  * the exp-normalised merge over the 4097 candidates of a hidden unit h (the gate row and the 4096 lexicon rows):
      c₁[h] = (e^{i[h]}·g[h] + Σ_r e^{α[r,h]}·c[r,h]) / (e^{i[h]} + Σ_r e^{α[r,h]}),   h₁[h] = o[h]·tanh(c₁[h]).
  This is the form with ONE quotient per hidden unit; the form that divides every weight first is equal to it
  whenever the lexicon entries are finite (every weight e^{σ(·)} is a real in [1, e], whatever σ's argument).
-/
import Idealize.ShloMosaic.PureOps.Ideal
import Idealize.ShloMosaic.Lib.ValueIdx

noncomputable section

open scoped BigOperators

namespace Cert.Spec

open Idealize.ShloMosaic Idealize.ShloMosaic.ValueIdx

/-- A matrix / a vector of extended reals over literal extents. -/
abbrev Mat (a b : Nat) : Type := (⟨2, ![a, b]⟩ : Shape).Idx → EReal
abbrev Vect (a : Nat) : Type := (⟨1, ![a]⟩ : Shape).Idx → EReal

/-- The logistic function spelt by its quotient. -/
def sig (z : EReal) : EReal := Ideal.div 1 (1 + Ideal.exp (-z))

theorem sig_eq_logistic (z : EReal) : sig z = Ideal.logistic z := rfl

section
variable (x : Mat 1 4096) (cin : Mat 4096 2048) (h0 : Mat 1 2048) (Wih : Mat 8192 4096) (bih : Vect 8192)
  (Whh : Mat 8192 2048) (bhh : Vect 8192) (aWih : Mat 2048 4096) (abih : Vect 2048) (aWhh : Mat 2048 2048) (abhh : Vect 2048)

/-- Row j of x·W_ihᵀ. -/
def xW (j : Fin 8192) : EReal := ∑ k : Fin 4096, x (ix2 0 k) * Wih (ix2 j k)
/-- Row j of h₀·W_hhᵀ. -/
def hW (j : Fin 8192) : EReal := ∑ k : Fin 2048, h0 (ix2 0 k) * Whh (ix2 j k)
/-- The gate pre-activation j: the two products first, then the two biases. -/
def gate (j : Fin 8192) : EReal := xW x Wih j + hW h0 Whh j + bih (ix1 j) + bhh (ix1 j)

/-- The input gate, the output gate and the candidate of hidden unit h. -/
def iG (h : Fin 2048) : EReal := sig (gate x h0 Wih bih Whh bhh ⟨h.val, by omega⟩)
def oG (h : Fin 2048) : EReal := sig (gate x h0 Wih bih Whh bhh ⟨4096 + h.val, by omega⟩)
def gG (h : Fin 2048) : EReal := Ideal.tanh (gate x h0 Wih bih Whh bhh ⟨6144 + h.val, by omega⟩)

/-- The part of α's argument that does not depend on the lexicon row. -/
def bias (h : Fin 2048) : EReal := (∑ k : Fin 4096, x (ix2 0 k) * aWih (ix2 h k)) + abih (ix1 h) + abhh (ix1 h)
/-- Row r of c·aW_hhᵀ at hidden unit h. -/
def cA (r : Fin 4096) (h : Fin 2048) : EReal := ∑ k : Fin 2048, cin (ix2 r k) * aWhh (ix2 h k)
/-- The lexicon gate. -/
def alpha (r : Fin 4096) (h : Fin 2048) : EReal := sig (bias x aWih abih abhh h + cA cin aWhh r h)

/-- The normaliser and the weighted sum of hidden unit h over the 4097 candidates. -/
def sumExp (h : Fin 2048) : EReal :=
  Ideal.exp (iG x h0 Wih bih Whh bhh h) + ∑ r : Fin 4096, Ideal.exp (alpha x cin aWih abih aWhh abhh r h)
def sumW (h : Fin 2048) : EReal :=
  Ideal.exp (iG x h0 Wih bih Whh bhh h) * gG x h0 Wih bih Whh bhh h
    + ∑ r : Fin 4096, Ideal.exp (alpha x cin aWih abih aWhh abhh r h) * cin (ix2 r h)

/-- The new cell state and the new hidden state. -/
def c1 (h : Fin 2048) : EReal :=
  Ideal.div (sumW x cin h0 Wih bih Whh bhh aWih abih aWhh abhh h) (sumExp x cin h0 Wih bih Whh bhh aWih abih aWhh abhh h)
def h1 (h : Fin 2048) : EReal :=
  oG x h0 Wih bih Whh bhh h * Ideal.tanh (c1 x cin h0 Wih bih Whh bhh aWih abih aWhh abhh h)

/-- The two results as 1×2048 arrays. -/
def c1Arr : Mat 1 2048 := fun j => c1 x cin h0 Wih bih Whh bhh aWih abih aWhh abhh (j 1)
def h1Arr : Mat 1 2048 := fun j => h1 x cin h0 Wih bih Whh bhh aWih abih aWhh abhh (j 1)

end

end Cert.Spec

end
-- ==== Proof.MergeLaw.lean ====
/-
  The algebra joining the two spellings of the exp-normalised merge.

  One form divides every weight by the normaliser first and then sums the weighted candidates,
      Σ_k m_k · (e_k / S),   S = Σ_k e_k;
  the other sums first and divides once,  (Σ_k e_k · m_k) / (Σ_k e_k).
  Over the extended reals the two agree when every weight e_k is a positive real and every candidate m_k is a
  real: then S is a positive real, each quotient is a product with 1/S, and the identity is the distributive
  law in ℝ.  Every weight here is e^{σ(z)} with σ the logistic function, whose values are reals in [0, 1] at
  every extended real argument, so the weights are positive reals whatever the inputs; a hyperbolic tangent is
  a real in [-1, 1] at every extended real argument.

  Two regroupings of four-term sums need no finiteness: addition of extended reals is commutative and
  associative.
-/
import proofs.«115356_j45689862095431_2_alg».proof.Proof.Spec

noncomputable section

open scoped BigOperators

namespace Cert.Spec

open Idealize.ShloMosaic

/-- The inclusion of the reals commutes with finite sums. -/
theorem coe_finsum {ι : Type} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- An extended real that is neither infinity is a real. -/
theorem exists_real_of_finite {x : EReal} (h : x ≠ ⊤ ∧ x ≠ ⊥) : ∃ b : ℝ, x = (b : EReal) :=
  ⟨x.toReal, (EReal.coe_toReal h.1 h.2).symm⟩

/-- The hyperbolic tangent is a real at every extended real. -/
theorem tanh_real (z : EReal) : ∃ b : ℝ, Ideal.tanh z = (b : EReal) := by
  induction z using EReal.rec with
  | bot => exact ⟨-1, by simp⟩
  | coe r => exact ⟨Real.tanh r, rfl⟩
  | top => exact ⟨1, by simp⟩

/-- The logistic function is a real at every extended real. -/
theorem sig_real (z : EReal) : ∃ b : ℝ, sig z = (b : EReal) := by
  rw [sig_eq_logistic]
  induction z using EReal.rec with
  | bot => exact ⟨0, by simp⟩
  | coe r => exact ⟨(1 + Real.exp (-r))⁻¹, Ideal.logistic_coe r⟩
  | top => exact ⟨1, by simp⟩

/-- A weight e^{σ(z)} is a positive real at every extended real z. -/
theorem exp_sig_pos (z : EReal) : ∃ a : ℝ, 0 < a ∧ Ideal.exp (sig z) = (a : EReal) := by
  obtain ⟨b, hb⟩ := sig_real z
  exact ⟨Real.exp b, Real.exp_pos b, by rw [hb]; rfl⟩

/-- Divide-then-sum equals sum-then-divide, for positive real weights and real candidates. The left side is
    spelt as a host reduction spells it: an initial zero, then the first row, then the others. -/
theorem merge_law {n : Nat} (e₀ m₀ : EReal) (e m : Fin n → EReal)
    (he₀ : ∃ a : ℝ, 0 < a ∧ e₀ = (a : EReal)) (hm₀ : ∃ b : ℝ, m₀ = (b : EReal))
    (he : ∀ r, ∃ a : ℝ, 0 < a ∧ e r = (a : EReal)) (hm : ∀ r, ∃ b : ℝ, m r = (b : EReal)) :
    (0 : EReal) + (m₀ * Ideal.div e₀ (0 + (e₀ + ∑ r, e r))
        + ∑ r, m r * Ideal.div (e r) (0 + (e₀ + ∑ r, e r)))
      = Ideal.div (e₀ * m₀ + ∑ r, e r * m r) (e₀ + ∑ r, e r) := by
  obtain ⟨a, ha, rfl⟩ := he₀
  obtain ⟨b, rfl⟩ := hm₀
  choose f hf hfe using he
  choose g hg using hm
  obtain rfl : e = fun r => (f r : EReal) := funext hfe
  obtain rfl : m = fun r => (g r : EReal) := funext hg
  have hT : 0 < a + ∑ r, f r :=
    add_pos_of_pos_of_nonneg ha (Finset.sum_nonneg fun r _ => (hf r).le)
  have hS : (a : EReal) + ∑ r, (f r : EReal) = ((a + ∑ r, f r : ℝ) : EReal) := by
    rw [EReal.coe_add, coe_finsum]
  simp only [zero_add]
  rw [hS]
  simp only [Ideal.div_coe hT.ne']
  simp only [← EReal.coe_mul, ← coe_finsum, ← EReal.coe_add]
  congr 1
  rw [add_mul, Finset.sum_mul]
  congr 1
  · ring
  · exact Finset.sum_congr rfl fun r _ => by ring

/-- The gate pre-activation: products first and biases last, from the order that adds each bias after its product. -/
theorem gate_regroup (a b c d : EReal) : a + b + c + d = a + c + b + d := by
  rw [add_right_comm a b c]

/-- The lexicon gate's argument: the row-independent part first. -/
theorem alpha_regroup (a b c d : EReal) : a + b + c + d = a + b + d + c :=
  add_right_comm (a + b) c d

end Cert.Spec

end
-- ==== Proof.KI.KernelChain.lean ====
/-
  The kernel program's two results as one chain of pure functions of its argument arrays, and that chain read index
  by index: it is the specification.

  Between its three regions the program runs host operations: the four bias vectors are re-laid as rows; the gate
  pre-activations are sliced and passed through the logistic function (spelt 1 / (1 + e^{-z})) and the hyperbolic
  tangent; the recurrent lexicon-gate weights change format (the identity on the extended reals); and after the merge
  region the two cores' partial normalisers and partial weighted sums are added and divided. The merge region sums
  the 4096 lexicon rows as four tiles of 1024, two per core, the first core's sums starting from the gate row's own
  term: regrouped (addition of extended reals is commutative and associative, and zero is neutral) these are the
  specification's sums over all 4096 rows, so no finiteness is needed.
-/
import proofs.«115356_j45689862095431_2_alg».proof.KernelIdeal
import proofs.«115356_j45689862095431_2_alg».proof.Proof.KI.Value01
import proofs.«115356_j45689862095431_2_alg».proof.Proof.MergeFns
import proofs.«115356_j45689862095431_2_alg».proof.Proof.Spec
import proofs.«115356_j45689862095431_2_alg».proof.Proof.MergeLaw
import Idealize.ShloMosaic.Lib.IdealHost
import Idealize.ShloMosaic.Lib.ValueLayout
import Idealize.ShloMosaic.Lib.Pipeline.Value

noncomputable section

open scoped BigOperators

namespace Cert.KernelIdeal.Hand

open Cert.KernelIdeal Idealize.ShloMosaic Idealize.ShloMosaic.ValueIdx

variable [Facts]
open Facts₀ Facts

/-! ## The host operations' functions, composed -/

/-- A bias vector of 8192 re-laid as a row. -/
def rowB8192 (b : FVec Ideal S8192 .f32) : FVec Ideal S1x8192 .f32 := shapeCast S1x8192 b shapeCasts_S8192_S1x8192
/-- A bias vector of 2048 re-laid as a row. -/
def rowB2048 (b : FVec Ideal S2048 .f32) : FVec Ideal S1x2048 .f32 := shapeCast S1x2048 b shapeCasts_S2048_S1x2048

/-- The input gate from the pre-activation row: the logistic function of its first 2048 columns. -/
def hostI (L : FVec Ideal S1x8192 .f32) : FVec Ideal S1x2048 .f32 :=
  Host.divf (F := Ideal) (broadcastInDim S1x2048 ![] bcast_S_S1x2048 (constant (F := Ideal) S_ .f32 0x3F800000#32))
    (addf (broadcastInDim S1x2048 ![] bcast_S_S1x2048 (constant (F := Ideal) S_ .f32 0x3F800000#32))
      (Host.exp (F := Ideal) (Host.negf (F := Ideal) (extractStridedSlice S1x2048 ![0, 0] L slices_S1x8192_S1x2048_0_0))))
/-- The output gate: the logistic function of columns 4096 … 6143. -/
def hostO (L : FVec Ideal S1x8192 .f32) : FVec Ideal S1x2048 .f32 :=
  Host.divf (F := Ideal) (broadcastInDim S1x2048 ![] bcast_S_S1x2048 (constant (F := Ideal) S_ .f32 0x3F800000#32))
    (addf (broadcastInDim S1x2048 ![] bcast_S_S1x2048 (constant (F := Ideal) S_ .f32 0x3F800000#32))
      (Host.exp (F := Ideal) (Host.negf (F := Ideal) (extractStridedSlice S1x2048 ![0, 4096] L slices_S1x8192_S1x2048_0_4096))))
/-- The candidate: the hyperbolic tangent of columns 6144 … 8191. -/
def hostG (L : FVec Ideal S1x8192 .f32) : FVec Ideal S1x2048 .f32 :=
  Host.tanh (F := Ideal) (extractStridedSlice S1x2048 ![0, 6144] L slices_S1x8192_S1x2048_0_6144)
/-- The recurrent lexicon-gate weights in the narrower format. -/
def hostAw (a10 : FVec Ideal S2048x2048 .f32) : FVec Ideal S2048x2048 .bf16 := truncf .bf16 a10 bitsLt_bf16_f32

/-- The new cell state from the two cores' partial normalisers `se` and partial weighted sums `wc`. -/
def tailC1 (se wc : FVec Ideal S2x1x2048 .f32) : FVec Ideal S1x2048 .f32 :=
  Host.divf (F := Ideal)
    (addf (shapeCast S1x2048 (extractStridedSlice S1x1x2048 ![0, 0, 0] wc slices_S2x1x2048_S1x1x2048_0_0_0) shapeCasts_S1x1x2048_S1x2048)
      (shapeCast S1x2048 (extractStridedSlice S1x1x2048 ![1, 0, 0] wc slices_S2x1x2048_S1x1x2048_1_0_0) shapeCasts_S1x1x2048_S1x2048))
    (addf (shapeCast S1x2048 (extractStridedSlice S1x1x2048 ![0, 0, 0] se slices_S2x1x2048_S1x1x2048_0_0_0) shapeCasts_S1x1x2048_S1x2048)
      (shapeCast S1x2048 (extractStridedSlice S1x1x2048 ![1, 0, 0] se slices_S2x1x2048_S1x1x2048_1_0_0) shapeCasts_S1x1x2048_S1x2048))
/-- The new hidden state from the output gate and the new cell state. -/
def tailH1 (o c1 : FVec Ideal S1x2048 .f32) : FVec Ideal S1x2048 .f32 := mulf o (Host.tanh (F := Ideal) c1)

/-! ## Reading the host operations at an index -/

theorem rowB8192_apply (b : FVec Ideal S8192 .f32) (q : Fin 8192) : rowB8192 b (ix2 (0 : Fin 1) q) = b (ix1 q) :=
  shapeCast_a_1a_apply b shapeCasts_S8192_S1x8192 0 q
theorem rowB2048_apply (b : FVec Ideal S2048 .f32) (q : Fin 2048) : rowB2048 b (ix2 (0 : Fin 1) q) = b (ix1 q) :=
  shapeCast_a_1a_apply b shapeCasts_S2048_S1x2048 0 q

/-- The constant one, broadcast. -/
theorem one_apply (j : S1x2048.Idx) : (broadcastInDim S1x2048 ![] bcast_S_S1x2048 (constant (F := Ideal) S_ .f32 0x3F800000#32)) j = (1 : EReal) :=
  (broadcastInDim_scalar_apply bcast_S_S1x2048 _ j).trans Ideal.ofBits_one_f32

theorem slice0_apply (L : FVec Ideal S1x8192 .f32) (h : Fin 2048) :
    extractStridedSlice S1x2048 ![0, 0] L slices_S1x8192_S1x2048_0_0 (ix2 (0 : Fin 1) h)
      = L (ix2 (0 : Fin 1) (⟨h.val, by omega⟩ : Fin 8192)) :=
  extractStridedSlice_apply _ L _ _ _ (fun a => by
    match a with
    | ⟨0, _⟩ => rfl
    | ⟨1, _⟩ => exact (Nat.zero_add _).symm)
theorem slice4096_apply (L : FVec Ideal S1x8192 .f32) (h : Fin 2048) :
    extractStridedSlice S1x2048 ![0, 4096] L slices_S1x8192_S1x2048_0_4096 (ix2 (0 : Fin 1) h)
      = L (ix2 (0 : Fin 1) (⟨4096 + h.val, by omega⟩ : Fin 8192)) :=
  extractStridedSlice_apply _ L _ _ _ (fun a => by
    match a with
    | ⟨0, _⟩ => rfl
    | ⟨1, _⟩ => rfl)
theorem slice6144_apply (L : FVec Ideal S1x8192 .f32) (h : Fin 2048) :
    extractStridedSlice S1x2048 ![0, 6144] L slices_S1x8192_S1x2048_0_6144 (ix2 (0 : Fin 1) h)
      = L (ix2 (0 : Fin 1) (⟨6144 + h.val, by omega⟩ : Fin 8192)) :=
  extractStridedSlice_apply _ L _ _ _ (fun a => by
    match a with
    | ⟨0, _⟩ => rfl
    | ⟨1, _⟩ => rfl)

theorem hostI_apply (L : FVec Ideal S1x8192 .f32) (h : Fin 2048) :
    hostI L (ix2 (0 : Fin 1) h) = Cert.Spec.sig (L (ix2 (0 : Fin 1) (⟨h.val, by omega⟩ : Fin 8192))) := by
  show Ideal.div ((broadcastInDim S1x2048 ![] bcast_S_S1x2048 (constant (F := Ideal) S_ .f32 0x3F800000#32)) _) ((broadcastInDim S1x2048 ![] bcast_S_S1x2048 (constant (F := Ideal) S_ .f32 0x3F800000#32)) _ + Ideal.exp (-(extractStridedSlice S1x2048 ![0, 0] L slices_S1x8192_S1x2048_0_0 _))) = _
  rw [one_apply, slice0_apply]
  rfl
theorem hostO_apply (L : FVec Ideal S1x8192 .f32) (h : Fin 2048) :
    hostO L (ix2 (0 : Fin 1) h) = Cert.Spec.sig (L (ix2 (0 : Fin 1) (⟨4096 + h.val, by omega⟩ : Fin 8192))) := by
  show Ideal.div ((broadcastInDim S1x2048 ![] bcast_S_S1x2048 (constant (F := Ideal) S_ .f32 0x3F800000#32)) _) ((broadcastInDim S1x2048 ![] bcast_S_S1x2048 (constant (F := Ideal) S_ .f32 0x3F800000#32)) _ + Ideal.exp (-(extractStridedSlice S1x2048 ![0, 4096] L slices_S1x8192_S1x2048_0_4096 _))) = _
  rw [one_apply, slice4096_apply]
  rfl
theorem hostG_apply (L : FVec Ideal S1x8192 .f32) (h : Fin 2048) :
    hostG L (ix2 (0 : Fin 1) h) = Ideal.tanh (L (ix2 (0 : Fin 1) (⟨6144 + h.val, by omega⟩ : Fin 8192))) := by
  show Ideal.tanh (extractStridedSlice S1x2048 ![0, 6144] L slices_S1x8192_S1x2048_0_6144 _) = _
  rw [slice6144_apply]

theorem piece0_apply (X : FVec Ideal S2x1x2048 .f32) (h : Fin 2048) :
    (shapeCast S1x2048 (extractStridedSlice S1x1x2048 ![0, 0, 0] X slices_S2x1x2048_S1x1x2048_0_0_0) shapeCasts_S1x1x2048_S1x2048) (ix2 (0 : Fin 1) h) = X (ix3 (0 : Fin 2) (0 : Fin 1) h) :=
  (shapeCast_1ab_ab_apply _ shapeCasts_S1x1x2048_S1x2048 (0 : Fin 1) h).trans
    (extractStridedSlice_apply _ X _ _ _ (fun a => by
      match a with
      | ⟨0, _⟩ => rfl
      | ⟨1, _⟩ => rfl
      | ⟨2, _⟩ => exact (Nat.zero_add _).symm))
theorem piece1_apply (X : FVec Ideal S2x1x2048 .f32) (h : Fin 2048) :
    (shapeCast S1x2048 (extractStridedSlice S1x1x2048 ![1, 0, 0] X slices_S2x1x2048_S1x1x2048_1_0_0) shapeCasts_S1x1x2048_S1x2048) (ix2 (0 : Fin 1) h) = X (ix3 (1 : Fin 2) (0 : Fin 1) h) :=
  (shapeCast_1ab_ab_apply _ shapeCasts_S1x1x2048_S1x2048 (0 : Fin 1) h).trans
    (extractStridedSlice_apply _ X _ _ _ (fun a => by
      match a with
      | ⟨0, _⟩ => rfl
      | ⟨1, _⟩ => rfl
      | ⟨2, _⟩ => exact (Nat.zero_add _).symm))

theorem tailC1_apply (se wc : FVec Ideal S2x1x2048 .f32) (h : Fin 2048) :
    tailC1 se wc (ix2 (0 : Fin 1) h)
      = Ideal.div (wc (ix3 (0 : Fin 2) (0 : Fin 1) h) + wc (ix3 (1 : Fin 2) (0 : Fin 1) h))
          (se (ix3 (0 : Fin 2) (0 : Fin 1) h) + se (ix3 (1 : Fin 2) (0 : Fin 1) h)) := by
  show Ideal.div ((shapeCast S1x2048 (extractStridedSlice S1x1x2048 ![0, 0, 0] wc slices_S2x1x2048_S1x1x2048_0_0_0) shapeCasts_S1x1x2048_S1x2048) _ + (shapeCast S1x2048 (extractStridedSlice S1x1x2048 ![1, 0, 0] wc slices_S2x1x2048_S1x1x2048_1_0_0) shapeCasts_S1x1x2048_S1x2048) _) ((shapeCast S1x2048 (extractStridedSlice S1x1x2048 ![0, 0, 0] se slices_S2x1x2048_S1x1x2048_0_0_0) shapeCasts_S1x1x2048_S1x2048) _ + (shapeCast S1x2048 (extractStridedSlice S1x1x2048 ![1, 0, 0] se slices_S2x1x2048_S1x1x2048_1_0_0) shapeCasts_S1x1x2048_S1x2048) _) = _
  rw [piece0_apply, piece1_apply, piece0_apply, piece1_apply]

/-! ## The merge region's outputs at core 0 and at core 1 -/

section Outs
variable (bias ig gg : MergeFns.Row) (aw : (⟨2, ![2048, 2048]⟩ : Shape).Idx → EReal)
  (cin : (⟨2, ![4096, 2048]⟩ : Shape).Idx → EReal)

theorem seOut_zero (h : Fin 2048) : MergeFns.seOut bias ig aw cin (ix3 (0 : Fin 2) (0 : Fin 1) h)
    = ((0 + Ideal.exp (ig (ix2 0 h))) + MergeFns.tileE bias aw cin 0 h) + MergeFns.tileE bias aw cin 1 h := if_pos rfl
theorem seOut_one (h : Fin 2048) : MergeFns.seOut bias ig aw cin (ix3 (1 : Fin 2) (0 : Fin 1) h)
    = (0 + MergeFns.tileE bias aw cin 2 h) + MergeFns.tileE bias aw cin 3 h := if_neg Nat.one_ne_zero
theorem wcOut_zero (h : Fin 2048) : MergeFns.wcOut bias ig gg aw cin (ix3 (0 : Fin 2) (0 : Fin 1) h)
    = ((0 + Ideal.exp (ig (ix2 0 h)) * gg (ix2 0 h)) + MergeFns.tileW bias aw cin 0 h) + MergeFns.tileW bias aw cin 1 h :=
  if_pos rfl
theorem wcOut_one (h : Fin 2048) : MergeFns.wcOut bias ig gg aw cin (ix3 (1 : Fin 2) (0 : Fin 1) h)
    = (0 + MergeFns.tileW bias aw cin 2 h) + MergeFns.tileW bias aw cin 3 h := if_neg Nat.one_ne_zero
end Outs

/-! ## Four tiles of 1024 rows are the 4096 rows -/

/-- Tile t, row r ↦ lexicon row 1024 t + r: a bijection onto the 4096 rows. -/
def tileEquiv : Fin 4 × Fin 1024 ≃ Fin 4096 where
  toFun p := MergeFns.rowOf p.1 p.2
  invFun r := (⟨r.val / 1024, by have := r.isLt; omega⟩, ⟨r.val % 1024, by omega⟩)
  left_inv := fun ⟨t, r⟩ => Prod.ext
    (Fin.ext (by show (1024 * t.val + r.val) / 1024 = t.val; have := r.isLt; omega))
    (Fin.ext (by show (1024 * t.val + r.val) % 1024 = r.val; have := r.isLt; omega))
  right_inv := fun r => Fin.ext (by show 1024 * (r.val / 1024) + r.val % 1024 = r.val; omega)

/-- A sum over the 4096 lexicon rows is the sum of the four tiles' sums. -/
theorem sum_tiles (f : Fin 4096 → EReal) :
    ∑ r : Fin 4096, f r = (∑ r : Fin 1024, f (MergeFns.rowOf 0 r)) + (∑ r : Fin 1024, f (MergeFns.rowOf 1 r))
      + (∑ r : Fin 1024, f (MergeFns.rowOf 2 r)) + (∑ r : Fin 1024, f (MergeFns.rowOf 3 r)) := by
  rw [← Equiv.sum_comp tileEquiv f, Fintype.sum_prod_type, Fin.sum_univ_four]
  rfl

/-! ## The chain is the specification -/

section Chain
variable (a0 : FVec Ideal S1x4096 .f32) (a1 : FVec Ideal S4096x2048 .f32) (a2 : FVec Ideal S1x2048 .f32)
  (a4 : FVec Ideal S8192x4096 .f32) (a5 : FVec Ideal S8192 .f32) (a6 : FVec Ideal S8192x2048 .f32)
  (a7 : FVec Ideal S8192 .f32) (a8 : FVec Ideal S2048x4096 .f32) (a9 : FVec Ideal S2048 .f32)
  (a10 : FVec Ideal S2048x2048 .f32) (a11 : FVec Ideal S2048 .f32)

/-- The first region's output row at column q is the specification's gate q. -/
theorem preact_apply (q : Fin 8192) :
    (gates a0 a2 a4 a6 (rowB8192 a5) (rowB8192 a7)) (ix2 (0 : Fin 1) q) = Cert.Spec.gate a0 a2 a4 a5 a6 a7 q := by
  rw [gates_apply, rowB8192_apply, rowB8192_apply]
  rfl

/-- The second region's output row at column h is the row-independent part of α's argument. -/
theorem bias_apply (h : Fin 2048) :
    (proj a0 a8 (rowB2048 a9) (rowB2048 a11)) (ix2 (0 : Fin 1) h) = Cert.Spec.bias a0 a8 a9 a11 h := by
  rw [proj_apply, rowB2048_apply, rowB2048_apply]
  rfl

theorem iG_chain (h : Fin 2048) : hostI (gates a0 a2 a4 a6 (rowB8192 a5) (rowB8192 a7)) (ix2 (0 : Fin 1) h) = Cert.Spec.iG a0 a2 a4 a5 a6 a7 h := by
  rw [hostI_apply, preact_apply]; rfl
theorem oG_chain (h : Fin 2048) : hostO (gates a0 a2 a4 a6 (rowB8192 a5) (rowB8192 a7)) (ix2 (0 : Fin 1) h) = Cert.Spec.oG a0 a2 a4 a5 a6 a7 h := by
  rw [hostO_apply, preact_apply]; rfl
theorem gG_chain (h : Fin 2048) : hostG (gates a0 a2 a4 a6 (rowB8192 a5) (rowB8192 a7)) (ix2 (0 : Fin 1) h) = Cert.Spec.gG a0 a2 a4 a5 a6 a7 h := by
  rw [hostG_apply, preact_apply]; rfl

/-- A weight of the merge region is the specification's e^{α}. -/
theorem wgt_chain (t : Fin 4) (r : Fin 1024) (h : Fin 2048) :
    MergeFns.wgt (proj a0 a8 (rowB2048 a9) (rowB2048 a11)) (hostAw a10) a1 t r h = Ideal.exp (Cert.Spec.alpha a0 a1 a8 a9 a10 a11 (MergeFns.rowOf t r) h) := by
  unfold MergeFns.wgt
  rw [bias_apply]
  rfl

/-- The kernel program's second result is the specification's new cell state. -/
theorem kernel_c1 :
    tailC1 (MergeFns.seOut (proj a0 a8 (rowB2048 a9) (rowB2048 a11)) (hostI (gates a0 a2 a4 a6 (rowB8192 a5) (rowB8192 a7))) (hostAw a10) a1)
        (MergeFns.wcOut (proj a0 a8 (rowB2048 a9) (rowB2048 a11)) (hostI (gates a0 a2 a4 a6 (rowB8192 a5) (rowB8192 a7))) (hostG (gates a0 a2 a4 a6 (rowB8192 a5) (rowB8192 a7))) (hostAw a10) a1)
      = Cert.Spec.c1Arr a0 a1 a2 a4 a5 a6 a7 a8 a9 a10 a11 := by
  funext j
  obtain ⟨p, h, rfl⟩ : ∃ (p : Fin 1) (h : Fin 2048), j = ix2 p h := ⟨j 0, j 1, eq_ix2 j⟩
  obtain rfl : p = 0 := Subsingleton.elim _ _
  rw [tailC1_apply, seOut_zero, seOut_one, wcOut_zero, wcOut_one]
  simp only [MergeFns.tileE, MergeFns.tileW, wgt_chain, iG_chain, gG_chain]
  show _ = Cert.Spec.c1 a0 a1 a2 a4 a5 a6 a7 a8 a9 a10 a11 h
  unfold Cert.Spec.c1 Cert.Spec.sumW Cert.Spec.sumExp
  rw [sum_tiles (fun r => Ideal.exp (Cert.Spec.alpha a0 a1 a8 a9 a10 a11 r h)),
    sum_tiles (fun r => Ideal.exp (Cert.Spec.alpha a0 a1 a8 a9 a10 a11 r h) * a1 (ix2 r h))]
  simp only [zero_add, add_assoc]

/-- The kernel program's first result is the specification's new hidden state. -/
theorem kernel_h1 :
    tailH1 (hostO (gates a0 a2 a4 a6 (rowB8192 a5) (rowB8192 a7)))
        (tailC1 (MergeFns.seOut (proj a0 a8 (rowB2048 a9) (rowB2048 a11)) (hostI (gates a0 a2 a4 a6 (rowB8192 a5) (rowB8192 a7))) (hostAw a10) a1)
          (MergeFns.wcOut (proj a0 a8 (rowB2048 a9) (rowB2048 a11)) (hostI (gates a0 a2 a4 a6 (rowB8192 a5) (rowB8192 a7))) (hostG (gates a0 a2 a4 a6 (rowB8192 a5) (rowB8192 a7))) (hostAw a10) a1))
      = Cert.Spec.h1Arr a0 a1 a2 a4 a5 a6 a7 a8 a9 a10 a11 := by
  rw [kernel_c1]
  funext j
  obtain ⟨p, h, rfl⟩ : ∃ (p : Fin 1) (h : Fin 2048), j = ix2 p h := ⟨j 0, j 1, eq_ix2 j⟩
  obtain rfl : p = 0 := Subsingleton.elim _ _
  show hostO (gates a0 a2 a4 a6 (rowB8192 a5) (rowB8192 a7)) (ix2 (0 : Fin 1) h) * Ideal.tanh (Cert.Spec.c1Arr a0 a1 a2 a4 a5 a6 a7 a8 a9 a10 a11 (ix2 (0 : Fin 1) h)) = _
  rw [oG_chain]
  rfl

end Chain

end Cert.KernelIdeal.Hand

end
-- ==== Proof.KI.R2Pieces.lean ====
import proofs.«115356_j45689862095431_2_alg».proof.Proof.KI.Region2
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A whole-buffer load of what a LAST whole-buffer store left reads that store's payload, whatever was stored before. -/
theorem readCov_cons_unit_zero {S : Shape} {e : EltTy} {sg : RefSig} {κ : Kind} {sp : Space}
    (v : View sg κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-! ## What each case leaves, in the body's own terms

x0 = the bias row, x1 = the input-gate row, x2 = the candidate row, x3 = the weight matrix, x4 = the tile; the
normaliser row takes `k2_pay10` (its old value plus the tile's column sums of the weights) and the weighted-sum row
`k2_pay11` (its old value plus the tile's column sums of weight × entry); at a core's first tile the old values are
the zero rows, at core 0's first tile the zero rows plus the gate row's terms. -/

theorem sout2_A_0_eq (c : Dev nD) (t : Fin cfg2.N) (h0 : cond2_0 (grid2.coords t)) (h1 : cond2_1 (grid2.coords t)) (h2 : ¬cond2_2 (grid2.coords t)) :
    sout2_A_0 V c t h0 h1 h2 = k2_pay10 (iblk2 V c 4 t) (iblk2 V c 3 t) (iblk2 V c 0 t) (k2_pay7 (iblk2 V c 1 t) (k2_pay4 (F := F))) := by
  unfold sout2_A_0
  rw [View.read_writes_eq_canon _ _ _ (scover2_A_0 V c t h0 h1 h2)]
  unfold runA kernelRun2_A
  dsimp only
  sl_unfold_words
  rw [View.canon_cons_unit_zero (S := S1x2048) hz2]
  simp only [View.readAt_eq_ld, (hs2_0 t).read_unread, (hs2_1 t).read_unread, (hs2_2 t).read_unread, (hs2_3 t).read_unread, (hs2_4 t).read_unread, View.ld_unit_zero (S := S1x2048) hz2, View.ld_unit_zero (S := S2048x2048) hz2, View.ld_unit_zero (S := S1024x2048) hz2, readCov_cons_unit_zero (S := S1x2048) _ hz2, View.readCov_unit_zero (S := S1x2048) _ hz2]

theorem sout2_A_1_eq (c : Dev nD) (t : Fin cfg2.N) (h0 : cond2_0 (grid2.coords t)) (h1 : cond2_1 (grid2.coords t)) (h2 : ¬cond2_2 (grid2.coords t)) :
    sout2_A_1 V c t h0 h1 h2 = k2_pay1 (k2_pay11 (iblk2 V c 4 t) (iblk2 V c 3 t) (iblk2 V c 0 t) (k2_pay8 (iblk2 V c 1 t) (k2_pay5 (F := F)) (iblk2 V c 2 t))) := by
  unfold sout2_A_1
  rw [View.read_writes_eq_canon _ _ _ (scover2_A_1 V c t h0 h1 h2)]
  unfold runA kernelRun2_A
  dsimp only
  sl_unfold_words
  rw [View.canon_cons_unit_zero (S := S1x2048) hz2]
  simp only [View.readAt_eq_ld, (hs2_0 t).read_unread, (hs2_1 t).read_unread, (hs2_2 t).read_unread, (hs2_3 t).read_unread, (hs2_4 t).read_unread, View.ld_unit_zero (S := S1x2048) hz2, View.ld_unit_zero (S := S2048x2048) hz2, View.ld_unit_zero (S := S1024x2048) hz2, readCov_cons_unit_zero (S := S1x2048) _ hz2, View.readCov_unit_zero (S := S1x2048) _ hz2]

theorem sout2_C_0_eq (c : Dev nD) (t : Fin cfg2.N) (h0 : cond2_0 (grid2.coords t)) (h1 : ¬cond2_1 (grid2.coords t)) (h2 : ¬cond2_2 (grid2.coords t)) :
    sout2_C_0 V c t h0 h1 h2 = k2_pay10 (iblk2 V c 4 t) (iblk2 V c 3 t) (iblk2 V c 0 t) (k2_pay4 (F := F)) := by
  unfold sout2_C_0
  rw [View.read_writes_eq_canon _ _ _ (scover2_C_0 V c t h0 h1 h2)]
  unfold runC kernelRun2_C
  dsimp only
  sl_unfold_words
  rw [View.canon_cons_unit_zero (S := S1x2048) hz2]
  simp only [View.readAt_eq_ld, (hs2_0 t).read_unread, (hs2_1 t).read_unread, (hs2_2 t).read_unread, (hs2_3 t).read_unread, (hs2_4 t).read_unread, View.ld_unit_zero (S := S1x2048) hz2, View.ld_unit_zero (S := S2048x2048) hz2, View.ld_unit_zero (S := S1024x2048) hz2, readCov_cons_unit_zero (S := S1x2048) _ hz2, View.readCov_unit_zero (S := S1x2048) _ hz2]

theorem sout2_C_1_eq (c : Dev nD) (t : Fin cfg2.N) (h0 : cond2_0 (grid2.coords t)) (h1 : ¬cond2_1 (grid2.coords t)) (h2 : ¬cond2_2 (grid2.coords t)) :
    sout2_C_1 V c t h0 h1 h2 = k2_pay1 (k2_pay11 (iblk2 V c 4 t) (iblk2 V c 3 t) (iblk2 V c 0 t) (k2_pay5 (F := F))) := by
  unfold sout2_C_1
  rw [View.read_writes_eq_canon _ _ _ (scover2_C_1 V c t h0 h1 h2)]
  unfold runC kernelRun2_C
  dsimp only
  sl_unfold_words
  rw [View.canon_cons_unit_zero (S := S1x2048) hz2]
  simp only [View.readAt_eq_ld, (hs2_0 t).read_unread, (hs2_1 t).read_unread, (hs2_2 t).read_unread, (hs2_3 t).read_unread, (hs2_4 t).read_unread, View.ld_unit_zero (S := S1x2048) hz2, View.ld_unit_zero (S := S2048x2048) hz2, View.ld_unit_zero (S := S1024x2048) hz2, readCov_cons_unit_zero (S := S1x2048) _ hz2, View.readCov_unit_zero (S := S1x2048) _ hz2]

theorem sout2_B_0_eq (c : Dev nD) (t : Fin cfg2.N) (h0 : ¬cond2_0 (grid2.coords t)) (h1 : ¬cond2_1 (grid2.coords t)) (h2 : cond2_2 (grid2.coords t)) (xs0 xs1 : Vec F S1x2048 .f32) :
    sout2_B_0 V c t h0 h1 h2 xs0 xs1 = k2_pay10 (iblk2 V c 4 t) (iblk2 V c 3 t) (iblk2 V c 0 t) xs0 := by
  unfold sout2_B_0
  rw [View.read_writes_eq_canon _ _ _ (scover2_B_0 V c t h0 h1 h2 xs0 xs1)]
  unfold runB kernelRun2_B
  dsimp only
  sl_unfold_words
  rw [View.canon_unit_zero (S := S1x2048) hz2]
  simp only [View.readAt_eq_ld, (hs2_0 t).read_unread, (hs2_1 t).read_unread, (hs2_2 t).read_unread, (hs2_3 t).read_unread, (hs2_4 t).read_unread, View.ld_unit_zero (S := S1x2048) hz2, View.ld_unit_zero (S := S2048x2048) hz2, View.ld_unit_zero (S := S1024x2048) hz2, readCov_cons_unit_zero (S := S1x2048) _ hz2, View.readCov_unit_zero (S := S1x2048) _ hz2]
  simp only [show ∀ (h : (scM2_0 : Memref sig .tc .vmem S1x2048 .f32).IsWhole) (x : Vec F S1x2048 .f32), View.read (Elt F) (View.whole cc2_scratch0) (h.unread x) = x from fun h x => h.read_unread x,
    show ∀ (h : (scM2_1 : Memref sig .tc .vmem S1x2048 .f32).IsWhole) (x : Vec F S1x2048 .f32), View.read (Elt F) (View.whole cc2_scratch1) (h.unread x) = x from fun h x => h.read_unread x]

theorem sout2_B_1_eq (c : Dev nD) (t : Fin cfg2.N) (h0 : ¬cond2_0 (grid2.coords t)) (h1 : ¬cond2_1 (grid2.coords t)) (h2 : cond2_2 (grid2.coords t)) (xs0 xs1 : Vec F S1x2048 .f32) :
    sout2_B_1 V c t h0 h1 h2 xs0 xs1 = k2_pay1 (k2_pay11 (iblk2 V c 4 t) (iblk2 V c 3 t) (iblk2 V c 0 t) xs1) := by
  unfold sout2_B_1
  rw [View.read_writes_eq_canon _ _ _ (scover2_B_1 V c t h0 h1 h2 xs0 xs1)]
  unfold runB kernelRun2_B
  dsimp only
  sl_unfold_words
  rw [View.canon_unit_zero (S := S1x2048) hz2]
  simp only [View.readAt_eq_ld, (hs2_0 t).read_unread, (hs2_1 t).read_unread, (hs2_2 t).read_unread, (hs2_3 t).read_unread, (hs2_4 t).read_unread, View.ld_unit_zero (S := S1x2048) hz2, View.ld_unit_zero (S := S2048x2048) hz2, View.ld_unit_zero (S := S1024x2048) hz2, readCov_cons_unit_zero (S := S1x2048) _ hz2, View.readCov_unit_zero (S := S1x2048) _ hz2]
  simp only [show ∀ (h : (scM2_0 : Memref sig .tc .vmem S1x2048 .f32).IsWhole) (x : Vec F S1x2048 .f32), View.read (Elt F) (View.whole cc2_scratch0) (h.unread x) = x from fun h x => h.read_unread x,
    show ∀ (h : (scM2_1 : Memref sig .tc .vmem S1x2048 .f32).IsWhole) (x : Vec F S1x2048 .f32), View.read (Elt F) (View.whole cc2_scratch1) (h.unread x) = x from fun h x => h.read_unread x]

theorem out2_B_5_eq (c : Dev nD) (t : Fin cfg2.N) (h0 : ¬cond2_0 (grid2.coords t)) (h1 : ¬cond2_1 (grid2.coords t)) (h2 : cond2_2 (grid2.coords t)) (xs0 xs1 : Vec F S1x2048 .f32) :
    out2_B_5 V c t h0 h1 h2 xs0 xs1 = k2_pay2 (k2_pay10 (iblk2 V c 4 t) (iblk2 V c 3 t) (iblk2 V c 0 t) xs0) := by
  unfold out2_B_5
  rw [View.read_writes_eq_canon _ _ _ (cover2_B_5 V c t h0 h1 h2 xs0 xs1)]
  unfold runB kernelRun2_B
  dsimp only
  sl_unfold_words
  rw [View.canon_unit_zero (S := S1x1x2048) hz3]
  simp only [View.readAt_eq_ld, (hs2_0 t).read_unread, (hs2_1 t).read_unread, (hs2_2 t).read_unread, (hs2_3 t).read_unread, (hs2_4 t).read_unread, View.ld_unit_zero (S := S1x2048) hz2, View.ld_unit_zero (S := S2048x2048) hz2, View.ld_unit_zero (S := S1024x2048) hz2, readCov_cons_unit_zero (S := S1x2048) _ hz2, View.readCov_unit_zero (S := S1x2048) _ hz2]
  simp only [show ∀ (h : (scM2_0 : Memref sig .tc .vmem S1x2048 .f32).IsWhole) (x : Vec F S1x2048 .f32), View.read (Elt F) (View.whole cc2_scratch0) (h.unread x) = x from fun h x => h.read_unread x,
    show ∀ (h : (scM2_1 : Memref sig .tc .vmem S1x2048 .f32).IsWhole) (x : Vec F S1x2048 .f32), View.read (Elt F) (View.whole cc2_scratch1) (h.unread x) = x from fun h x => h.read_unread x]

theorem out2_B_6_eq (c : Dev nD) (t : Fin cfg2.N) (h0 : ¬cond2_0 (grid2.coords t)) (h1 : ¬cond2_1 (grid2.coords t)) (h2 : cond2_2 (grid2.coords t)) (xs0 xs1 : Vec F S1x2048 .f32) :
    out2_B_6 V c t h0 h1 h2 xs0 xs1 = k2_pay3 (k2_pay1 (k2_pay11 (iblk2 V c 4 t) (iblk2 V c 3 t) (iblk2 V c 0 t) xs1)) := by
  unfold out2_B_6
  rw [View.read_writes_eq_canon _ _ _ (cover2_B_6 V c t h0 h1 h2 xs0 xs1)]
  unfold runB kernelRun2_B
  dsimp only
  sl_unfold_words
  rw [View.canon_unit_zero (S := S1x1x2048) hz3]
  simp only [View.readAt_eq_ld, (hs2_0 t).read_unread, (hs2_1 t).read_unread, (hs2_2 t).read_unread, (hs2_3 t).read_unread, (hs2_4 t).read_unread, View.ld_unit_zero (S := S1x2048) hz2, View.ld_unit_zero (S := S2048x2048) hz2, View.ld_unit_zero (S := S1024x2048) hz2, readCov_cons_unit_zero (S := S1x2048) _ hz2, View.readCov_unit_zero (S := S1x2048) _ hz2]
  simp only [show ∀ (h : (scM2_0 : Memref sig .tc .vmem S1x2048 .f32).IsWhole) (x : Vec F S1x2048 .f32), View.read (Elt F) (View.whole cc2_scratch0) (h.unread x) = x from fun h x => h.read_unread x,
    show ∀ (h : (scM2_1 : Memref sig .tc .vmem S1x2048 .f32).IsWhole) (x : Vec F S1x2048 .f32), View.read (Elt F) (View.whole cc2_scratch1) (h.unread x) = x from fun h x => h.read_unread x]

end Cert.KernelIdeal.Hand

end
-- ==== Proof.KI.Value2.lean ====
/- The two output arrays of the merge region, on the extended reals.

   The region runs four points: core 0 takes lexicon tiles 0 and 1, core 1 tiles 2 and 3. At a core's first tile the two
   scratch rows start from zero (on core 0 plus the input-gate row's terms), every tile adds its column sums of the
   weights to the first row and of weight times entry to the second, and at a core's last tile the two rows are copied
   into the core's block of the two outputs. Read entry by entry the two blocks of each output are the functions
   `seOut` and `wcOut` of the arrays the region reads. -/
import proofs.«115356_j45689862095431_2_alg».proof.Proof.KI.R2Pieces
import proofs.«115356_j45689862095431_2_alg».proof.Proof.KI.Payloads
import proofs.«115356_j45689862095431_2_alg».proof.Proof.MergeFns
import Idealize.ShloMosaic.Lib.Pipeline.Value
import Idealize.ShloMosaic.Lib.Decide

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.MergeFns (Row rowOf wgt tileE tileW seOut wcOut)

/-! ## One tile's step, over any blocks that read the arrays -/

section Step
variable (bias ig gg : Row) (aw : (⟨2, ![2048, 2048]⟩ : Shape).Idx → EReal) (cin : (⟨2, ![4096, 2048]⟩ : Shape).Idx → EReal)
variable (x4 : Vec Ideal S1024x2048 .f32) (x3 : Vec Ideal S2048x2048 .bf16) (x0 x1 x2 : Vec Ideal S1x2048 .f32) (t : Fin 4)
variable (hb : ∀ h : Fin 2048, x0 (ix2 0 h) = bias (ix2 0 h)) (hw : ∀ h k : Fin 2048, x3 (ix2 h k) = aw (ix2 h k))
variable (ht : ∀ (r : Fin 1024) (k : Fin 2048), x4 (ix2 r k) = cin (ix2 (rowOf t r) k))
variable (hi : ∀ h : Fin 2048, x1 (ix2 0 h) = ig (ix2 0 h)) (hg : ∀ h : Fin 2048, x2 (ix2 0 h) = gg (ix2 0 h))

include hb hw ht in
/-- The weight the tile's row `r` gets at hidden unit `h`. -/
theorem pay9_wgt (r : Fin 1024) (h : Fin 2048) : k2_pay9 (F := Ideal) x4 x3 x0 (ix2 r h) = wgt bias aw cin t r h := by
  rw [k2_pay9_apply, hb]
  unfold wgt
  simp only [ht, hw]

include hb hw ht in
/-- The first row after the tile: what it held plus the tile's column sums of the weights. -/
theorem pay10_tile (xs : Vec Ideal S1x2048 .f32) (h : Fin 2048) :
    k2_pay10 (F := Ideal) x4 x3 x0 xs (ix2 0 h) = xs (ix2 0 h) + tileE bias aw cin t h := by
  rw [k2_pay10_apply]
  unfold tileE
  simp only [pay9_wgt bias aw cin x4 x3 x0 t hb hw ht]

include hb hw ht in
/-- The second row after the tile: what it held plus the tile's column sums of weight times entry. -/
theorem pay11_tile (xs : Vec Ideal S1x2048 .f32) (h : Fin 2048) :
    k2_pay1 (F := Ideal) (k2_pay11 (F := Ideal) x4 x3 x0 xs) (ix2 0 h) = xs (ix2 0 h) + tileW bias aw cin t h := by
  rw [k2_pay1_apply, k2_pay11_apply]
  unfold tileW
  simp only [pay9_wgt bias aw cin x4 x3 x0 t hb hw ht, ht]

include hb hw ht hi in
/-- Core 0's first tile, first row: from zero plus the input gate's exponential. -/
theorem first0_row0 (h : Fin 2048) :
    k2_pay10 (F := Ideal) x4 x3 x0 (k2_pay7 (F := Ideal) x1 (k2_pay4 (F := Ideal))) (ix2 0 h)
      = (0 + Ideal.exp (ig (ix2 0 h))) + tileE bias aw cin t h := by
  rw [pay10_tile bias aw cin x4 x3 x0 t hb hw ht, k2_pay7_apply, k2_pay4_apply, hi]

include hb hw ht hi hg in
/-- Core 0's first tile, second row: from zero plus the input gate's exponential times the candidate. -/
theorem first0_row1 (h : Fin 2048) :
    k2_pay1 (F := Ideal) (k2_pay11 (F := Ideal) x4 x3 x0 (k2_pay8 (F := Ideal) x1 (k2_pay5 (F := Ideal)) x2)) (ix2 0 h)
      = (0 + Ideal.exp (ig (ix2 0 h)) * gg (ix2 0 h)) + tileW bias aw cin t h := by
  rw [pay11_tile bias aw cin x4 x3 x0 t hb hw ht, k2_pay8_apply, k2_pay5_apply, hi, hg]

include hb hw ht in
/-- Core 1's first tile, first row: from zero. -/
theorem first1_row0 (h : Fin 2048) :
    k2_pay10 (F := Ideal) x4 x3 x0 (k2_pay4 (F := Ideal)) (ix2 0 h) = 0 + tileE bias aw cin t h := by
  rw [pay10_tile bias aw cin x4 x3 x0 t hb hw ht, k2_pay4_apply]

include hb hw ht in
/-- Core 1's first tile, second row: from zero. -/
theorem first1_row1 (h : Fin 2048) :
    k2_pay1 (F := Ideal) (k2_pay11 (F := Ideal) x4 x3 x0 (k2_pay5 (F := Ideal))) (ix2 0 h) = 0 + tileW bias aw cin t h := by
  rw [pay11_tile bias aw cin x4 x3 x0 t hb hw ht, k2_pay5_apply]

/-- Core 0's block of the first output. -/
theorem seOut_core0 (k : Fin 2) (hk : k.val = 0) (h : Fin 2048) : seOut bias ig aw cin (ix3 k 0 h)
    = ((0 + Ideal.exp (ig (ix2 0 h))) + tileE bias aw cin 0 h) + tileE bias aw cin 1 h := if_pos hk

/-- Core 1's block of the first output. -/
theorem seOut_core1 (k : Fin 2) (hk : ¬k.val = 0) (h : Fin 2048) : seOut bias ig aw cin (ix3 k 0 h)
    = (0 + tileE bias aw cin 2 h) + tileE bias aw cin 3 h := if_neg hk

/-- Core 0's block of the second output. -/
theorem wcOut_core0 (k : Fin 2) (hk : k.val = 0) (h : Fin 2048) : wcOut bias ig gg aw cin (ix3 k 0 h)
    = ((0 + Ideal.exp (ig (ix2 0 h)) * gg (ix2 0 h)) + tileW bias aw cin 0 h) + tileW bias aw cin 1 h := if_pos hk

/-- Core 1's block of the second output. -/
theorem wcOut_core1 (k : Fin 2) (hk : ¬k.val = 0) (h : Fin 2048) : wcOut bias ig gg aw cin (ix3 k 0 h)
    = (0 + tileW bias aw cin 2 h) + tileW bias aw cin 3 h := if_neg hk

end Step

-- the TensorCore's buffer contents when the region is entered
variable (V : (c : Dev nD) → (b : Ref sig .tc) → Buf (Elt Ideal) ((c : Thread nD τ).loc b))

/-! ## The arrays the region reads -/

/-- The bias row. -/
abbrev biasA (c : Dev nD) : Row := V c main_v21
/-- The input-gate row. -/
abbrev igA (c : Dev nD) : Row := V c main_v11
/-- The candidate row. -/
abbrev ggA (c : Dev nD) : Row := V c main_v20
/-- The weight matrix. -/
abbrev awA (c : Dev nD) : (⟨2, ![2048, 2048]⟩ : Shape).Idx → EReal := V c main_v22
/-- The lexicon matrix. -/
abbrev cinA (c : Dev nD) : (⟨2, ![4096, 2048]⟩ : Shape).Idx → EReal := V c main_arg1

/-- The printed index maps over the four points: the row windows and the weight window stay at block 0, the lexicon
    window's row block is the point's number, the output windows' block is the core, the point's number halved. -/
theorem index_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 3) = t.val / 2 ∧ win2_5.index t (1 : Fin 3) = 0 ∧ win2_5.index t (2 : Fin 3) = 0
    ∧ win2_6.index t (0 : Fin 3) = t.val / 2 ∧ win2_6.index t (1 : Fin 3) = 0 ∧ win2_6.index t (2 : Fin 3) = 0 :=
  (by decide +kernel : ∀ t : Fin grid2.N, _)

/-- The bias row, whole, at every point. -/
theorem iblk2_0_apply (c : Dev nD) (t : Fin cfg2.N) (h : Fin 2048) :
    (iblk2 V c 0 t : Vec Ideal S1x2048 .f32) (ix2 0 h) = biasA V c (ix2 0 h) := by
  obtain ⟨e0, e1, -⟩ := index_facts2 t
  show biasA V c (((cfg2.win 0).blk t).view.emb (ix2 0 h)) = _
  refine congrArg _ (funext fun a => Fin.ext ?_)
  match a with
  | ⟨0, _⟩ => show win2_0.index t (0 : Fin 2) * 1 + 1 * 0 = 0; omega
  | ⟨1, _⟩ => show win2_0.index t (1 : Fin 2) * 2048 + 1 * h.val = h.val; omega

/-- The input-gate row, whole, at every point. -/
theorem iblk2_1_apply (c : Dev nD) (t : Fin cfg2.N) (h : Fin 2048) :
    (iblk2 V c 1 t : Vec Ideal S1x2048 .f32) (ix2 0 h) = igA V c (ix2 0 h) := by
  obtain ⟨-, -, e0, e1, -⟩ := index_facts2 t
  show igA V c (((cfg2.win 1).blk t).view.emb (ix2 0 h)) = _
  refine congrArg _ (funext fun a => Fin.ext ?_)
  match a with
  | ⟨0, _⟩ => show win2_1.index t (0 : Fin 2) * 1 + 1 * 0 = 0; omega
  | ⟨1, _⟩ => show win2_1.index t (1 : Fin 2) * 2048 + 1 * h.val = h.val; omega

/-- The candidate row, whole, at every point. -/
theorem iblk2_2_apply (c : Dev nD) (t : Fin cfg2.N) (h : Fin 2048) :
    (iblk2 V c 2 t : Vec Ideal S1x2048 .f32) (ix2 0 h) = ggA V c (ix2 0 h) := by
  obtain ⟨-, -, -, -, e0, e1, -⟩ := index_facts2 t
  show ggA V c (((cfg2.win 2).blk t).view.emb (ix2 0 h)) = _
  refine congrArg _ (funext fun a => Fin.ext ?_)
  match a with
  | ⟨0, _⟩ => show win2_2.index t (0 : Fin 2) * 1 + 1 * 0 = 0; omega
  | ⟨1, _⟩ => show win2_2.index t (1 : Fin 2) * 2048 + 1 * h.val = h.val; omega

/-- The weight matrix, whole, at every point. -/
theorem iblk2_3_apply (c : Dev nD) (t : Fin cfg2.N) (h k : Fin 2048) :
    (iblk2 V c 3 t : Vec Ideal S2048x2048 .bf16) (ix2 h k) = awA V c (ix2 h k) := by
  obtain ⟨-, -, -, -, -, -, e0, e1, -⟩ := index_facts2 t
  show awA V c (((cfg2.win 3).blk t).view.emb (ix2 h k)) = _
  refine congrArg _ (funext fun a => Fin.ext ?_)
  match a with
  | ⟨0, _⟩ => show win2_3.index t (0 : Fin 2) * 2048 + 1 * h.val = h.val; omega
  | ⟨1, _⟩ => show win2_3.index t (1 : Fin 2) * 2048 + 1 * k.val = k.val; omega

/-- The point's tile of 1024 rows of the lexicon matrix. -/
theorem iblk2_4_apply (c : Dev nD) (t : Fin cfg2.N) (T : Fin 4) (hT : t.val = T.val) (r : Fin 1024) (k : Fin 2048) :
    (iblk2 V c 4 t : Vec Ideal S1024x2048 .f32) (ix2 r k) = cinA V c (ix2 (rowOf T r) k) := by
  obtain ⟨-, -, -, -, -, -, -, -, e0, e1, -⟩ := index_facts2 t
  show cinA V c (((cfg2.win 4).blk t).view.emb (ix2 r k)) = _
  refine congrArg _ (funext fun a => Fin.ext ?_)
  match a with
  | ⟨0, _⟩ => show win2_4.index t (0 : Fin 2) * 1024 + 1 * r.val = 1024 * T.val + r.val; omega
  | ⟨1, _⟩ => show win2_4.index t (1 : Fin 2) * 2048 + 1 * k.val = k.val; omega

/-- The core of a point. -/
def coreOf (t : Fin cfg2.N) : Fin 2 := ⟨t.val / 2, by have := N2_lt t.isLt; omega⟩

/-- Where a point's block of the first output sits in the output. -/
theorem emb2_5 (t : Fin cfg2.N) (h : Fin 2048) :
    (((cfg2.win 5).blk t).view.emb (ix3 0 0 h) : S2x1x2048.Idx) = ix3 (coreOf t) 0 h := by
  obtain ⟨-, -, -, -, -, -, -, -, -, -, e0, e1, e2, -⟩ := index_facts2 t
  refine funext fun a => Fin.ext ?_
  match a with
  | ⟨0, _⟩ => show win2_5.index t (0 : Fin 3) * 1 + 1 * 0 = t.val / 2; omega
  | ⟨1, _⟩ => show win2_5.index t (1 : Fin 3) * 1 + 1 * 0 = 0; omega
  | ⟨2, _⟩ => show win2_5.index t (2 : Fin 3) * 2048 + 1 * h.val = h.val; omega

/-- Where a point's block of the second output sits in the output. -/
theorem emb2_6 (t : Fin cfg2.N) (h : Fin 2048) :
    (((cfg2.win 6).blk t).view.emb (ix3 0 0 h) : S2x1x2048.Idx) = ix3 (coreOf t) 0 h := by
  obtain ⟨-, -, -, -, -, -, -, -, -, -, -, -, -, e0, e1, e2⟩ := index_facts2 t
  refine funext fun a => Fin.ext ?_
  match a with
  | ⟨0, _⟩ => show win2_6.index t (0 : Fin 3) * 1 + 1 * 0 = t.val / 2; omega
  | ⟨1, _⟩ => show win2_6.index t (1 : Fin 3) * 1 + 1 * 0 = 0; omega
  | ⟨2, _⟩ => show win2_6.index t (2 : Fin 3) * 2048 + 1 * h.val = h.val; omega

/-! ## The scratch rows and the output blocks after each point -/

/-- After core 0's first tile: the two scratch rows. -/
theorem rows_first0 (c : Dev nD) (t : Fin cfg2.N) (hz : t.val = 0) (h : Fin 2048) :
    (outsAt2 (F := Ideal) V c t.val t.isLt).2.2.1 (ix2 0 h)
        = (0 + Ideal.exp (igA V c (ix2 0 h))) + tileE (biasA V c) (awA V c) (cinA V c) 0 h
    ∧ (outsAt2 (F := Ideal) V c t.val t.isLt).2.2.2 (ix2 0 h)
        = (0 + Ideal.exp (igA V c (ix2 0 h)) * ggA V c (ix2 0 h)) + tileW (biasA V c) (awA V c) (cinA V c) 0 h := by
  have h0 : cond2_0 (grid2.coords t) := (hcond2_0 t).mpr (by omega)
  have h1 : cond2_1 (grid2.coords t) := (hcond2_1 t).mpr (by omega)
  have h2 : ¬cond2_2 (grid2.coords t) := fun e => by have := (hcond2_2 t).mp e; omega
  rw [outsAt2_A V c t hz h0 h1 h2]
  dsimp only
  rw [sout2_A_0_eq, sout2_A_1_eq]
  exact ⟨first0_row0 (biasA V c) (igA V c) (awA V c) (cinA V c) _ _ _ _ 0 (iblk2_0_apply V c t) (iblk2_3_apply V c t)
      (iblk2_4_apply V c t 0 hz) (iblk2_1_apply V c t) h,
    first0_row1 (biasA V c) (igA V c) (ggA V c) (awA V c) (cinA V c) _ _ _ _ _ 0 (iblk2_0_apply V c t) (iblk2_3_apply V c t)
      (iblk2_4_apply V c t 0 hz) (iblk2_1_apply V c t) (iblk2_2_apply V c t) h⟩

/-- After core 1's first tile: the two scratch rows. -/
theorem rows_first1 (c : Dev nD) (t : Fin cfg2.N) (hz : t.val = 2) (h : Fin 2048) :
    (outsAt2 (F := Ideal) V c t.val t.isLt).2.2.1 (ix2 0 h) = 0 + tileE (biasA V c) (awA V c) (cinA V c) 2 h
    ∧ (outsAt2 (F := Ideal) V c t.val t.isLt).2.2.2 (ix2 0 h) = 0 + tileW (biasA V c) (awA V c) (cinA V c) 2 h := by
  have h0 : cond2_0 (grid2.coords t) := (hcond2_0 t).mpr (by omega)
  have h1 : ¬cond2_1 (grid2.coords t) := fun e => by have := (hcond2_1 t).mp e; omega
  have h2 : ¬cond2_2 (grid2.coords t) := fun e => by have := (hcond2_2 t).mp e; omega
  rw [outsAt2_C V c t (by omega) (by omega) h0 h1 h2]
  dsimp only
  rw [sout2_C_0_eq, sout2_C_1_eq]
  exact ⟨first1_row0 (biasA V c) (awA V c) (cinA V c) _ _ _ 2 (iblk2_0_apply V c t) (iblk2_3_apply V c t)
      (iblk2_4_apply V c t 2 hz) h,
    first1_row1 (biasA V c) (awA V c) (cinA V c) _ _ _ 2 (iblk2_0_apply V c t) (iblk2_3_apply V c t)
      (iblk2_4_apply V c t 2 hz) h⟩

/-- At a core's last tile `T`: the two output blocks, over what the point before left in the scratch rows. -/
theorem blocks_last (c : Dev nD) (t : Fin cfg2.N) (hodd : t.val % 2 = 1) (T : Fin 4) (hT : t.val = T.val) (h : Fin 2048) :
    (outsAt2 (F := Ideal) V c t.val t.isLt).1 (ix3 0 0 h)
        = (outsAt2 (F := Ideal) V c (t.val - 1) (Nat.lt_of_le_of_lt (Nat.sub_le _ _) t.isLt)).2.2.1 (ix2 0 h)
          + tileE (biasA V c) (awA V c) (cinA V c) T h
    ∧ (outsAt2 (F := Ideal) V c t.val t.isLt).2.1 (ix3 0 0 h)
        = (outsAt2 (F := Ideal) V c (t.val - 1) (Nat.lt_of_le_of_lt (Nat.sub_le _ _) t.isLt)).2.2.2 (ix2 0 h)
          + tileW (biasA V c) (awA V c) (cinA V c) T h := by
  have h0 : ¬cond2_0 (grid2.coords t) := fun e => by have := (hcond2_0 t).mp e; omega
  have h1 : ¬cond2_1 (grid2.coords t) := fun e => by have := (hcond2_1 t).mp e; omega
  have h2 : cond2_2 (grid2.coords t) := (hcond2_2 t).mpr hodd
  rw [outsAt2_B V c t hodd h0 h1 h2]
  dsimp only
  rw [out2_B_5_eq, out2_B_6_eq, k2_pay2_apply, k2_pay3_apply]
  exact ⟨pay10_tile (biasA V c) (awA V c) (cinA V c) _ _ _ T (iblk2_0_apply V c t) (iblk2_3_apply V c t)
      (iblk2_4_apply V c t T hT) _ h,
    pay11_tile (biasA V c) (awA V c) (cinA V c) _ _ _ T (iblk2_0_apply V c t) (iblk2_3_apply V c t)
      (iblk2_4_apply V c t T hT) _ h⟩

/-! ## The write-backs and the arrays -/

/-- What a core's last tile writes back to the first output is the core's block of `seOut`. -/
theorem flushed2_5_eq (c : Dev nD) (t : Fin cfg2.N) (hf : (cfg2.win 5).flush t = true) :
    (dat2 (F := Ideal) V c).flushed 5 t = ((cfg2.win 5).blk t).view.read (Elt Ideal)
      (seOut (biasA V c) (igA V c) (awA V c) (cinA V c)) := by
  have hodd : t.val % 2 = 1 := (flush2_5 t).mp hf
  have hlt : t.val < 4 := N2_lt t.isLt
  show (cfg2.win 5).cut (grid2.coords t) ((dat2 V c).after 5 t) = _
  rw [after2_5]
  funext y
  obtain ⟨u, u', h, rfl⟩ : ∃ (u u' : Fin 1) (h : Fin 2048), y = ix3 u u' h := ⟨y 0, y 1, y 2, eq_ix3 y⟩
  obtain rfl : u = 0 := Subsingleton.elim _ _
  obtain rfl : u' = 0 := Subsingleton.elim _ _
  show (outsAt2 (F := Ideal) V c t.val t.isLt).1 (ix3 0 0 h)
    = seOut (biasA V c) (igA V c) (awA V c) (cinA V c) (((cfg2.win 5).blk t).view.emb (ix3 0 0 h))
  rw [emb2_5]
  have hp : t.val - 1 < cfg2.N := Nat.lt_of_le_of_lt (Nat.sub_le _ _) t.isLt
  rcases (by omega : t.val = 1 ∨ t.val = 3) with ht | ht
  · rw [seOut_core0 _ _ _ _ (coreOf t) (by show t.val / 2 = 0; omega),
      (blocks_last V c t hodd 1 ht h).1, (rows_first0 V c ⟨t.val - 1, hp⟩ (by show t.val - 1 = 0; omega) h).1]
  · rw [seOut_core1 _ _ _ _ (coreOf t) (by show ¬t.val / 2 = 0; omega),
      (blocks_last V c t hodd 3 ht h).1, (rows_first1 V c ⟨t.val - 1, hp⟩ (by show t.val - 1 = 2; omega) h).1]

/-- What a core's last tile writes back to the second output is the core's block of `wcOut`. -/
theorem flushed2_6_eq (c : Dev nD) (t : Fin cfg2.N) (hf : (cfg2.win 6).flush t = true) :
    (dat2 (F := Ideal) V c).flushed 6 t = ((cfg2.win 6).blk t).view.read (Elt Ideal)
      (wcOut (biasA V c) (igA V c) (ggA V c) (awA V c) (cinA V c)) := by
  have hodd : t.val % 2 = 1 := (flush2_6 t).mp hf
  have hlt : t.val < 4 := N2_lt t.isLt
  show (cfg2.win 6).cut (grid2.coords t) ((dat2 V c).after 6 t) = _
  rw [after2_6]
  funext y
  obtain ⟨u, u', h, rfl⟩ : ∃ (u u' : Fin 1) (h : Fin 2048), y = ix3 u u' h := ⟨y 0, y 1, y 2, eq_ix3 y⟩
  obtain rfl : u = 0 := Subsingleton.elim _ _
  obtain rfl : u' = 0 := Subsingleton.elim _ _
  show (outsAt2 (F := Ideal) V c t.val t.isLt).2.1 (ix3 0 0 h)
    = wcOut (biasA V c) (igA V c) (ggA V c) (awA V c) (cinA V c) (((cfg2.win 6).blk t).view.emb (ix3 0 0 h))
  rw [emb2_6]
  have hp : t.val - 1 < cfg2.N := Nat.lt_of_le_of_lt (Nat.sub_le _ _) t.isLt
  rcases (by omega : t.val = 1 ∨ t.val = 3) with ht | ht
  · rw [wcOut_core0 _ _ _ _ _ (coreOf t) (by show t.val / 2 = 0; omega),
      (blocks_last V c t hodd 1 ht h).2, (rows_first0 V c ⟨t.val - 1, hp⟩ (by show t.val - 1 = 0; omega) h).2]
  · rw [wcOut_core1 _ _ _ _ _ (coreOf t) (by show ¬t.val / 2 = 0; omega),
      (blocks_last V c t hodd 3 ht h).2, (rows_first1 V c ⟨t.val - 1, hp⟩ (by show t.val - 1 = 2; omega) h).2]

/-- An index of the first output is in a point's block iff each coordinate is in the block's range on its axis. -/
theorem mem_blk2_5 (t : Fin cfg2.N) (i : S2x1x2048.Idx) :
    i ∈ ((cfg2.win 5).blk t).view.set ↔ ∀ a : Fin 3, win2_5.index t a * S1x1x2048.size a ≤ (i a).val ∧ (i a).val < win2_5.index t a * S1x1x2048.size a + S1x1x2048.size a := by
  show i ∈ ((View.whole main_v23_0).slice (win2_5.rect t)).set ↔ _
  rw [View.set_slice_whole, Rect.mem_set_unit]
  exact Iff.rfl

/-- An index of the second output is in a point's block iff each coordinate is in the block's range on its axis. -/
theorem mem_blk2_6 (t : Fin cfg2.N) (i : S2x1x2048.Idx) :
    i ∈ ((cfg2.win 6).blk t).view.set ↔ ∀ a : Fin 3, win2_6.index t a * S1x1x2048.size a ≤ (i a).val ∧ (i a).val < win2_6.index t a * S1x1x2048.size a + S1x1x2048.size a := by
  show i ∈ ((View.whole main_v23_1).slice (win2_6.rect t)).set ↔ _
  rw [View.set_slice_whole, Rect.mem_set_unit]
  exact Iff.rfl

/-- Core `k`'s block of the first output is written back by the core's last tile, point `2 k + 1`. -/
theorem cover2_5 (i : S2x1x2048.Idx) : ∃ t : Fin cfg2.N, (cfg2.win 5).flush t = true ∧ i ∈ ((cfg2.win 5).blk t).view.set := by
  have hi0 : (i 0).val < 2 := (i 0).isLt
  have hi1 : (i 1).val < 1 := (i 1).isLt
  have hi2 : (i 2).val < 2048 := (i 2).isLt
  let t : Fin cfg2.N := ⟨2 * (i 0).val + 1, by rw [show cfg2.N = 4 from N_2]; omega⟩
  obtain ⟨-, -, -, -, -, -, -, -, -, -, e0, e1, e2, -⟩ := index_facts2 t
  have ht : t.val = 2 * (i 0).val + 1 := rfl
  refine ⟨t, (flush2_5 t).mpr (by omega), ?_⟩
  rw [mem_blk2_5]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 1 ≤ (i 1).val ∧ (i 1).val < win2_5.index t (1 : Fin 3) * 1 + 1; omega
  | ⟨2, _⟩ => show win2_5.index t (2 : Fin 3) * 2048 ≤ (i 2).val ∧ (i 2).val < win2_5.index t (2 : Fin 3) * 2048 + 2048; omega

/-- Core `k`'s block of the second output is written back by the core's last tile, point `2 k + 1`. -/
theorem cover2_6 (i : S2x1x2048.Idx) : ∃ t : Fin cfg2.N, (cfg2.win 6).flush t = true ∧ i ∈ ((cfg2.win 6).blk t).view.set := by
  have hi0 : (i 0).val < 2 := (i 0).isLt
  have hi1 : (i 1).val < 1 := (i 1).isLt
  have hi2 : (i 2).val < 2048 := (i 2).isLt
  let t : Fin cfg2.N := ⟨2 * (i 0).val + 1, by rw [show cfg2.N = 4 from N_2]; omega⟩
  obtain ⟨-, -, -, -, -, -, -, -, -, -, -, -, -, e0, e1, e2⟩ := index_facts2 t
  have ht : t.val = 2 * (i 0).val + 1 := rfl
  refine ⟨t, (flush2_6 t).mpr (by omega), ?_⟩
  rw [mem_blk2_6]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 1 ≤ (i 1).val ∧ (i 1).val < win2_6.index t (1 : Fin 3) * 1 + 1; omega
  | ⟨2, _⟩ => show win2_6.index t (2 : Fin 3) * 2048 ≤ (i 2).val ∧ (i 2).val < win2_6.index t (2 : Fin 3) * 2048 + 2048; omega

/-- THE FIRST OUTPUT after the region's four points. -/
theorem final2_5 (c : Dev nD) : (dat2 (F := Ideal) V c).arrAt 5 cfg2.N
    = seOut (V c main_v21) (V c main_v11) (V c main_v22) (V c main_arg1) :=
  (dat2 (F := Ideal) V c).arrAt_eq_of_cover 5 _ (fun t hf => flushed2_5_eq V c t hf) cover2_5

/-- THE SECOND OUTPUT after the region's four points. -/
theorem final2_6 (c : Dev nD) : (dat2 (F := Ideal) V c).arrAt 6 cfg2.N
    = wcOut (V c main_v21) (V c main_v11) (V c main_v20) (V c main_v22) (V c main_arg1) :=
  (dat2 (F := Ideal) V c).arrAt_eq_of_cover 6 _ (fun t hf => flushed2_6_eq V c t hf) cover2_6

end Cert.KernelIdeal.Hand

end
-- ==== Proof.KI.KernelValue.lean ====
/-
  The idealized kernel program's two results, read off the last boundary's contents: each host stretch is read as
  the composed term of its operations, each region's output array as the closed form of its write-backs, and every
  other buffer is walked back to the boundary that last wrote it; the chain ends in the specification.
-/
import proofs.«115356_j45689862095431_2_alg».proof.Proof.KI.Run
import proofs.«115356_j45689862095431_2_alg».proof.Proof.KI.Value01
import proofs.«115356_j45689862095431_2_alg».proof.Proof.KI.KernelChain
import proofs.«115356_j45689862095431_2_alg».proof.Proof.KI.Value2
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat)

variable [Cert.KernelIdeal.Facts]
variable (m : (ℓ : Loc nD τ sig) → Buf (Elt Ideal) ℓ) (ρ : Dev nD → PrngReg)

/-! ## Buffers no segment between two boundaries writes -/

theorem keep0 (c : Dev nD) (b : Ref sig .tc) (h : b ∉ hostOps0_W) : W1 m ρ c (Proc.devRef .tc b) = W0 m ρ c (Proc.devRef .tc b) :=
  StableHlo.after_of_writes_sub hostOps0 _ hostOps0_writes h
theorem keep1 (c : Dev nD) (b : Ref sig .tc) (h : b ∉ hostOps1_W) : W3 m ρ c (Proc.devRef .tc b) = W2 m ρ c (Proc.devRef .tc b) :=
  StableHlo.after_of_writes_sub hostOps1 _ hostOps1_writes h
theorem keep2 (c : Dev nD) (b : Ref sig .tc) (h : b ∉ hostOps2_W) : W5 m ρ c (Proc.devRef .tc b) = W4 m ρ c (Proc.devRef .tc b) :=
  StableHlo.after_of_writes_sub hostOps2 _ hostOps2_writes h

/-- An argument array no region stages, at the first region's entry. -/
theorem W1_of_arg (c : Dev nD) (b : Ref sig .tc) (h : b ∉ hostOps0_W) : W1 m ρ c (Proc.devRef .tc b) = m ((c : Thread nD τ).loc b) :=
  (keep0 m ρ c b h).trans rfl

theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_of_arg m ρ c main_arg0 (by decide))
theorem W2_of_arg (c : Dev nD) (b : Ref sig .tc) (hb : ∀ w, Pipeline.arrRef spec0 w ≠ b) (h : b ∉ hostOps0_W) :
    W2 m ρ c (Proc.devRef .tc b) = m ((c : Thread nD τ).loc b) :=
  (W2_of_ne m ρ c b hb).trans (W1_of_arg m ρ c b h)

theorem W3_main_arg0 (c : Dev nD) : W3 m ρ c (Proc.devRef .tc main_arg0) = m ((c : Thread nD τ).loc main_arg0) :=
  (keep1 m ρ c main_arg0 (by decide)).trans (W2_main_arg0 m ρ c)
theorem W3_main_arg8 (c : Dev nD) : W3 m ρ c (Proc.devRef .tc main_arg8) = m ((c : Thread nD τ).loc main_arg8) :=
  (keep1 m ρ c main_arg8 (by decide)).trans (W2_of_arg m ρ c main_arg8 (by decide) (by decide))
theorem W3_main_arg1 (c : Dev nD) : W3 m ρ c (Proc.devRef .tc main_arg1) = m ((c : Thread nD τ).loc main_arg1) :=
  (keep1 m ρ c main_arg1 (by decide)).trans (W2_of_arg m ρ c main_arg1 (by decide) (by decide))
theorem W3_main_arg10 (c : Dev nD) : W3 m ρ c (Proc.devRef .tc main_arg10) = m ((c : Thread nD τ).loc main_arg10) :=
  (keep1 m ρ c main_arg10 (by decide)).trans (W2_of_arg m ρ c main_arg10 (by decide) (by decide))

theorem W5_main_arg1 (c : Dev nD) : W5 m ρ c (Proc.devRef .tc main_arg1) = m ((c : Thread nD τ).loc main_arg1) :=
  (keep2 m ρ c main_arg1 (by decide)).trans ((W4_of_ne m ρ c main_arg1 (by decide)).trans (W3_main_arg1 m ρ c))
theorem W4_main_arg10 (c : Dev nD) : W4 m ρ c (Proc.devRef .tc main_arg10) = m ((c : Thread nD τ).loc main_arg10) :=
  (W4_of_ne m ρ c main_arg10 (by decide)).trans (W3_main_arg10 m ρ c)

/-- The second region's output row, at the third region's entry: what its write-backs left. -/
theorem W5_main_v21 (c : Dev nD) : W5 m ρ c (Proc.devRef .tc main_v21) = (dat1 (V3 m ρ) c).arrAt 4 cfg1.N :=
  (keep2 m ρ c main_v21 (by decide)).trans (W4_arr m ρ c 4)
/-- A buffer the second host stretch wrote, at the third region's entry. -/
theorem W5_of_W3 (c : Dev nD) (b : Ref sig .tc) (h2 : b ∉ hostOps2_W) (hb : ∀ w, Pipeline.arrRef spec1 w ≠ b) :
    W5 m ρ c (Proc.devRef .tc b) = W3 m ρ c (Proc.devRef .tc b) :=
  (keep2 m ρ c b h2).trans (W4_of_ne m ρ c b hb)
theorem W6_main_v18 (c : Dev nD) : W6 m ρ c (Proc.devRef .tc main_v18) = W3 m ρ c (Proc.devRef .tc main_v18) :=
  (W6_of_ne m ρ c main_v18 (by decide)).trans (W5_of_W3 m ρ c main_v18 (by decide) (by decide))
/-- The first region's output row, at the second host stretch's entry. -/
theorem W2_main_v4 (c : Dev nD) : W2 m ρ c (Proc.devRef .tc main_v4) = (dat0 (V1 m ρ) c).arrAt 6 cfg0.N := W2_arr m ρ c 6
/-- The reshaped bias rows, at the second region's entry. -/
theorem W3_of_W1 (c : Dev nD) (b : Ref sig .tc) (h1 : b ∉ hostOps1_W) (hb : ∀ w, Pipeline.arrRef spec0 w ≠ b) :
    W3 m ρ c (Proc.devRef .tc b) = W1 m ρ c (Proc.devRef .tc b) :=
  (keep1 m ρ c b h1).trans (W2_of_ne m ρ c b hb)
/-- The third region's two outputs, at the last host stretch's entry. -/
theorem W6_main_v23_0 (c : Dev nD) : W6 m ρ c (Proc.devRef .tc main_v23_0) = (dat2 (V5 m ρ) c).arrAt 5 cfg2.N := W6_arr m ρ c 5
theorem W6_main_v23_1 (c : Dev nD) : W6 m ρ c (Proc.devRef .tc main_v23_1) = (dat2 (V5 m ρ) c).arrAt 6 cfg2.N := W6_arr m ρ c 6

/-! ## The host stretches, each read as the composed term of its operations -/

theorem W1_main_v0 (c : Dev nD) : W1 m ρ c (Proc.devRef .tc main_v0) = rowB8192 (m ((c : Thread nD τ).loc main_arg5)) := by
  show StableHlo.after hostOps0 (W0 m ρ c) (Proc.devRef .tc main_v0) = _
  after_results; rfl
theorem W1_main_v1 (c : Dev nD) : W1 m ρ c (Proc.devRef .tc main_v1) = rowB8192 (m ((c : Thread nD τ).loc main_arg7)) := by
  show StableHlo.after hostOps0 (W0 m ρ c) (Proc.devRef .tc main_v1) = _
  after_results; rfl
theorem W1_main_v2 (c : Dev nD) : W1 m ρ c (Proc.devRef .tc main_v2) = rowB2048 (m ((c : Thread nD τ).loc main_arg9)) := by
  show StableHlo.after hostOps0 (W0 m ρ c) (Proc.devRef .tc main_v2) = _
  after_results; rfl
theorem W1_main_v3 (c : Dev nD) : W1 m ρ c (Proc.devRef .tc main_v3) = rowB2048 (m ((c : Thread nD τ).loc main_arg11)) := by
  show StableHlo.after hostOps0 (W0 m ρ c) (Proc.devRef .tc main_v3) = _
  after_results; rfl
theorem W3_main_v11 (c : Dev nD) : W3 m ρ c (Proc.devRef .tc main_v11) = hostI (W2 m ρ c (Proc.devRef .tc main_v4)) := by
  show StableHlo.after hostOps1 (W2 m ρ c) (Proc.devRef .tc main_v11) = _
  after_results; rfl
theorem W3_main_v18 (c : Dev nD) : W3 m ρ c (Proc.devRef .tc main_v18) = hostO (W2 m ρ c (Proc.devRef .tc main_v4)) := by
  show StableHlo.after hostOps1 (W2 m ρ c) (Proc.devRef .tc main_v18) = _
  after_results; rfl
theorem W3_main_v20 (c : Dev nD) : W3 m ρ c (Proc.devRef .tc main_v20) = hostG (W2 m ρ c (Proc.devRef .tc main_v4)) := by
  show StableHlo.after hostOps1 (W2 m ρ c) (Proc.devRef .tc main_v20) = _
  after_results; rfl
theorem W5_main_v22 (c : Dev nD) : W5 m ρ c (Proc.devRef .tc main_v22) = hostAw (W4 m ρ c (Proc.devRef .tc main_arg10)) := by
  show StableHlo.after hostOps2 (W4 m ρ c) (Proc.devRef .tc main_v22) = _
  after_results; rfl
theorem W7_main_v34 (c : Dev nD) : W7 m ρ c (Proc.devRef .tc main_v34) = tailC1 (W6 m ρ c (Proc.devRef .tc main_v23_0)) (W6 m ρ c (Proc.devRef .tc main_v23_1)) := by
  show StableHlo.after hostOps3 (W6 m ρ c) (Proc.devRef .tc main_v34) = _
  after_results; rfl
theorem W7_main_v36 (c : Dev nD) : W7 m ρ c (Proc.devRef .tc main_v36) = tailH1 (W6 m ρ c (Proc.devRef .tc main_v18)) (tailC1 (W6 m ρ c (Proc.devRef .tc main_v23_0)) (W6 m ρ c (Proc.devRef .tc main_v23_1))) := by
  show StableHlo.after hostOps3 (W6 m ρ c) (Proc.devRef .tc main_v36) = _
  after_results; rfl

/-! ## The two results -/

/-- The new cell state. -/
theorem res_c1 (c : Dev nD) :
    W7 m ρ c (Proc.devRef .tc main_v34) = Cert.Spec.c1Arr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W7_main_v34, W6_main_v23_0, W6_main_v23_1, final2_5, final2_6]
  dsimp only [V5]
  rw [W5_main_v21, final1]
  dsimp only [V3]
  rw [W3_main_arg0, W3_main_arg8, W3_of_W1 m ρ c main_v2 (by decide) (by decide), W1_main_v2, W3_of_W1 m ρ c main_v3 (by decide) (by decide), W1_main_v3]
  rw [W5_of_W3 m ρ c main_v11 (by decide) (by decide), W3_main_v11, W2_main_v4, final0]
  dsimp only [V1]
  rw [W1_of_arg m ρ c main_arg0 (by decide), W1_of_arg m ρ c main_arg2 (by decide), W1_of_arg m ρ c main_arg4 (by decide), W1_of_arg m ρ c main_arg6 (by decide), W1_main_v0, W1_main_v1]
  rw [W5_main_v22, W4_main_arg10, W5_main_arg1]
  rw [W5_of_W3 m ρ c main_v20 (by decide) (by decide), W3_main_v20, W2_main_v4, final0]
  dsimp only [V1]
  rw [W1_of_arg m ρ c main_arg0 (by decide), W1_of_arg m ρ c main_arg2 (by decide), W1_of_arg m ρ c main_arg4 (by decide), W1_of_arg m ρ c main_arg6 (by decide), W1_main_v0, W1_main_v1]
  exact kernel_c1 _ _ _ _ _ _ _ _ _ _ _

/-- The new hidden state. -/
theorem res_h1 (c : Dev nD) :
    W7 m ρ c (Proc.devRef .tc main_v36) = Cert.Spec.h1Arr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [W7_main_v36, W6_main_v18, W3_main_v18, W6_main_v23_0, W6_main_v23_1, final2_5, final2_6]
  dsimp only [V5]
  rw [W5_main_v21, final1]
  dsimp only [V3]
  rw [W3_main_arg0, W3_main_arg8, W3_of_W1 m ρ c main_v2 (by decide) (by decide), W1_main_v2, W3_of_W1 m ρ c main_v3 (by decide) (by decide), W1_main_v3]
  rw [W5_of_W3 m ρ c main_v11 (by decide) (by decide), W3_main_v11, W2_main_v4, final0]
  dsimp only [V1]
  rw [W1_of_arg m ρ c main_arg0 (by decide), W1_of_arg m ρ c main_arg2 (by decide), W1_of_arg m ρ c main_arg4 (by decide), W1_of_arg m ρ c main_arg6 (by decide), W1_main_v0, W1_main_v1]
  rw [W5_main_v22, W4_main_arg10, W5_main_arg1]
  rw [W5_of_W3 m ρ c main_v20 (by decide) (by decide), W3_main_v20, W2_main_v4, final0]
  dsimp only [V1]
  rw [W1_of_arg m ρ c main_arg0 (by decide), W1_of_arg m ρ c main_arg2 (by decide), W1_of_arg m ρ c main_arg4 (by decide), W1_of_arg m ρ c main_arg6 (by decide), W1_main_v0, W1_main_v1]
  exact kernel_h1 _ _ _ _ _ _ _ _ _ _ _

end Cert.KernelIdeal.Hand

end
-- ==== Proof.RefGate.lean ====
/-
  The reference's gate stage, read index by index.

  The reference computes the 8192 gate pre-activations as ((x·W_ihᵀ + b_ih) + h₀·W_hhᵀ) + b_hh, slices them into four
  rows of 2048, and applies the logistic function (spelt 1 / (1 + e^{-z})) to the first and third slices and the
  hyperbolic tangent to the fourth. Here: each of those stages at hidden unit h is the specification's input gate,
  output gate and candidate at h.
-/
import proofs.«115356_j45689862095431_2_alg».proof.Proof.Gen.ReferenceIdeal.Read
import proofs.«115356_j45689862095431_2_alg».proof.Proof.MergeLaw
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx

variable [Facts]

/-- The logistic function as the reference spells it: negate, exponential, add one, divide one by it. -/
theorem sig_ops (z : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf z)))
      = Cert.Spec.sig z := by
  simp only [Ideal.ofBits_def, Ideal.ofBits_one_f32, Ideal.hostDivf_def, Ideal.addf_def, Ideal.hostUnary_exp_def,
    Ideal.hostNegf_def, Ideal.negf_def]
  rfl

section Gate
variable (x0 : (⟨S1x4096, .f32⟩ : BufTy).Contents (Elt Ideal)) (x2 : (⟨S1x2048, .f32⟩ : BufTy).Contents (Elt Ideal))
  (x4 : (⟨S8192x4096, .f32⟩ : BufTy).Contents (Elt Ideal)) (x5 : (⟨S8192, .f32⟩ : BufTy).Contents (Elt Ideal))
  (x6 : (⟨S8192x2048, .f32⟩ : BufTy).Contents (Elt Ideal)) (x7 : (⟨S8192, .f32⟩ : BufTy).Contents (Elt Ideal))

/-! The index maps of the gate stage, at row 0 and column j. -/

theorem lidx_v1 (j : Fin 8192) (k : Fin 4096) : lidx_main_v1 (ix2 (0 : Fin 1) j) k = ix2 (0 : Fin 1) k :=
  funext fun a => by match a with | ⟨0, _⟩ => rfl | ⟨1, _⟩ => rfl
theorem ridx_v1 (j : Fin 8192) (k : Fin 4096) : idx_main_v0 (ridx_main_v1 (ix2 (0 : Fin 1) j) k) = ix2 j k :=
  funext fun a => by match a with | ⟨0, _⟩ => rfl | ⟨1, _⟩ => rfl
theorem lidx_v5 (j : Fin 8192) (k : Fin 2048) : lidx_main_v5 (ix2 (0 : Fin 1) j) k = ix2 (0 : Fin 1) k :=
  funext fun a => by match a with | ⟨0, _⟩ => rfl | ⟨1, _⟩ => rfl
theorem ridx_v5 (j : Fin 8192) (k : Fin 2048) : idx_main_v4 (ridx_main_v5 (ix2 (0 : Fin 1) j) k) = ix2 j k :=
  funext fun a => by match a with | ⟨0, _⟩ => rfl | ⟨1, _⟩ => rfl
theorem idx_v2 (j : Fin 8192) : idx_main_v2 (ix2 (0 : Fin 1) j) = ix1 j :=
  funext fun a => by match a with | ⟨0, _⟩ => rfl
theorem idx_v7 (j : Fin 8192) : idx_main_v7 (ix2 (0 : Fin 1) j) = ix1 j :=
  funext fun a => by match a with | ⟨0, _⟩ => rfl

/-- The pre-activation stage at column j is the specification's gate j. -/
theorem gate_eq (j : Fin 8192) :
    val_main_v8 (F := Ideal) x0 x2 x4 x5 x6 x7 (ix2 (0 : Fin 1) j) = Cert.Spec.gate x0 x2 x4 x5 x6 x7 j := by
  rw [val_main_v8_apply, val_main_v6_apply, val_main_v3_apply, val_main_v1_apply, val_main_v5_apply,
    val_main_v2_apply, val_main_v7_apply]
  simp only [val_main_v0_apply, val_main_v4_apply, Ideal.addf_def, lidx_v1, ridx_v1, lidx_v5, ridx_v5, idx_v2, idx_v7]
  unfold Cert.Spec.gate Cert.Spec.xW Cert.Spec.hW
  exact Cert.Spec.gate_regroup _ _ _ _

/-! The four slices read the pre-activations at an offset. -/

theorem idx_v9 (h : Fin 2048) : idx_main_v9 (ix2 (0 : Fin 1) h) = ix2 (0 : Fin 1) (⟨h.val, by omega⟩ : Fin 8192) :=
  funext fun a => by match a with | ⟨0, _⟩ => rfl | ⟨1, _⟩ => rfl
theorem idx_v11 (h : Fin 2048) : idx_main_v11 (ix2 (0 : Fin 1) h) = ix2 (0 : Fin 1) (⟨4096 + h.val, by omega⟩ : Fin 8192) :=
  funext fun a => by match a with | ⟨0, _⟩ => rfl | ⟨1, _⟩ => rfl
theorem idx_v12 (h : Fin 2048) : idx_main_v12 (ix2 (0 : Fin 1) h) = ix2 (0 : Fin 1) (⟨6144 + h.val, by omega⟩ : Fin 8192) :=
  funext fun a => by match a with | ⟨0, _⟩ => rfl | ⟨1, _⟩ => rfl

/-- The input-gate stage at hidden unit h. -/
theorem iG_eq (h : Fin 2048) :
    val_main_v18 (F := Ideal) x0 x2 x4 x5 x6 x7 (ix2 (0 : Fin 1) h) = Cert.Spec.iG x0 x2 x4 x5 x6 x7 h := by
  rw [val_main_v18_apply, val_main_v17_apply, val_main_cst_0_apply, val_main_v16_apply, val_main_v15_apply,
    val_main_cst_apply, val_main_v14_apply, val_main_v13_apply, val_main_v9_apply, idx_v9, gate_eq, sig_ops]
  rfl

/-- The output-gate stage at hidden unit h. -/
theorem oG_eq (h : Fin 2048) :
    val_main_v33 (F := Ideal) x0 x2 x4 x5 x6 x7 (ix2 (0 : Fin 1) h) = Cert.Spec.oG x0 x2 x4 x5 x6 x7 h := by
  rw [val_main_v33_apply, val_main_v32_apply, val_main_cst_5_apply, val_main_v31_apply, val_main_v30_apply,
    val_main_cst_4_apply, val_main_v29_apply, val_main_v28_apply, val_main_v11_apply, idx_v11, gate_eq, sig_ops]
  rfl

/-- The candidate stage at hidden unit h. -/
theorem gG_eq (h : Fin 2048) :
    val_main_v27 (F := Ideal) x0 x2 x4 x5 x6 x7 (ix2 (0 : Fin 1) h) = Cert.Spec.gG x0 x2 x4 x5 x6 x7 h := by
  rw [val_main_v27_apply, val_main_v12_apply, idx_v12, gate_eq, Ideal.hostUnary_tanh_def]
  rfl

end Gate

end Cert.ReferenceIdeal.RefValue

end
-- ==== Proof.RefAlpha.lean ====
/-
  The reference's lexicon-gate stage, read index by index.

  The reference computes α's argument at lexicon row r and hidden unit h as ((x·aW_ihᵀ + ab_ih) + c·aW_hhᵀ) + ab_hh
  (the row-independent part broadcast over the 4096 rows) and applies the logistic function, spelt
  1 / (1 + e^{-z}). Here: that stage at (r, h) is the specification's α[r, h].
-/
import proofs.«115356_j45689862095431_2_alg».proof.Proof.RefGate

noncomputable section

open scoped BigOperators

namespace Cert.ReferenceIdeal.RefValue

open Cert.ReferenceIdeal Cert.ReferenceIdeal.Read Idealize.ShloMosaic Idealize.ShloMosaic.ValueIdx

variable [Facts]

section Alpha
variable (x0 : (⟨S1x4096, .f32⟩ : BufTy).Contents (Elt Ideal)) (x1 : (⟨S4096x2048, .f32⟩ : BufTy).Contents (Elt Ideal))
  (x8 : (⟨S2048x4096, .f32⟩ : BufTy).Contents (Elt Ideal)) (x9 : (⟨S2048, .f32⟩ : BufTy).Contents (Elt Ideal))
  (x10 : (⟨S2048x2048, .f32⟩ : BufTy).Contents (Elt Ideal)) (x11 : (⟨S2048, .f32⟩ : BufTy).Contents (Elt Ideal))

/-! The index maps of the lexicon-gate stage, at row r and column h. -/

theorem idx_v40 (r : Fin 4096) (h : Fin 2048) : idx_main_v40 (ix2 r h) = ix2 (0 : Fin 1) h :=
  funext fun a => by match a with | ⟨0, _⟩ => rfl | ⟨1, _⟩ => rfl
theorem idx_v43 (r : Fin 4096) (h : Fin 2048) : idx_main_v43 (ix2 r h) = ix2 (0 : Fin 1) h :=
  funext fun a => by match a with | ⟨0, _⟩ => rfl | ⟨1, _⟩ => rfl
theorem lidx_v35 (h : Fin 2048) (k : Fin 4096) : lidx_main_v35 (ix2 (0 : Fin 1) h) k = ix2 (0 : Fin 1) k :=
  funext fun a => by match a with | ⟨0, _⟩ => rfl | ⟨1, _⟩ => rfl
theorem ridx_v35 (h : Fin 2048) (k : Fin 4096) : idx_main_v34 (ridx_main_v35 (ix2 (0 : Fin 1) h) k) = ix2 h k :=
  funext fun a => by match a with | ⟨0, _⟩ => rfl | ⟨1, _⟩ => rfl
theorem idx_v36 (h : Fin 2048) : idx_main_v36 (ix2 (0 : Fin 1) h) = ix1 h :=
  funext fun a => by match a with | ⟨0, _⟩ => rfl
theorem idx_v42 (h : Fin 2048) : idx_main_v42 (ix2 (0 : Fin 1) h) = ix1 h :=
  funext fun a => by match a with | ⟨0, _⟩ => rfl
theorem lidx_v39 (r : Fin 4096) (h : Fin 2048) (k : Fin 2048) : lidx_main_v39 (ix2 r h) k = ix2 r k :=
  funext fun a => by match a with | ⟨0, _⟩ => rfl | ⟨1, _⟩ => rfl
theorem ridx_v39 (r : Fin 4096) (h : Fin 2048) (k : Fin 2048) : idx_main_v38 (ridx_main_v39 (ix2 r h) k) = ix2 h k :=
  funext fun a => by match a with | ⟨0, _⟩ => rfl | ⟨1, _⟩ => rfl

/-- The lexicon-gate stage at row r and hidden unit h is the specification's α[r, h]. -/
theorem alpha_eq (r : Fin 4096) (h : Fin 2048) :
    val_main_v50 (F := Ideal) x0 x1 x8 x9 x10 x11 (ix2 r h) = Cert.Spec.alpha x0 x1 x8 x9 x10 x11 r h := by
  rw [val_main_v50_apply, val_main_v49_apply, val_main_cst_7_apply, val_main_v48_apply, val_main_v47_apply,
    val_main_cst_6_apply, val_main_v46_apply, val_main_v45_apply, sig_ops]
  rw [val_main_v44_apply, val_main_v41_apply, val_main_v40_apply, idx_v40, val_main_v37_apply, val_main_v35_apply,
    val_main_v36_apply, val_main_v39_apply, val_main_v43_apply, idx_v43, val_main_v42_apply]
  simp only [val_main_v34_apply, val_main_v38_apply, Ideal.addf_def, lidx_v35, ridx_v35, idx_v36, lidx_v39, ridx_v39,
    idx_v42]
  unfold Cert.Spec.alpha Cert.Spec.bias Cert.Spec.cA
  exact congrArg Cert.Spec.sig (Cert.Spec.alpha_regroup _ _ _ _)

end Alpha

end Cert.ReferenceIdeal.RefValue

end
-- ==== Proof.RefValue.lean ====
/-
  The reference program's two results, read index by index at the extended reals, are the specification's
  new hidden state and new cell state.

  The reference stacks the input-gate row on the 4096 lexicon-gate rows, exponentiates, divides every weight by the
  column's sum (a reduction that starts from zero), multiplies by the stacked candidates (the candidate row on the
  lexicon) and sums each column (again from zero). Read at hidden unit h, with row 0 split off the 4097-row sums,
  that is  0 + (g·(eⁱ/S) + Σ_r c[r,h]·(e^{α[r,h]}/S)),  S = 0 + (eⁱ + Σ_r e^{α[r,h]}),  which the merge law turns into
  the specification's single quotient when the lexicon entries are real numbers.
-/
import proofs.«115356_j45689862095431_2_alg».proof.Proof.RefAlpha

noncomputable section

open scoped BigOperators

namespace Cert.ReferenceIdeal.RefValue

open Cert.ReferenceIdeal Cert.ReferenceIdeal.Read Idealize.ShloMosaic Idealize.ShloMosaic.ValueIdx

variable [Facts]

/-- Row r + 1 of the stacked 4097 rows: lexicon row r. -/
abbrev rowS (r : Fin 4096) : Fin 4097 := ⟨r.val + 1, by omega⟩

/-- A sum over the 4097 stacked rows: row 0, then the 4096 lexicon rows. -/
theorem sum_split (f : Fin 4097 → EReal) : ∑ k : Fin 4097, f k = f 0 + ∑ r : Fin 4096, f (rowS r) :=
  Fin.sum_univ_succ (n := 4096) f

section Merge
variable (x0 : (⟨S1x4096, .f32⟩ : BufTy).Contents (Elt Ideal)) (x1 : (⟨S4096x2048, .f32⟩ : BufTy).Contents (Elt Ideal))
  (x2 : (⟨S1x2048, .f32⟩ : BufTy).Contents (Elt Ideal)) (x4 : (⟨S8192x4096, .f32⟩ : BufTy).Contents (Elt Ideal))
  (x5 : (⟨S8192, .f32⟩ : BufTy).Contents (Elt Ideal)) (x6 : (⟨S8192x2048, .f32⟩ : BufTy).Contents (Elt Ideal))
  (x7 : (⟨S8192, .f32⟩ : BufTy).Contents (Elt Ideal)) (x8 : (⟨S2048x4096, .f32⟩ : BufTy).Contents (Elt Ideal))
  (x9 : (⟨S2048, .f32⟩ : BufTy).Contents (Elt Ideal)) (x10 : (⟨S2048x2048, .f32⟩ : BufTy).Contents (Elt Ideal))
  (x11 : (⟨S2048, .f32⟩ : BufTy).Contents (Elt Ideal))

/-! The index maps of the merge stage. -/

theorem idx_v60 (h : Fin 2048) : idx_main_v60 (ix2 (0 : Fin 1) h) = ix1 h :=
  funext fun a => by match a with | ⟨0, _⟩ => rfl
theorem idx_v59 (h : Fin 2048) (k : Fin 4097) : idx_main_v59 (ix1 h) k = ix2 k h :=
  funext fun a => by match a with | ⟨0, _⟩ => rfl | ⟨1, _⟩ => rfl
theorem idx_v53 (h : Fin 2048) (k : Fin 4097) : idx_main_v53 (ix1 h) k = ix2 k h :=
  funext fun a => by match a with | ⟨0, _⟩ => rfl | ⟨1, _⟩ => rfl
theorem idx_v55 (k : Fin 4097) (h : Fin 2048) : idx_main_v54 (idx_main_v55 (ix2 k h)) = ix1 h :=
  funext fun a => by match a with | ⟨0, _⟩ => rfl

/-! The two stacked arrays at row 0 and at row r + 1. -/

theorem gates_zero (h : Fin 2048) :
    val_main_v51 (F := Ideal) x0 x1 x2 x4 x5 x6 x7 x8 x9 x10 x11 (ix2 (0 : Fin 4097) h) = Cert.Spec.iG x0 x2 x4 x5 x6 x7 h := by
  unfold val_main_v51
  refine (concatenate_pair_apply_left (t := S4097x2048) (s₁ := S1x2048) (s₂ := S4096x2048) (0 : Fin S4097x2048.rank) _ _ _ (ix2 (0 : Fin 4097) h) rfl (ix2 (0 : Fin 1) h)
    ?_).trans (iG_eq x0 x2 x4 x5 x6 x7 h)
  intro b
  match b with
  | ⟨0, _⟩ => rfl
  | ⟨1, _⟩ => rfl

theorem gates_succ (r : Fin 4096) (h : Fin 2048) :
    val_main_v51 (F := Ideal) x0 x1 x2 x4 x5 x6 x7 x8 x9 x10 x11 (ix2 (rowS r) h) = Cert.Spec.alpha x0 x1 x8 x9 x10 x11 r h := by
  unfold val_main_v51
  refine (concatenate_pair_apply_right (t := S4097x2048) (s₁ := S1x2048) (s₂ := S4096x2048) (0 : Fin S4097x2048.rank) _ _ _ (ix2 (rowS r) h) rfl rfl (ix2 r h)
    ?_ ?_).trans (alpha_eq x0 x1 x8 x9 x10 x11 r h)
  · intro b hb
    match b, hb with
    | ⟨0, _⟩, hb => exact absurd rfl hb
    | ⟨1, _⟩, _ => rfl
  · rfl

theorem cands_zero (h : Fin 2048) :
    val_main_v57 (F := Ideal) x0 x1 x2 x4 x5 x6 x7 (ix2 (0 : Fin 4097) h) = Cert.Spec.gG x0 x2 x4 x5 x6 x7 h := by
  unfold val_main_v57
  refine (concatenate_pair_apply_left (t := S4097x2048) (s₁ := S1x2048) (s₂ := S4096x2048) (0 : Fin S4097x2048.rank) _ _ _ (ix2 (0 : Fin 4097) h) rfl (ix2 (0 : Fin 1) h)
    ?_).trans (gG_eq x0 x2 x4 x5 x6 x7 h)
  intro b
  match b with
  | ⟨0, _⟩ => rfl
  | ⟨1, _⟩ => rfl

theorem cands_succ (r : Fin 4096) (h : Fin 2048) :
    val_main_v57 (F := Ideal) x0 x1 x2 x4 x5 x6 x7 (ix2 (rowS r) h) = x1 (ix2 r h) := by
  unfold val_main_v57
  refine concatenate_pair_apply_right (t := S4097x2048) (s₁ := S1x2048) (s₂ := S4096x2048) (0 : Fin S4097x2048.rank) _ _ _ (ix2 (rowS r) h) rfl rfl (ix2 r h) ?_ ?_
  · intro b hb
    match b, hb with
    | ⟨0, _⟩, hb => exact absurd rfl hb
    | ⟨1, _⟩, _ => rfl
  · rfl

/-! The weights, their column sum, and the weighted candidates. -/

theorem weight_zero (h : Fin 2048) :
    val_main_v52 (F := Ideal) x0 x1 x2 x4 x5 x6 x7 x8 x9 x10 x11 (ix2 (0 : Fin 4097) h) = Ideal.exp (Cert.Spec.iG x0 x2 x4 x5 x6 x7 h) := by
  rw [val_main_v52_apply, gates_zero, Ideal.hostUnary_exp_def]

theorem weight_succ (r : Fin 4096) (h : Fin 2048) :
    val_main_v52 (F := Ideal) x0 x1 x2 x4 x5 x6 x7 x8 x9 x10 x11 (ix2 (rowS r) h) = Ideal.exp (Cert.Spec.alpha x0 x1 x8 x9 x10 x11 r h) := by
  rw [val_main_v52_apply, gates_succ, Ideal.hostUnary_exp_def]

/-- The normaliser of hidden unit h, as the reference's reduction spells it. -/
theorem norm_eq (h : Fin 2048) :
    val_main_v53 (F := Ideal) x0 x1 x2 x4 x5 x6 x7 x8 x9 x10 x11 (ix1 h)
      = 0 + (Ideal.exp (Cert.Spec.iG x0 x2 x4 x5 x6 x7 h) + ∑ r : Fin 4096, Ideal.exp (Cert.Spec.alpha x0 x1 x8 x9 x10 x11 r h)) := by
  rw [val_main_v53_apply, val_main_cst_8_apply, Ideal.ofBits_def, Ideal.ofBits_zero_f32, sum_split]
  simp only [idx_v53, weight_zero, weight_succ]

/-- A weighted candidate of hidden unit h at stacked row k. -/
theorem term_eq (k : Fin 4097) (h : Fin 2048) :
    val_main_v58 (F := Ideal) x0 x1 x2 x4 x5 x6 x7 x8 x9 x10 x11 (ix2 k h)
      = val_main_v57 (F := Ideal) x0 x1 x2 x4 x5 x6 x7 (ix2 k h)
        * Ideal.div (val_main_v52 (F := Ideal) x0 x1 x2 x4 x5 x6 x7 x8 x9 x10 x11 (ix2 k h))
            (0 + (Ideal.exp (Cert.Spec.iG x0 x2 x4 x5 x6 x7 h) + ∑ r : Fin 4096, Ideal.exp (Cert.Spec.alpha x0 x1 x8 x9 x10 x11 r h))) := by
  rw [val_main_v58_apply, val_main_v56_apply, val_main_v55_apply, val_main_v54_apply, idx_v55, norm_eq,
    Ideal.mulf_def, Ideal.hostDivf_def]

/-- The reference's new cell state at hidden unit h is the specification's. -/
theorem cell_eq (hfin : ∀ i, x1 i ≠ ⊤ ∧ x1 i ≠ ⊥) (h : Fin 2048) :
    val_main_v59 (F := Ideal) x0 x1 x2 x4 x5 x6 x7 x8 x9 x10 x11 (ix1 h) = Cert.Spec.c1 x0 x1 x2 x4 x5 x6 x7 x8 x9 x10 x11 h := by
  rw [val_main_v59_apply, val_main_cst_9_apply, Ideal.ofBits_def, Ideal.ofBits_zero_f32, sum_split]
  simp only [idx_v59, term_eq, cands_zero, cands_succ, weight_zero, weight_succ]
  exact Cert.Spec.merge_law (Ideal.exp (Cert.Spec.iG x0 x2 x4 x5 x6 x7 h)) (Cert.Spec.gG x0 x2 x4 x5 x6 x7 h)
    (fun r => Ideal.exp (Cert.Spec.alpha x0 x1 x8 x9 x10 x11 r h)) (fun r => x1 (ix2 r h))
    (Cert.Spec.exp_sig_pos _) (Cert.Spec.tanh_real _) (fun _ => Cert.Spec.exp_sig_pos _)
    (fun r => Cert.Spec.exists_real_of_finite (hfin (ix2 r h)))

/-- The reference's second result is the specification's new cell state, when the lexicon entries are real. -/
theorem ref_c1 (hfin : ∀ i, x1 i ≠ ⊤ ∧ x1 i ≠ ⊥) :
    val_main_v60 (F := Ideal) x0 x1 x2 x4 x5 x6 x7 x8 x9 x10 x11 = Cert.Spec.c1Arr x0 x1 x2 x4 x5 x6 x7 x8 x9 x10 x11 := by
  funext i
  obtain ⟨p, h, rfl⟩ : ∃ (p : Fin 1) (h : Fin 2048), i = ix2 p h := ⟨i 0, i 1, eq_ix2 i⟩
  obtain rfl : p = 0 := Subsingleton.elim _ _
  rw [val_main_v60_apply, idx_v60, cell_eq x0 x1 x2 x4 x5 x6 x7 x8 x9 x10 x11 hfin]
  rfl

/-- The reference's first result is the specification's new hidden state, when the lexicon entries are real. -/
theorem ref_h1 (hfin : ∀ i, x1 i ≠ ⊤ ∧ x1 i ≠ ⊥) :
    val_main_v62 (F := Ideal) x0 x1 x2 x4 x5 x6 x7 x8 x9 x10 x11 = Cert.Spec.h1Arr x0 x1 x2 x4 x5 x6 x7 x8 x9 x10 x11 := by
  funext i
  obtain ⟨p, h, rfl⟩ : ∃ (p : Fin 1) (h : Fin 2048), i = ix2 p h := ⟨i 0, i 1, eq_ix2 i⟩
  obtain rfl : p = 0 := Subsingleton.elim _ _
  rw [val_main_v62_apply, oG_eq, val_main_v61_apply, val_main_v60_apply, idx_v60, cell_eq x0 x1 x2 x4 x5 x6 x7 x8 x9 x10 x11 hfin,
    Ideal.mulf_def, Ideal.hostUnary_tanh_def]
  rfl

end Merge

end Cert.ReferenceIdeal.RefValue

end
-- ==== Proof.LibFinite.lean ====
/-
  General facts about finiteness on the extended reals, for certificates whose precondition says that every
  float input is finite and whose algebra (distributivity, cancellation) needs it.

  * `coe_sum`: the inclusion of the reals into the extended reals commutes with finite sums, so an identity
    between sums of finite entries can be proved over the reals and carried back.
  * `ofBool_one`, `inf_word`, `finite_of_abs_lt`: one element of a printed `|x| < +∞` test, read back — the
    f32 word `0x7F800000` is `+∞`, `|x|` is `max x (-x)`, and that is below `+∞` only when `x` is a real number.
-/
import Idealize.ShloMosaic.PureOps.Ideal
import Idealize.ShloMosaic.PureOps.Ideal.Laws

namespace Cert.LibFinite

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Boolean read as a one-bit word is the word 1 exactly when it is true. -/
theorem ofBool_one (b : Bool) : BitVec.ofBool b = 1#1 ↔ b = true := by cases b <;> decide

/-- The f32 word `0x7F800000` is `+∞`. -/
theorem inf_word : Ideal.ofBits .f32 0x7F800000#32 = ⊤ := by simp [Ideal.ofBits, Ideal.ieee]

/-- An extended real whose absolute value compares below `+∞` is neither infinity: `|x| = max x (-x)` is `+∞` at
    both. (The host's and the kernel's absolute value are one function on the extended reals.) -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, inf_word] at h
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨EReal.coe_ne_top r, EReal.coe_ne_bot r⟩

end Cert.LibFinite
-- ==== Proof.Finite.lean ====
/-
  From the precondition to finiteness of the lexicon.

  The precondition is the conjunction, over the twelve argument arrays, of "every element has absolute value below
  +∞". Its second conjunct speaks of the 4096×2048 lexicon: read back element by element it says that every lexicon
  entry is a real number (neither +∞ nor −∞, the extended reals' only other values).
-/
import proofs.«115356_j45689862095431_2_alg».proof.Pre_finite_inputs
import proofs.«115356_j45689862095431_2_alg».proof.Proof.LibFinite
import Idealize.ShloMosaic.Lib.ReduceAll
import Idealize.ShloMosaic.Lib.ValueIdx
import Idealize.ShloMosaic.Lib.IdealHost

noncomputable section

namespace Cert.Finite

open Idealize.ShloMosaic Cert.Pre_finite_inputs

/-- The scalar shape has one index. -/
instance : Subsingleton S_.Idx := ⟨fun a b => funext fun d => d.elim0⟩

/-- A conjunction of two one-bit arrays that is 1 at an index: both are 1 there. -/
theorem and_split {s : Shape} (x y : IVec s 1) (i : s.Idx) (h : andi x y i = 1#1) : x i = 1#1 ∧ y i = 1#1 :=
  IntOp.andi_eq_one.1 h

/-- Under the precondition every lexicon entry is a real number. -/
theorem cin_finite [Facts] (a0 : FVec Ideal S1x4096 .f32) (a1 : FVec Ideal S4096x2048 .f32)
    (a2 a3 : FVec Ideal S1x2048 .f32) (a4 : FVec Ideal S8192x4096 .f32) (a5 : FVec Ideal S8192 .f32)
    (a6 : FVec Ideal S8192x2048 .f32) (a7 : FVec Ideal S8192 .f32) (a8 : FVec Ideal S2048x4096 .f32)
    (a9 : FVec Ideal S2048 .f32) (a10 : FVec Ideal S2048x2048 .f32) (a11 : FVec Ideal S2048 .f32)
    (h : fn (F := Ideal) a0 a1 a2 a3 a4 a5 a6 a7 a8 a9 a10 a11 = fun _ => 1#1) :
    ∀ i, a1 i ≠ ⊤ ∧ a1 i ≠ ⊥ := by
  intro i
  have h0 := congrFun h ValueIdx.ix0
  dsimp only [fn, fn_part1, fn_part2, fn_part3] at h0
  -- the conjunction nests to the left: the lexicon's test is the second of the innermost pair
  have h1 := (and_split _ _ _ h0).1
  have h2 := (and_split _ _ _ h1).1
  have h3 := (and_split _ _ _ h2).1
  have h4 := (and_split _ _ _ h3).1
  have h5 := (and_split _ _ _ h4).1
  have h6 := (and_split _ _ _ h5).1
  have h7 := (and_split _ _ _ h6).1
  have h8 := (and_split _ _ _ h7).1
  have h9 := (and_split _ _ _ h8).1
  have h10 := (and_split _ _ _ h9).1
  have hc := (and_split _ _ _ h10).2
  have e := Host.reduce_andi_all _ _ _ _ _ hc i
  rw [ValueIdx.cmpf_apply, ValueIdx.broadcastInDim_scalar_apply] at e
  exact Cert.LibFinite.finite_of_abs_lt (a1 i) e

end Cert.Finite

end
-- ==== Proof.lean ====
/-
  The certificate of a lattice-LSTM cell's merge step: three TensorCore kernels (the gate pre-activations
  x·W_ihᵀ + h₀·W_hhᵀ + b_ih + b_hh tiled over the 8192 gate rows; the lexicon gate's row bias x·aW_ihᵀ + ab_ih + ab_hh;
  and the exp-normalised merge over the 4096 lexicon rows, split over two cores and accumulated tile by tile in two
  scratch rows) and the host operations between them, against the plain array program.

  * The three frames: each program runs to the end, faults nowhere and leaves its twelve argument arrays as launched.
    For the two kernel programs this is the run of @main as seven segments — four stretches of host operations and the
    three kernel regions —, each region from its body's triple at every grid point; the third region's invariant
    carries the two scratch rows from one tile to the next. For the array program it is its run with the results dropped.
  * The idealization rewrote nothing, so it preserves the program trivially.
  * At the extended reals both programs compute, for every hidden unit h,
        c₁[h] = (e^{i[h]}·g[h] + Σ_r e^{α[r,h]}·c[r,h]) / (e^{i[h]} + Σ_r e^{α[r,h]}),   h₁[h] = o[h]·tanh(c₁[h]):
    the kernels literally (two per-core partial sums added, then one quotient), the array program after dividing every
    weight by the normaliser first — equal because every weight e^{σ(·)} is a real in [1, e] and the lexicon entries are
    finite (the only use of the precondition); sums are regrouped freely (the extended reals are a commutative
    monoid under +), the matrix products are plain sums of products on both sides, and σ is one function whether
    spelt as the logistic or as 1 / (1 + e^{−z}).
-/
import proofs.«115356_j45689862095431_2_alg».proof.Defs
import proofs.«115356_j45689862095431_2_alg».proof.Proof.Gen.Kernel
import proofs.«115356_j45689862095431_2_alg».proof.Proof.Gen.KernelIdeal
import proofs.«115356_j45689862095431_2_alg».proof.Proof.Gen.ReferenceIdeal
import proofs.«115356_j45689862095431_2_alg».proof.Proof.Gen.Pre_finite_inputs
import proofs.«115356_j45689862095431_2_alg».proof.Proof.K.Run
import proofs.«115356_j45689862095431_2_alg».proof.Proof.KI.Run
import proofs.«115356_j45689862095431_2_alg».proof.Proof.KI.KernelValue
import proofs.«115356_j45689862095431_2_alg».proof.Proof.RefValue
import proofs.«115356_j45689862095431_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end at the specification's new hidden state and new cell state of the arguments. -/
theorem algebraic : Cert.algebraic_KernelIdeal_ReferenceIdeal := by
  intro m ρ m' ρ' hpre hagree
  have hfin := fun c : Dev Cert.KernelIdeal.nD => Cert.Finite.cin_finite _ _ _ _ _ _ _ _ _ _ _ _ (hpre c)
  refine ⟨fun c => Cert.Spec.h1Arr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Spec.c1Arr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Hand.run_all m ρ)
    refine ⟨(h c _ (Cert.KernelIdeal.Hand.mem_uc Cert.KernelIdeal.main_v36 (by decide))).trans (Cert.KernelIdeal.Hand.res_h1 m ρ c),
      (h c _ (Cert.KernelIdeal.Hand.mem_uc Cert.KernelIdeal.main_v34 (by decide))).trans (Cert.KernelIdeal.Hand.res_c1 m ρ c),
      (h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c),
      (h c _ (Cert.KernelIdeal.Hand.mem_uc Cert.KernelIdeal.main_arg6 (by decide))).trans (Cert.KernelIdeal.Hand.W7_main_arg6 m ρ c),
      (h c _ (Cert.KernelIdeal.Hand.mem_uc Cert.KernelIdeal.main_arg7 (by decide))).trans (Cert.KernelIdeal.Hand.W7_main_arg7 m ρ c),
      (h c _ (Cert.KernelIdeal.Hand.mem_uc Cert.KernelIdeal.main_arg8 (by decide))).trans (Cert.KernelIdeal.Hand.W7_main_arg8 m ρ c),
      (h c _ (Cert.KernelIdeal.Hand.mem_uc Cert.KernelIdeal.main_arg9 (by decide))).trans (Cert.KernelIdeal.Hand.W7_main_arg9 m ρ c),
      (h c _ (Cert.KernelIdeal.Hand.mem_uc Cert.KernelIdeal.main_arg10 (by decide))).trans (Cert.KernelIdeal.Hand.W7_main_arg10 m ρ c),
      (h c _ (Cert.KernelIdeal.Hand.mem_uc Cert.KernelIdeal.main_arg11 (by decide))).trans (Cert.KernelIdeal.Hand.W7_main_arg11 m ρ c)⟩
  · refine (θ_run Cert.ReferenceIdeal.defs _ _).mono (fun r h c => ⟨?_, ?_, (h c).2.2⟩) (Cert.ReferenceIdeal.Value.run (F := Ideal) m' ρ')
    · rw [(h c).1, Cert.ReferenceIdeal.Read.val_main_v62_eq]
      obtain ⟨e0, e1, e2, e3, e4, e5, e6, e7, e8, e9, e10, e11⟩ := hagree c
      rw [e0, e1, e2, e4, e5, e6, e7, e8, e9, e10, e11]
      exact Cert.ReferenceIdeal.RefValue.ref_h1 _ _ _ _ _ _ _ _ _ _ _ (hfin c)
    · rw [(h c).2.1, Cert.ReferenceIdeal.Read.val_main_v60_eq]
      obtain ⟨e0, e1, e2, e3, e4, e5, e6, e7, e8, e9, e10, e11⟩ := hagree c
      rw [e0, e1, e2, e4, e5, e6, e7, e8, e9, e10, e11]
      exact Cert.ReferenceIdeal.RefValue.ref_c1 _ _ _ _ _ _ _ _ _ _ _ (hfin c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
